-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v78)) (v1 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_v51) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x56x56 : Shape := ⟨4, ![64, 256, 56, 56]⟩
abbrev S256 : Shape := ⟨1, ![256]⟩
abbrev S1 : Shape := ⟨1, ![1]⟩
abbrev S_ : Shape := ⟨0, ![]⟩
abbrev S1x256x1x1 : Shape := ⟨4, ![1, 256, 1, 1]⟩

class Facts : Prop where
  bcast_S_S64x256x56x56 : S_.BroadcastsInDim S64x256x56x56 (![] : Fin 0 → Fin S64x256x56x56.rank)
  reducesTo_S64x256x56x56_S_d0_1_2_3 : S64x256x56x56.ReducesTo [0, 1, 2, 3] S_
  h_S_ : 0 < S_.numel
  bcast_S_S256 : S_.BroadcastsInDim S256 (![] : Fin 0 → Fin S256.rank)
  reducesTo_S256_S_d0 : S256.ReducesTo [0] S_
  bcast_S_S1 : S_.BroadcastsInDim S1 (![] : Fin 0 → Fin S1.rank)
  reducesTo_S1_S_d0 : S1.ReducesTo [0] S_
  reducesTo_S64x256x56x56_S256_d0_2_3 : S64x256x56x56.ReducesTo [0, 2, 3] S256
  bcast_S256_S1x256x1x1_1 : S256.BroadcastsInDim S1x256x1x1 (![1] : Fin 1 → Fin S1x256x1x1.rank)
  bcast_S1x256x1x1_S64x256x56x56_0_1_2_3 : S1x256x1x1.BroadcastsInDim S64x256x56x56 (![0, 1, 2, 3] : Fin 4 → Fin S64x256x56x56.rank)
  shapeCasts_S1_S_ : S1.ShapeCasts S_

variable [Facts]

def fn_part4 {F : FTy → Type} [FloatOps F] (main_arg1 : FVec F S256 .f32) (main_v38 : IVec S_ 1) (main_v55 : FVec F S256 .f32) (main_v61 : FVec F S_ .f32) (main_v67 : FVec F S256 .f32) (main_v68 : FVec F S_ .f32) : IVec S_ 1 :=
  let main_v69 : FVec F S_ .f32 := mulf main_v61 main_v68
  let main_v70 : FVec F S256 .f32 := subf main_arg1 main_v55
  let main_v71 : FVec F S256 .f32 := mulf main_v70 main_v70
  let main_v72 : FVec F S256 .f32 := broadcastInDim S256 ![] bcast_S_S256 main_v69
  let main_v73 : FVec F S256 .f32 := mulf main_v72 main_v71
  let main_v74 : FVec F S256 .f32 := addf main_v67 main_v73
  let main_cst_25 : FVec F S_ .f32 := constant S_ .f32 0x3727C5AC#32
  let main_v75 : FVec F S256 .f32 := broadcastInDim S256 ![] bcast_S_S256 main_cst_25
  let main_v76 : FVec F S256 .f32 := addf main_v74 main_v75
  let main_cst_26 : FVec F S_ .f32 := constant S_ .f32 0x00000000#32
  let main_v77 : FVec F S256 .f32 := broadcastInDim S256 ![] bcast_S_S256 main_cst_26
  let main_v78 : IVec S256 1 := cmpf .ogt main_v76 main_v77
  let main_c_27 : IVec S_ 1 := constantI S_ 1 1#1
  let main_v79 : IVec S_ 1 := (fun x v => Host.reduce IntOp.andi x v reducesTo_S256_S_d0 h_S_) main_v78 main_c_27
  let main_v80 : IVec S_ 1 := andi main_v38 main_v79
  main_v80

def fn_part3 {F : FTy → Type} [FloatOps F] (main_arg1 : FVec F S256 .f32) (main_arg2 : FVec F S256 .f32) (main_arg5 : FVec F S256 .f32) (main_arg6 : FVec F S256 .f32) (main_arg7 : FVec F S1 .f32) (main_v38 : IVec S_ 1) (main_v41 : FVec F S256 .f32) (main_v50 : FVec F S256 .f32) : IVec S_ 1 :=
  let main_cst_19 : FVec F S_ .f32 := constant S_ .f32 0x3F666666#32
  let main_v51 : FVec F S256 .f32 := broadcastInDim S256 ![] bcast_S_S256 main_cst_19
  let main_v52 : FVec F S256 .f32 := mulf main_v51 main_arg5
  let main_cst_20 : FVec F S_ .f32 := constant S_ .f32 0x3DCCCCCD#32
  let main_v53 : FVec F S256 .f32 := broadcastInDim S256 ![] bcast_S_S256 main_cst_20
  let main_v54 : FVec F S256 .f32 := mulf main_v53 main_v41
  let main_v55 : FVec F S256 .f32 := addf main_v52 main_v54
  let main_cst_21 : FVec F S_ .f32 := constant S_ .f32 0x3F666666#32
  let main_v56 : FVec F S256 .f32 := broadcastInDim S256 ![] bcast_S_S256 main_cst_21
  let main_v57 : FVec F S256 .f32 := mulf main_v56 main_arg6
  let main_cst_22 : FVec F S_ .f32 := constant S_ .f32 0x3DCCCCCD#32
  let main_v58 : FVec F S256 .f32 := broadcastInDim S256 ![] bcast_S_S256 main_cst_22
  let main_v59 : FVec F S256 .f32 := mulf main_v58 main_v50
  let main_v60 : FVec F S256 .f32 := addf main_v57 main_v59
  let main_v61 : FVec F S_ .f32 := shapeCast S_ main_arg7 shapeCasts_S1_S_
  let main_v62 : FVec F S256 .f32 := broadcastInDim S256 ![] bcast_S_S256 main_v61
  let main_v63 : FVec F S256 .f32 := mulf main_v62 main_arg2
  let main_cst_23 : FVec F S_ .f32 := constant S_ .f32 0x3F800000#32
  let main_v64 : FVec F S_ .f32 := subf main_cst_23 main_v61
  let main_v65 : FVec F S256 .f32 := broadcastInDim S256 ![] bcast_S_S256 main_v64
  let main_v66 : FVec F S256 .f32 := mulf main_v65 main_v60
  let main_v67 : FVec F S256 .f32 := addf main_v63 main_v66
  let main_cst_24 : FVec F S_ .f32 := constant S_ .f32 0x3F800000#32
  let main_v68 : FVec F S_ .f32 := subf main_cst_24 main_v61
  fn_part4 (F := F) main_arg1 main_v38 main_v55 main_v61 main_v67 main_v68

def fn_part2 {F : FTy → Type} [FloatOps F] (main_arg0 : FVec F S64x256x56x56 .f32) (main_arg1 : FVec F S256 .f32) (main_arg2 : FVec F S256 .f32) (main_arg5 : FVec F S256 .f32) (main_arg6 : FVec F S256 .f32) (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_cst_14 : FVec F S_ .f32 := constant S_ .f32 0x00000000#32
  let main_v39 : FVec F S256 .f32 := (fun x v => Host.reduceAdd x v reducesTo_S64x256x56x56_S256_d0_2_3 h_S_) main_arg0 main_cst_14
  let main_cst_15 : FVec F S_ .f32 := constant S_ .f32 0x48440000#32
  let main_v40 : FVec F S256 .f32 := broadcastInDim S256 ![] bcast_S_S256 main_cst_15
  let main_v41 : FVec F S256 .f32 := Host.divf main_v39 main_v40
  let main_v42 : FVec F S1x256x1x1 .f32 := broadcastInDim S1x256x1x1 ![1] bcast_S256_S1x256x1x1_1 main_v41
  let main_v43 : FVec F S64x256x56x56 .f32 := broadcastInDim S64x256x56x56 ![0, 1, 2, 3] bcast_S1x256x1x1_S64x256x56x56_0_1_2_3 main_v42
  let main_v44 : FVec F S64x256x56x56 .f32 := subf main_arg0 main_v43
  let main_v45 : FVec F S64x256x56x56 .f32 := mulf main_v44 main_v44
  let main_cst_16 : FVec F S_ .f32 := constant S_ .f32 0x00000000#32
  let main_v46 : FVec F S256 .f32 := (fun x v => Host.reduceAdd x v reducesTo_S64x256x56x56_S256_d0_2_3 h_S_) main_v45 main_cst_16
  let main_cst_17 : FVec F S_ .f32 := constant S_ .f32 0x48440000#32
  let main_v47 : FVec F S256 .f32 := broadcastInDim S256 ![] bcast_S_S256 main_cst_17
  let main_v48 : FVec F S256 .f32 := Host.divf main_v46 main_v47
  let main_cst_18 : FVec F S_ .f32 := constant S_ .f32 0x3F80002A#32
  let main_v49 : FVec F S256 .f32 := broadcastInDim S256 ![] bcast_S_S256 main_cst_18
  let main_v50 : FVec F S256 .f32 := mulf main_v48 main_v49
  fn_part3 (F := F) main_arg1 main_arg2 main_arg5 main_arg6 main_arg7 main_v38 main_v41 main_v50

def fn_part1 {F : FTy → Type} [FloatOps F] (main_arg0 : FVec F S64x256x56x56 .f32) (main_arg1 : FVec F S256 .f32) (main_arg2 : FVec F S256 .f32) (main_arg4 : FVec F S256 .f32) (main_arg5 : FVec F S256 .f32) (main_arg6 : FVec F S256 .f32) (main_arg7 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg0 main_arg1 main_arg2 main_arg5 main_arg6 main_arg7 main_v33

def fn {F : FTy → Type} [FloatOps F] (main_arg0 : FVec F S64x256x56x56 .f32) (main_arg1 : FVec F S256 .f32) (main_arg2 : FVec F S256 .f32) (main_arg3 : FVec F S256 .f32) (main_arg4 : FVec F S256 .f32) (main_arg5 : FVec F S256 .f32) (main_arg6 : FVec F S256 .f32) (main_arg7 : FVec F S1 .f32) : IVec S_ 1 :=
  let main_v0 : FVec F S64x256x56x56 .f32 := Host.absf main_arg0
  let main_cst : FVec F S_ .f32 := constant S_ .f32 0x7F800000#32
  let main_v1 : FVec F S64x256x56x56 .f32 := broadcastInDim S64x256x56x56 ![] bcast_S_S64x256x56x56 main_cst
  let main_v2 : IVec S64x256x56x56 1 := cmpf .olt main_v0 main_v1
  let main_c : IVec S_ 1 := constantI S_ 1 1#1
  let main_v3 : IVec S_ 1 := (fun x v => Host.reduce IntOp.andi x v reducesTo_S64x256x56x56_S_d0_1_2_3 h_S_) main_v2 main_c
  let main_v4 : FVec F S256 .f32 := Host.absf main_arg1
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg0 main_arg1 main_arg2 main_arg4 main_arg5 main_arg6 main_arg7 main_v13 main_v16
-- ==== Kernel.lean ====
abbrev S64x256x56x56 : Shape := ⟨4, ![64, 256, 56, 56]⟩
abbrev S256 : Shape := ⟨1, ![256]⟩
abbrev S1 : Shape := ⟨1, ![1]⟩
abbrev S1x256 : Shape := ⟨2, ![1, 256]⟩
abbrev S2x256x56x56 : Shape := ⟨4, ![2, 256, 56, 56]⟩
abbrev S2x256 : Shape := ⟨2, ![2, 256]⟩
abbrev S2x256x1x1 : Shape := ⟨4, ![2, 256, 1, 1]⟩
abbrev S_ : Shape := ⟨0, ![]⟩
abbrev S1x256x56x56 : Shape := ⟨4, ![1, 256, 56, 56]⟩
abbrev S1x256x1x1 : Shape := ⟨4, ![1, 256, 1, 1]⟩

abbrev nBuf : Space → Nat
  | .hbm => 113
  | .vmem => 12
  | .smem => 0
  | _ => 0

abbrev bufTy : (tb : Table) → Fin (tcTables nBuf tb) → BufTy
  | .hbm, ⟨0, _⟩ => ⟨S64x256x56x56, .f32⟩
  | .hbm, ⟨1, _⟩ => ⟨S256, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S1, .f32⟩
  | .hbm, ⟨8, _⟩ => ⟨S1x256, .f32⟩
  | .hbm, ⟨9, _⟩ => ⟨S1x256, .f32⟩
  | .hbm, ⟨10, _⟩ => ⟨S256, .f32⟩
  | .hbm, ⟨11, _⟩ => ⟨S256, .f32⟩
  | .hbm, ⟨12, _⟩ => ⟨S_, .f32⟩
  | .hbm, ⟨13, _⟩ => ⟨S256, .f32⟩
  | .hbm, ⟨14, _⟩ => ⟨S256, .f32⟩
  | .hbm, ⟨15, _⟩ => ⟨S_, .f32⟩
  | .hbm, ⟨16, _⟩ => ⟨S256, .f32⟩
  | .hbm, ⟨17, _⟩ => ⟨S256, .f32⟩
  | .hbm, ⟨18, _⟩ => ⟨S_, .f32⟩
  | .hbm, ⟨19, _⟩ => ⟨S256, .f32⟩
  | .hbm, ⟨20, _⟩ => ⟨S256, .f32⟩
  | .hbm, ⟨21, _⟩ => ⟨S256, .f32⟩
  | .hbm, ⟨22, _⟩ => ⟨S_, .f32⟩
  | .hbm, ⟨23, _⟩ => ⟨S256, .f32⟩
  | .hbm, ⟨24, _⟩ => ⟨S256, .f32⟩
  | .hbm, ⟨25, _⟩ => ⟨S_, .f32⟩
  | .hbm, ⟨26, _⟩ => ⟨S256, .f32⟩
  | .hbm, ⟨27, _⟩ => ⟨S256, .f32⟩
  | .hbm, ⟨28, _⟩ => ⟨S256, .f32⟩
  | .hbm, ⟨29, _⟩ => ⟨S_, .f32⟩
  | .hbm, ⟨30, _⟩ => ⟨S256, .f32⟩
  | .hbm, ⟨31, _⟩ => ⟨S256, .f32⟩
  | .hbm, ⟨32, _⟩ => ⟨S_, .f32⟩
  | .hbm, ⟨33, _⟩ => ⟨S256, .f32⟩
  | .hbm, ⟨34, _⟩ => ⟨S256, .f32⟩
  | .hbm, ⟨35, _⟩ => ⟨S256, .f32⟩
  | .hbm, ⟨36, _⟩ => ⟨S_, .f32⟩
  | .hbm, ⟨37, _⟩ => ⟨S_, .f32⟩
  | .hbm, ⟨38, _⟩ => ⟨S256, .f32⟩
  | .hbm, ⟨39, _⟩ => ⟨S256, .f32⟩
  | .hbm, ⟨40, _⟩ => ⟨S256, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S256, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S256, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S256, .f32⟩
  | .hbm, ⟨59, _⟩ => ⟨S_, .f32⟩
  | .hbm, ⟨60, _⟩ => ⟨S_, .f32⟩
  | .hbm, ⟨61, _⟩ => ⟨S256, .f32⟩
  | .hbm, ⟨62, _⟩ => ⟨S256, .f32⟩
  | .hbm, ⟨63, _⟩ => ⟨S256, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S256, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S256, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S256, .f32⟩
  | .hbm, ⟨84, _⟩ => ⟨S256, .f32⟩
  | .hbm, ⟨85, _⟩ => ⟨S_, .f32⟩
  | .hbm, ⟨86, _⟩ => ⟨S_, .f32⟩
  | .hbm, ⟨87, _⟩ => ⟨S256, .f32⟩
  | .hbm, ⟨88, _⟩ => ⟨S256, .f32⟩
  | .hbm, ⟨89, _⟩ => ⟨S256, .f32⟩
  | .hbm, ⟨90, _⟩ => ⟨S256, .f32⟩
  | .hbm, ⟨91, _⟩ => ⟨S256, .f32⟩
  | .hbm, ⟨92, _⟩ => ⟨S_, .f32⟩
  | .hbm, ⟨93, _⟩ => ⟨S_, .f32⟩
  | .hbm, ⟨94, _⟩ => ⟨S256, .f32⟩
  | .hbm, ⟨95, _⟩ => ⟨S256, .f32⟩
  | .hbm, ⟨96, _⟩ => ⟨S256, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S256, .f32⟩
  | .hbm, ⟨101, _⟩ => ⟨S256, .f32⟩
  | .hbm, ⟨102, _⟩ => ⟨S256, .f32⟩
  | .hbm, ⟨103, _⟩ => ⟨S256, .f32⟩
  | .hbm, ⟨104, _⟩ => ⟨S256, .f32⟩
  | .hbm, ⟨105, _⟩ => ⟨S_, .f32⟩
  | .hbm, ⟨106, _⟩ => ⟨S256, .f32⟩
  | .hbm, ⟨107, _⟩ => ⟨S256, .f32⟩
  | .hbm, ⟨108, _⟩ => ⟨S256, .f32⟩
  | .hbm, ⟨109, _⟩ => ⟨S256, .f32⟩
  | .hbm, ⟨110, _⟩ => ⟨S256, .f32⟩
  | .hbm, ⟨111, _⟩ => ⟨S256, .f32⟩
  | .hbm, ⟨112, _⟩ => ⟨S64x256x56x56, .f32⟩
  | .local _ .vmem, ⟨0, _⟩ => ⟨S2x256x56x56, .f32⟩
  | .local _ .vmem, ⟨1, _⟩ => ⟨S2x256x56x56, .f32⟩
  | .local _ .vmem, ⟨2, _⟩ => ⟨S1x256, .f32⟩
  | .local _ .vmem, ⟨3, _⟩ => ⟨S1x256, .f32⟩
  | .local _ .vmem, ⟨4, _⟩ => ⟨S1x256, .f32⟩
  | .local _ .vmem, ⟨5, _⟩ => ⟨S1x256, .f32⟩
  | .local _ .vmem, ⟨6, _⟩ => ⟨S1x256x56x56, .f32⟩
  | .local _ .vmem, ⟨7, _⟩ => ⟨S1x256x56x56, .f32⟩
  | .local _ .vmem, ⟨8, _⟩ => ⟨S256, .f32⟩
  | .local _ .vmem, ⟨9, _⟩ => ⟨S256, .f32⟩
  | .local _ .vmem, ⟨10, _⟩ => ⟨S1x256x56x56, .f32⟩
  | .local _ .vmem, ⟨11, _⟩ => ⟨S1x256x56x56, .f32⟩
  | _, _ => ⟨S64x256x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_cst_3 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_4 : Ref sig .tc := ⟨.hbm, 29, rfl⟩
abbrev main_v15 : Ref sig .tc := ⟨.hbm, 30, rfl⟩
abbrev main_v16 : Ref sig .tc := ⟨.hbm, 31, rfl⟩
abbrev main_cst_5 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_6 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_7 : Ref sig .tc := ⟨.hbm, 41, rfl⟩
abbrev main_v24 : Ref sig .tc := ⟨.hbm, 42, rfl⟩
abbrev main_v25 : Ref sig .tc := ⟨.hbm, 43, rfl⟩
abbrev main_cst_8 : Ref sig .tc := ⟨.hbm, 44, rfl⟩
abbrev main_v26 : Ref sig .tc := ⟨.hbm, 45, rfl⟩
abbrev main_v27 : Ref sig .tc := ⟨.hbm, 46, rfl⟩
abbrev main_cst_9 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_10 : Ref sig .tc := ⟨.hbm, 51, rfl⟩
abbrev main_v31 : Ref sig .tc := ⟨.hbm, 52, rfl⟩
abbrev main_v32 : Ref sig .tc := ⟨.hbm, 53, rfl⟩
abbrev main_cst_11 : Ref sig .tc := ⟨.hbm, 54, rfl⟩
abbrev main_v33 : Ref sig .tc := ⟨.hbm, 55, rfl⟩
abbrev main_cst_12 : Ref sig .tc := ⟨.hbm, 56, rfl⟩
abbrev main_v34 : Ref sig .tc := ⟨.hbm, 57, rfl⟩
abbrev main_v35 : Ref sig .tc := ⟨.hbm, 58, rfl⟩
abbrev main_cst_13 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_14 : Ref sig .tc := ⟨.hbm, 64, rfl⟩
abbrev main_v40 : Ref sig .tc := ⟨.hbm, 65, rfl⟩
abbrev main_v41 : Ref sig .tc := ⟨.hbm, 66, rfl⟩
abbrev main_cst_15 : Ref sig .tc := ⟨.hbm, 67, rfl⟩
abbrev main_v42 : Ref sig .tc := ⟨.hbm, 68, rfl⟩
abbrev main_v43 : Ref sig .tc := ⟨.hbm, 69, rfl⟩
abbrev main_cst_16 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_17 : Ref sig .tc := ⟨.hbm, 74, rfl⟩
abbrev main_v47 : Ref sig .tc := ⟨.hbm, 75, rfl⟩
abbrev main_v48 : Ref sig .tc := ⟨.hbm, 76, rfl⟩
abbrev main_cst_18 : Ref sig .tc := ⟨.hbm, 77, rfl⟩
abbrev main_v49 : Ref sig .tc := ⟨.hbm, 78, rfl⟩
abbrev main_cst_19 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_20 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_21 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_22 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_cst_23 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem3_1 : DmaSem sig := 9

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v25 : BitVec 1 := Scalar.cmpi .eq arg0 c31_i32
  let v26 : BitVec 32 := Scalar.extui v25
  let c0_i32_15 : BitVec 32 := 0#32
  let v27 : BitVec 1 := Scalar.cmpi .ne v26 c0_i32_15
  v27

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x256x56x56 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![64], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S1x256x56x56 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x256x56x56 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S2x256x56x56_S2x256x56x56_0_0_0_0 : ∀ a, (![0, 0, 0, 0] : Fin 4 → Nat) a + S2x256x56x56.size a ≤ S2x256x56x56.size a
  h_S2x256x56x56 : 0 < S2x256x56x56.numel
  reduces_S2x256x56x56_S2x256 : S2x256x56x56.Reduces [2, 3] S2x256
  shapeCasts_S2x256_S2x256x1x1 : S2x256.ShapeCasts S2x256x1x1
  shapeCasts_S2x256x1x1_S2x256 : S2x256x1x1.ShapeCasts S2x256
  reduces_S2x256_S256 : S2x256.Reduces [0] S256
  shapeCasts_S256_S1x256 : S256.ShapeCasts S1x256
  shapeCasts_S1x256_S256 : S1x256.ShapeCasts S256
  bcast_S_S256 : S_.BroadcastsInDim S256 (![] : Fin 0 → Fin S256.rank)
  reducesTo_S256_S_d0 : S256.ReducesTo [0] S_
  h_S_ : 0 < S_.numel
  shapeCasts_S1_S_ : S1.ShapeCasts S_
  inb_S1x256x56x56_S1x256x56x56_0_0_0_0 : ∀ a, (![0, 0, 0, 0] : Fin 4 → Nat) a + S1x256x56x56.size a ≤ S1x256x56x56.size a
  h_S1x256x56x56 : 0 < S1x256x56x56.numel
  inb_S256_S256_0 : ∀ a, (![0] : Fin 1 → Nat) a + S256.size a ≤ S256.size a
  h_S256 : 0 < S256.numel
  shapeCasts_S256_S256 : S256.ShapeCasts S256
  shapeCasts_S256_S1x256x1x1 : S256.ShapeCasts S1x256x1x1
  shapeCasts_S1x256x1x1_S1x256x1x1 : S1x256x1x1.ShapeCasts S1x256x1x1
  broadcasts_S1x256x1x1_S1x256x56x56 : S1x256x1x1.Broadcasts S1x256x56x56
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x256x56x56.size a ≤ S64x256x56x56.size a
  hwx0_0 : ∀ i : grid0.Coords, EltTy.bits .f32 = 32 ∨ (Rect.block (s := S64x256x56x56) S2x256x56x56.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x256.size a ≤ S1x256.size a
  hwx0_1 : ∀ i : grid0.Coords, EltTy.bits .f32 = 32 ∨ (Rect.block (s := S1x256) S1x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x56x56.size a ≤ S64x256x56x56.size a
  hwx1_0 : ∀ i : grid1.Coords, EltTy.bits .f32 = 32 ∨ (Rect.block (s := S64x256x56x56) S1x256x56x56.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256.size a ≤ S256.size a
  hwx1_1 : ∀ i : grid1.Coords, EltTy.bits .f32 = 32 ∨ (Rect.block (s := S256) S256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256.size a ≤ S256.size a
  hwx1_2 : ∀ i : grid1.Coords, EltTy.bits .f32 = 32 ∨ (Rect.block (s := S256) S256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256x56x56.size a ≤ S64x256x56x56.size a
  hwx1_3 : ∀ i : grid1.Coords, EltTy.bits .f32 = 32 ∨ (Rect.block (s := S64x256x56x56) S1x256x56x56.size (cc1_transform_3 i) (hinb1_3 i)).WholeWords (EltTy.packing .f32)

variable [Facts₀]

abbrev win0_0 : Pipeline.Window sig grid0 :=
  Pipeline.Window.ofSpec (Memref.whole main_arg0) S2x256x56x56.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1x256.size cc0_transform_1 reads0_1 true true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x256.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun i => !(k0_cond2 i == 1#1) | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg0) S1x256x56x56.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v75) S256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v77) S256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v78) S1x256x56x56.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S64x256x56x56 : Shape := ⟨4, ![64, 256, 56, 56]⟩
abbrev S256 : Shape := ⟨1, ![256]⟩
abbrev S1 : Shape := ⟨1, ![1]⟩
abbrev S_ : Shape := ⟨0, ![]⟩
abbrev S1x256x1x1 : Shape := ⟨4, ![1, 256, 1, 1]⟩

abbrev nBuf : Space → Nat
  | .hbm => 131
  | .vmem => 0
  | .smem => 0
  | _ => 0

abbrev hbmTy0_0 (i : Nat) : BufTy := match i % 128 with
  | 0 => ⟨S64x256x56x56, .f32⟩
  | 1 => ⟨S256, .f32⟩
  | 2 => ⟨S256, .f32⟩
  | 3 => ⟨S256, .f32⟩
  | 4 => ⟨S256, .f32⟩
  | 5 => ⟨S256, .f32⟩
  | 6 => ⟨S256, .f32⟩
  | 7 => ⟨S1, .f32⟩
  | 8 => ⟨S_, .f32⟩
  | 9 => ⟨S256, .f32⟩
  | 10 => ⟨S_, .f32⟩
  | 11 => ⟨S256, .f32⟩
  | 12 => ⟨S256, .f32⟩
  | 13 => ⟨S1x256x1x1, .f32⟩
  | 14 => ⟨S64x256x56x56, .f32⟩
  | 15 => ⟨S64x256x56x56, .f32⟩
  | 16 => ⟨S64x256x56x56, .f32⟩
  | 17 => ⟨S_, .f32⟩
  | 18 => ⟨S256, .f32⟩
  | 19 => ⟨S_, .f32⟩
  | 20 => ⟨S256, .f32⟩
  | 21 => ⟨S256, .f32⟩
  | 22 => ⟨S_, .f32⟩
  | 23 => ⟨S256, .f32⟩
  | 24 => ⟨S256, .f32⟩
  | 25 => ⟨S_, .f32⟩
  | 26 => ⟨S256, .f32⟩
  | 27 => ⟨S256, .f32⟩
  | 28 => ⟨S_, .f32⟩
  | 29 => ⟨S256, .f32⟩
  | 30 => ⟨S256, .f32⟩
  | 31 => ⟨S256, .f32⟩
  | 32 => ⟨S_, .f32⟩
  | 33 => ⟨S256, .f32⟩
  | 34 => ⟨S256, .f32⟩
  | 35 => ⟨S_, .f32⟩
  | 36 => ⟨S256, .f32⟩
  | 37 => ⟨S256, .f32⟩
  | 38 => ⟨S256, .f32⟩
  | 39 => ⟨S_, .f32⟩
  | 40 => ⟨S256, .f32⟩
  | 41 => ⟨S256, .f32⟩
  | 42 => ⟨S_, .f32⟩
  | 43 => ⟨S256, .f32⟩
  | 44 => ⟨S256, .f32⟩
  | 45 => ⟨S256, .f32⟩
  | 46 => ⟨S_, .f32⟩
  | 47 => ⟨S_, .f32⟩
  | 48 => ⟨S256, .f32⟩
  | 49 => ⟨S256, .f32⟩
  | 50 => ⟨S256, .f32⟩
  | 51 => ⟨S_, .f32⟩
  | 52 => ⟨S_, .f32⟩
  | 53 => ⟨S_, .f32⟩
  | 54 => ⟨S_, .f32⟩
  | 55 => ⟨S_, .f32⟩
  | 56 => ⟨S256, .f32⟩
  | 57 => ⟨S_, .f32⟩
  | 58 => ⟨S_, .f32⟩
  | 59 => ⟨S_, .f32⟩
  | 60 => ⟨S256, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | 68 => ⟨S256, .f32⟩
  | 69 => ⟨S_, .f32⟩
  | 70 => ⟨S_, .f32⟩
  | 71 => ⟨S256, .f32⟩
  | 72 => ⟨S256, .f32⟩
  | 73 => ⟨S256, .f32⟩
  | 74 => ⟨S_, .f32⟩
  | 75 => ⟨S_, .f32⟩
  | 76 => ⟨S_, .f32⟩
  | 77 => ⟨S_, .f32⟩
  | 78 => ⟨S_, .f32⟩
  | 79 => ⟨S256, .f32⟩
  | 80 => ⟨S_, .f32⟩
  | 81 => ⟨S_, .f32⟩
  | 82 => ⟨S_, .f32⟩
  | 83 => ⟨S256, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S256, .f32⟩
  | 94 => ⟨S256, .f32⟩
  | 95 => ⟨S_, .f32⟩
  | 96 => ⟨S_, .f32⟩
  | 97 => ⟨S256, .f32⟩
  | 98 => ⟨S256, .f32⟩
  | 99 => ⟨S256, .f32⟩
  | 100 => ⟨S256, .f32⟩
  | 101 => ⟨S256, .f32⟩
  | 102 => ⟨S_, .f32⟩
  | 103 => ⟨S_, .f32⟩
  | 104 => ⟨S256, .f32⟩
  | 105 => ⟨S256, .f32⟩
  | 106 => ⟨S256, .f32⟩
  | 107 => ⟨S_, .f32⟩
  | 108 => ⟨S_, .f32⟩
  | 109 => ⟨S_, .f32⟩
  | 110 => ⟨S256, .f32⟩
  | 111 => ⟨S256, .f32⟩
  | 112 => ⟨S256, .f32⟩
  | 113 => ⟨S256, .f32⟩
  | 114 => ⟨S256, .f32⟩
  | 115 => ⟨S1x256x1x1, .f32⟩
  | 116 => ⟨S64x256x56x56, .f32⟩
  | 117 => ⟨S64x256x56x56, .f32⟩
  | 118 => ⟨S1x256x1x1, .f32⟩
  | 119 => ⟨S_, .f32⟩
  | 120 => ⟨S1x256x1x1, .f32⟩
  | 121 => ⟨S1x256x1x1, .f32⟩
  | 122 => ⟨S1x256x1x1, .f32⟩
  | 123 => ⟨S64x256x56x56, .f32⟩
  | 124 => ⟨S64x256x56x56, .f32⟩
  | 125 => ⟨S1x256x1x1, .f32⟩
  | 126 => ⟨S64x256x56x56, .f32⟩
  | 127 => ⟨S64x256x56x56, .f32⟩
  | _ => ⟨S64x256x56x56, .f32⟩

abbrev hbmTy0_1 (i : Nat) : BufTy := match i % 128 with
  | 0 => ⟨S1x256x1x1, .f32⟩
  | 1 => ⟨S64x256x56x56, .f32⟩
  | 2 => ⟨S64x256x56x56, .f32⟩
  | _ => ⟨S64x256x56x56, .f32⟩

abbrev hbmTy (i : Nat) : BufTy := match i / 128 with
  | 0 => hbmTy0_0 i
  | 1 => hbmTy0_1 i
  | _ => ⟨S64x256x56x56, .f32⟩

abbrev bufTy : (tb : Table) → Fin (tcTables nBuf tb) → BufTy
  | .hbm, ⟨i, _⟩ => hbmTy i
  | _, _ => ⟨S64x256x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_cst_3 : Ref sig .tc := ⟨.hbm, 22, rfl⟩
abbrev main_v10 : Ref sig .tc := ⟨.hbm, 23, rfl⟩
abbrev main_v11 : Ref sig .tc := ⟨.hbm, 24, rfl⟩
abbrev main_cst_4 : Ref sig .tc := ⟨.hbm, 25, rfl⟩
abbrev main_v12 : Ref sig .tc := ⟨.hbm, 26, rfl⟩
abbrev main_v13 : Ref sig .tc := ⟨.hbm, 27, rfl⟩
abbrev main_cst_5 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_6 : Ref sig .tc := ⟨.hbm, 32, rfl⟩
abbrev main_v17 : Ref sig .tc := ⟨.hbm, 33, rfl⟩
abbrev main_v18 : Ref sig .tc := ⟨.hbm, 34, rfl⟩
abbrev main_cst_7 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_8 : Ref sig .tc := ⟨.hbm, 39, rfl⟩
abbrev main_v22 : Ref sig .tc := ⟨.hbm, 40, rfl⟩
abbrev main_v23 : Ref sig .tc := ⟨.hbm, 41, rfl⟩
abbrev main_cst_9 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_10 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_11 : Ref sig .tc := ⟨.hbm, 51, rfl⟩
abbrev main_v31 : Ref sig .tc := ⟨.hbm, 52, rfl⟩
abbrev main_v32 : Ref sig .tc := ⟨.hbm, 53, rfl⟩
abbrev main_cst_12 : Ref sig .tc := ⟨.hbm, 54, rfl⟩
abbrev main_v33 : Ref sig .tc := ⟨.hbm, 55, rfl⟩
abbrev main_v34 : Ref sig .tc := ⟨.hbm, 56, rfl⟩
abbrev main_cst_13 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_14 : Ref sig .tc := ⟨.hbm, 61, rfl⟩
abbrev main_v38 : Ref sig .tc := ⟨.hbm, 62, rfl⟩
abbrev main_v39 : Ref sig .tc := ⟨.hbm, 63, rfl⟩
abbrev main_cst_15 : Ref sig .tc := ⟨.hbm, 64, rfl⟩
abbrev main_v40 : Ref sig .tc := ⟨.hbm, 65, rfl⟩
abbrev main_cst_16 : Ref sig .tc := ⟨.hbm, 66, rfl⟩
abbrev main_v41 : Ref sig .tc := ⟨.hbm, 67, rfl⟩
abbrev main_v42 : Ref sig .tc := ⟨.hbm, 68, rfl⟩
abbrev main_cst_17 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_18 : Ref sig .tc := ⟨.hbm, 74, rfl⟩
abbrev main_v47 : Ref sig .tc := ⟨.hbm, 75, rfl⟩
abbrev main_v48 : Ref sig .tc := ⟨.hbm, 76, rfl⟩
abbrev main_cst_19 : Ref sig .tc := ⟨.hbm, 77, rfl⟩
abbrev main_v49 : Ref sig .tc := ⟨.hbm, 78, rfl⟩
abbrev main_v50 : Ref sig .tc := ⟨.hbm, 79, rfl⟩
abbrev main_cst_20 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_21 : Ref sig .tc := ⟨.hbm, 84, rfl⟩
abbrev main_v54 : Ref sig .tc := ⟨.hbm, 85, rfl⟩
abbrev main_v55 : Ref sig .tc := ⟨.hbm, 86, rfl⟩
abbrev main_cst_22 : Ref sig .tc := ⟨.hbm, 87, rfl⟩
abbrev main_v56 : Ref sig .tc := ⟨.hbm, 88, rfl⟩
abbrev main_cst_23 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_cst_24 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_cst_25 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_cst_26 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_cst_27 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩

abbrev nD : Nat := 1
abbrev τ : Topo := Topo.v7x

variable {F : FTy → Type} [FloatOps F]

class Facts₀ : Prop where
  reducesTo_S64x256x56x56_S256_d0_2_3 : S64x256x56x56.ReducesTo [0, 2, 3] S256
  h_S_ : 0 < S_.numel
  bcast_S_S256 : S_.BroadcastsInDim S256 (![] : Fin 0 → Fin S256.rank)
  bcast_S256_S1x256x1x1_1 : S256.BroadcastsInDim S1x256x1x1 (![1] : Fin 1 → Fin S1x256x1x1.rank)
  bcast_S1x256x1x1_S64x256x56x56_0_1_2_3 : S1x256x1x1.BroadcastsInDim S64x256x56x56 (![0, 1, 2, 3] : Fin 4 → Fin S64x256x56x56.rank)
  reducesTo_S256_S_d0 : S256.ReducesTo [0] S_
  shapeCasts_S1_S_ : S1.ShapeCasts S_
  bcast_S_S1x256x1x1 : S_.BroadcastsInDim S1x256x1x1 (![] : Fin 0 → Fin S1x256x1x1.rank)

variable [Facts₀]

class Facts : Prop extends Facts₀ where

variable [Facts]
-- ==== Proof.KB.StatsCases.lean ====
/-
  The statistics pass (the first pallas_call): 32 grid points, each handed a block of two batch rows
  x[2t .. 2t+1, :, :, :]. Two scratch rows of 256 channels carry the running sum and the running sum of
  squares from point to point: both are zeroed at the first point, every point adds its block's channel
  sums to them, and the last point divides by the number of samples per channel and writes the mean and
  the (biased) variance rows out. This module fixes the vocabulary the three kinds of point share: which
  points reset, which points write out, where the two output rows are left untouched, and the buffers the
  body runs on.
-/
import proofs.«106418_j11261404250602_2_alg».proof.Proof.Gen.Kernel.Launch
import proofs.«106418_j11261404250602_2_alg».proof.Proof.Gen.Kernel.Skeleton
import proofs.«106418_j11261404250602_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which points reset and which write out -/

/-- The accumulators are zeroed where the grid coordinate is 0. -/
abbrev resets (i : grid0.Coords) : Prop :=
  (Scalar.cmpi .ne (Scalar.extui (Scalar.cmpi .eq (BitVec.ofNat 32 (i 0).val) 0#32)) 0#32) = 1#1

/-- That is the first of the 32 points, and no other. -/
theorem resets_iff : ∀ t : Fin cfg0.N, resets (grid0.coords t) ↔ t.val = 0 :=
  (by decide +kernel : ∀ t : Fin grid0.N, resets (grid0.coords t) ↔ t.val = 0)

/-- The mean and variance rows are written where the grid coordinate is 31. -/
abbrev writesOut (i : grid0.Coords) : Prop := k0_cond2 i = 1#1

/-- That is the last of the 32 points, and no other. -/
theorem writesOut_iff : ∀ t : Fin cfg0.N, writesOut (grid0.coords t) ↔ t.val = 31 :=
  (by decide +kernel : ∀ t : Fin grid0.N, writesOut (grid0.coords t) ↔ t.val = 31)

/-! ## Where the windows are left alone -/

/-- The input block is live at every point. -/
theorem live_in : ∀ t : Fin cfg0.N, cfg0.idle 0 (grid0.coords t) = false := by decide +kernel

/-- Away from the last point the mean row is neither stored into nor written back. -/
theorem idle_mean : ∀ t : Fin cfg0.N, ¬writesOut (grid0.coords t) → cfg0.idle 1 (grid0.coords t) = true := by decide +kernel
theorem noflush_mean : ∀ t : Fin cfg0.N, ¬writesOut (grid0.coords t) → (cfg0.win 1).flush t = false := by decide +kernel
/-- At the last point it is stored. -/
theorem live_mean : ∀ t : Fin cfg0.N, writesOut (grid0.coords t) → cfg0.idle 1 (grid0.coords t) = false := by decide +kernel

/-- The same for the variance row. -/
theorem idle_var : ∀ t : Fin cfg0.N, ¬writesOut (grid0.coords t) → cfg0.idle 2 (grid0.coords t) = true := by decide +kernel
theorem noflush_var : ∀ t : Fin cfg0.N, ¬writesOut (grid0.coords t) → (cfg0.win 2).flush t = false := by decide +kernel
theorem live_var : ∀ t : Fin cfg0.N, writesOut (grid0.coords t) → cfg0.idle 2 (grid0.coords t) = false := by decide +kernel

/-! ## The buffers the body runs on -/

/-- The staging buffer each window is on at point `t`, as the pipeline passes it, with its wholeness. -/
abbrev bIn (t : Fin cfg0.N) : Memref sig .tc .vmem S2x256x56x56 .f32 := win0_0.stage (cfg0.slots t 0)
abbrev hIn (t : Fin cfg0.N) : (bIn t).IsWhole := hstage0_0 ((cfg0.slots t 0).cast nbuf0_0)
abbrev bMean (t : Fin cfg0.N) : Memref sig .tc .vmem S1x256 .f32 := win0_1.stage (cfg0.slots t 1)
abbrev hMean (t : Fin cfg0.N) : (bMean t).IsWhole := hstage0_1 ((cfg0.slots t 1).cast nbuf0_1)
abbrev bVar (t : Fin cfg0.N) : Memref sig .tc .vmem S1x256 .f32 := win0_2.stage (cfg0.slots t 2)
abbrev hVar (t : Fin cfg0.N) : (bVar t).IsWhole := hstage0_2 ((cfg0.slots t 2).cast nbuf0_2)

/-- The two accumulator rows: whole scoped buffers of the kernel's own. -/
abbrev bSum : Memref sig .tc .vmem S1x256 .f32 := Memref.whole cc0_scratch0
abbrev bSq : Memref sig .tc .vmem S1x256 .f32 := Memref.whole cc0_scratch1

/-- Views through which the rows' contents are stated. -/
abbrev vSum : View sig .tc .vmem S1x256 .f32 := bSum.view
abbrev vSq : View sig .tc .vmem S1x256 .f32 := bSq.view
abbrev vMean : View sig .tc .vmem S1x256 .f32 := (Memref.whole cc0_stg1_0 : Memref sig .tc .vmem S1x256 .f32).view
abbrev vVar : View sig .tc .vmem S1x256 .f32 := (Memref.whole cc0_stg2_0 : Memref sig .tc .vmem S1x256 .f32).view

/-- What the region is entered with besides its windows: the two accumulator rows at some contents, the other
    call's staging buffers at some contents, and the generator register. -/
def restOfScoped (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f))

theorem entry_eq (c : Dev nD) :
    (Pipeline.ΦA spec0 c : sProp 𝕄)
      = iprop(iprop((∃ d, owns (c : Thread nD τ) bSum fullShare d) ∗ (∃ d, owns (c : Thread nD τ) bSq fullShare d) ∗ restOfScoped c)
          ∗ (∃ r, prngReg c r)) := by
  unfold Pipeline.ΦA restOfScoped; rw [scopedRest0_eq]; simp only [bSum, bSq, owns_whole]; try rfl

end Cert.Kernel.Fr

end
-- ==== Proof.KB.StatsFirst.lean ====
/-
  The statistics pass at its FIRST point: both accumulator rows are zeroed, then the block's channel sums and sums of squares are added; the mean and variance rows are not touched.
-/
import proofs.«106418_j11261404250602_2_alg».proof.Proof.KB.StatsCases

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point that resets and does not write out, on whole buffers — the input block at `x0`, the mean and variance
    rows at any `xm`, `xv` (handed back as they were), the accumulator rows at anything — the body runs to its end
    leaving the input block as it was and each accumulator row with the stores the run finds (the zero row, then the
    row plus the block's sums). -/
noncomputable def runFirst (c : Dev nD) (i : grid0.Coords) (arg1 : Memref sig .tc .vmem S2x256x56x56 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (hr : resets i) (hw : ¬writesOut i)
    (x0 : Vec F S2x256x56x56 .f32) :
    Σ' (LS : List (View.Piece (Elt F) S1x256 .f32)), { LQ : List (View.Piece (Elt F) S1x256 .f32) //
      ∀ (xm xv : Vec F S1x256 .f32) (E : Set ℕ) (K : PUnit → sProp 𝕄),
        iprop(owns (c : Thread nD τ) arg1 fullShare x0 ∗ owns (c : Thread nD τ) arg2 fullShare xm ∗ owns (c : Thread nD τ) arg3 fullShare xv
            ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare xm ∗ owns (c : Thread nD τ) arg3 fullShare xv
                ∗ (∃ f, arg4.view.loc (c : Thread nD τ) ↦[arg4.view.set]{fullShare} arg4.view.writes (Elt F) f LS)
                ∗ (∃ f, arg5.view.loc (c : Thread nD τ) ↦[arg5.view.set]{fullShare} arg5.view.writes (Elt F) f LQ)) -∗ K ⟨⟩))
          ⊢ wp frame (wpE (defs₀ (F := F)) Variants.none c none) E (cc0__stats_kernel i arg1 harg1 arg2 harg2 arg3 harg3 arg4 harg4 arg5 harg5) K } := by
  refine ⟨?_, ?_, fun xm xv E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%ds, %fs, -, HS⟩, ⟨%dq, %fq, -, HQ⟩, Hk⟩
    obtain rfl := harg1.eq_unread hf0; obtain rfl := harg2.eq_unread hf1; obtain rfl := harg3.eq_unread hf2
    sl_exec (disch := first | exact hr | exact hw)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS]; · iexists _; iexact HS
    iexists _; iexact HQ

end Cert.Kernel.Fr

end
-- ==== Proof.KB.StatsMid.lean ====
/-
  The statistics pass at a MIDDLE point: the block's channel sums and sums of squares are added to what the point before left in the accumulator rows; nothing else is touched.
-/
import proofs.«106418_j11261404250602_2_alg».proof.Proof.KB.StatsCases

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point that neither resets nor writes out, the accumulator rows at the contents `xs`, `xq` the point before
    left: the body runs to its end leaving the input block and the two output rows as they were and each accumulator row
    with the one store the run finds (the row plus the block's sums). -/
noncomputable def runMid (c : Dev nD) (i : grid0.Coords) (arg1 : Memref sig .tc .vmem S2x256x56x56 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (hr : ¬resets i) (hw : ¬writesOut i)
    (x0 : Vec F S2x256x56x56 .f32) (xs xq : Vec F S1x256 .f32) :
    Σ' (LS : List (View.Piece (Elt F) S1x256 .f32)), { LQ : List (View.Piece (Elt F) S1x256 .f32) //
      ∀ (xm xv : Vec F S1x256 .f32) (E : Set ℕ) (K : PUnit → sProp 𝕄),
        iprop(owns (c : Thread nD τ) arg1 fullShare x0 ∗ owns (c : Thread nD τ) arg2 fullShare xm ∗ owns (c : Thread nD τ) arg3 fullShare xv
            ∗ owns (c : Thread nD τ) arg4 fullShare xs ∗ owns (c : Thread nD τ) arg5 fullShare xq
            ∗ (iprop(owns (c : Thread nD τ) arg1 fullShare x0 ∗ owns (c : Thread nD τ) arg2 fullShare xm ∗ owns (c : Thread nD τ) arg3 fullShare xv
                ∗ (∃ f, arg4.view.loc (c : Thread nD τ) ↦[arg4.view.set]{fullShare} arg4.view.writes (Elt F) f LS)
                ∗ (∃ f, arg5.view.loc (c : Thread nD τ) ↦[arg5.view.set]{fullShare} arg5.view.writes (Elt F) f LQ)) -∗ K ⟨⟩))
          ⊢ wp frame (wpE (defs₀ (F := F)) Variants.none c none) E (cc0__stats_kernel i arg1 harg1 arg2 harg2 arg3 harg3 arg4 harg4 arg5 harg5) K } := by
  refine ⟨?_, ?_, fun xm xv E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%fs, %hfs, HS⟩, ⟨%fq, %hfq, HQ⟩, Hk⟩
    obtain rfl := harg1.eq_unread hf0; obtain rfl := harg2.eq_unread hf1; obtain rfl := harg3.eq_unread hf2
    obtain rfl := harg4.eq_unread hfs; obtain rfl := harg5.eq_unread hfq
    sl_exec (disch := first | exact hr | exact hw)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS]; · iexists _; iexact HS
    iexists _; iexact HQ

end Cert.Kernel.Fr

end
-- ==== Proof.KB.StatsLast.lean ====
/-
  The statistics pass at its LAST point: the block's sums are added to the accumulator rows, and then the mean row (sum / n) and the variance row (sum of squares / n - mean * mean) are stored.
-/
import proofs.«106418_j11261404250602_2_alg».proof.Proof.KB.StatsCases

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point that writes out and does not reset, the accumulator rows at the contents `xs`, `xq` the point before
    left and the two output rows at anything: the body runs to its end leaving the input block as it was, each
    accumulator row with the one store the run finds, and each output row with its one store. -/
noncomputable def runLast (c : Dev nD) (i : grid0.Coords) (arg1 : Memref sig .tc .vmem S2x256x56x56 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (hr : ¬resets i) (hw : writesOut i)
    (x0 : Vec F S2x256x56x56 .f32) (xs xq : Vec F S1x256 .f32) :
    Σ' (LM : List (View.Piece (Elt F) S1x256 .f32)) (LV : List (View.Piece (Elt F) S1x256 .f32)) (LS : List (View.Piece (Elt F) S1x256 .f32)), { LQ : List (View.Piece (Elt F) S1x256 .f32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d)
            ∗ owns (c : Thread nD τ) arg4 fullShare xs ∗ owns (c : Thread nD τ) arg5 fullShare xq
            ∗ (iprop(owns (c : Thread nD τ) arg1 fullShare x0
                ∗ (∃ f, arg2.view.loc (c : Thread nD τ) ↦[arg2.view.set]{fullShare} arg2.view.writes (Elt F) f LM)
                ∗ (∃ f, arg3.view.loc (c : Thread nD τ) ↦[arg3.view.set]{fullShare} arg3.view.writes (Elt F) f LV)
                ∗ (∃ f, arg4.view.loc (c : Thread nD τ) ↦[arg4.view.set]{fullShare} arg4.view.writes (Elt F) f LS)
                ∗ (∃ f, arg5.view.loc (c : Thread nD τ) ↦[arg5.view.set]{fullShare} arg5.view.writes (Elt F) f LQ)) -∗ K ⟨⟩))
          ⊢ wp frame (wpE (defs₀ (F := F)) Variants.none c none) E (cc0__stats_kernel i arg1 harg1 arg2 harg2 arg3 harg3 arg4 harg4 arg5 harg5) K } := by
  refine ⟨?_, ?_, ?_, ?_, fun E K => ?run⟩
  case run =>
    simp only [cc0__stats_kernel_eq_skeleton]; unfold cc0__stats_kernel_skel
    unfold owns
    iintro ⟨⟨%f0, %hf0, H0⟩, ⟨%d1, %f1, -, H1⟩, ⟨%d2, %f2, -, H2⟩, ⟨%fs, %hfs, HS⟩, ⟨%fq, %hfq, HQ⟩, Hk⟩
    obtain rfl := harg1.eq_unread hf0
    obtain rfl := harg4.eq_unread hfs; obtain rfl := harg5.eq_unread hfq
    sl_exec (disch := first | exact hr | exact hw)
    sl_step
    iapply Hk
    isplitl [H0]
    · iexists _; isplitr; · ipureintro; exact harg1.read_unread _
      iexact H0
    isplitl [H1]; · iexists _; iexact H1
    isplitl [H2]; · iexists _; iexact H2
    isplitl [HS]; · iexists _; iexact HS
    iexists _; iexact HQ

end Cert.Kernel.Fr

end
-- ==== Proof.KB.StatsData.lean ====
/-
  The statistics pass, all 32 points together. After point n the sum row holds the channel sums of the blocks of
  points 0..n added up in that order starting from the zero row, and the sum-of-squares row likewise: this module
  NAMES those contents by recursion on the point (each point's stores read back over what the point before left),
  carries them in the invariant that links one point to the next, and states what the pipeline needs of every point:
  handed its input block (and, from the second point on, the rows the point before left), the body leaves the rows of
  this point; the mean and variance rows are untouched until the last point stores them.
-/
import proofs.«106418_j11261404250602_2_alg».proof.Proof.KB.StatsFirst
import proofs.«106418_j11261404250602_2_alg».proof.Proof.KB.StatsMid
import proofs.«106418_j11261404250602_2_alg».proof.Proof.KB.StatsLast

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What one point leaves in each row, read back from the stores its run found -/

/-- The sum row after the first point. -/
def sumFirst (c : Dev nD) (i : grid0.Coords) (arg1 : Memref sig .tc .vmem S2x256x56x56 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (hr : resets i) (hw : ¬writesOut i)
    (x0 : Vec F S2x256x56x56 .f32) : Vec F S1x256 .f32 :=
  vSum.read (Elt F) (vSum.writes (Elt F) vSum.junk (runFirst c i arg1 harg1 arg2 harg2 arg3 harg3 arg4 harg4 arg5 harg5 hr hw x0).1)
theorem sumFirst_cover (c : Dev nD) (i : grid0.Coords) (arg1 : Memref sig .tc .vmem S2x256x56x56 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (hr : resets i) (hw : ¬writesOut i)
    (x0 : Vec F S2x256x56x56 .f32) (y : S1x256.Idx) :
    ∃ pc ∈ (runFirst c i arg1 harg1 arg2 harg2 arg3 harg3 arg4 harg4 arg5 harg5 hr hw x0).1, y ∈ pc.1.set :=
  View.cover_of_tiledL ((runFirst c i arg1 harg1 arg2 harg2 arg3 harg3 arg4 harg4 arg5 harg5 hr hw x0).1) S1x256.size (by sl_kernel_rfl) y

/-- The sum-of-squares row after the first point. -/
def sqFirst (c : Dev nD) (i : grid0.Coords) (arg1 : Memref sig .tc .vmem S2x256x56x56 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (hr : resets i) (hw : ¬writesOut i)
    (x0 : Vec F S2x256x56x56 .f32) : Vec F S1x256 .f32 :=
  vSq.read (Elt F) (vSq.writes (Elt F) vSq.junk (runFirst c i arg1 harg1 arg2 harg2 arg3 harg3 arg4 harg4 arg5 harg5 hr hw x0).2.1)
theorem sqFirst_cover (c : Dev nD) (i : grid0.Coords) (arg1 : Memref sig .tc .vmem S2x256x56x56 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (hr : resets i) (hw : ¬writesOut i)
    (x0 : Vec F S2x256x56x56 .f32) (y : S1x256.Idx) :
    ∃ pc ∈ (runFirst c i arg1 harg1 arg2 harg2 arg3 harg3 arg4 harg4 arg5 harg5 hr hw x0).2.1, y ∈ pc.1.set :=
  View.cover_of_tiledL ((runFirst c i arg1 harg1 arg2 harg2 arg3 harg3 arg4 harg4 arg5 harg5 hr hw x0).2.1) S1x256.size (by sl_kernel_rfl) y

/-- The sum row after a middle point, from the rows `xs`, `xq` the point before left. -/
def sumMid (c : Dev nD) (i : grid0.Coords) (arg1 : Memref sig .tc .vmem S2x256x56x56 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (hr : ¬resets i) (hw : ¬writesOut i)
    (x0 : Vec F S2x256x56x56 .f32) (xs xq : Vec F S1x256 .f32) : Vec F S1x256 .f32 :=
  vSum.read (Elt F) (vSum.writes (Elt F) vSum.junk (runMid c i arg1 harg1 arg2 harg2 arg3 harg3 arg4 harg4 arg5 harg5 hr hw x0 xs xq).1)
theorem sumMid_cover (c : Dev nD) (i : grid0.Coords) (arg1 : Memref sig .tc .vmem S2x256x56x56 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (hr : ¬resets i) (hw : ¬writesOut i)
    (x0 : Vec F S2x256x56x56 .f32) (xs xq : Vec F S1x256 .f32) (y : S1x256.Idx) :
    ∃ pc ∈ (runMid c i arg1 harg1 arg2 harg2 arg3 harg3 arg4 harg4 arg5 harg5 hr hw x0 xs xq).1, y ∈ pc.1.set :=
  View.cover_of_tiledL ((runMid c i arg1 harg1 arg2 harg2 arg3 harg3 arg4 harg4 arg5 harg5 hr hw x0 xs xq).1) S1x256.size (by sl_kernel_rfl) y

/-- The sum-of-squares row after a middle point. -/
def sqMid (c : Dev nD) (i : grid0.Coords) (arg1 : Memref sig .tc .vmem S2x256x56x56 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (hr : ¬resets i) (hw : ¬writesOut i)
    (x0 : Vec F S2x256x56x56 .f32) (xs xq : Vec F S1x256 .f32) : Vec F S1x256 .f32 :=
  vSq.read (Elt F) (vSq.writes (Elt F) vSq.junk (runMid c i arg1 harg1 arg2 harg2 arg3 harg3 arg4 harg4 arg5 harg5 hr hw x0 xs xq).2.1)
theorem sqMid_cover (c : Dev nD) (i : grid0.Coords) (arg1 : Memref sig .tc .vmem S2x256x56x56 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (hr : ¬resets i) (hw : ¬writesOut i)
    (x0 : Vec F S2x256x56x56 .f32) (xs xq : Vec F S1x256 .f32) (y : S1x256.Idx) :
    ∃ pc ∈ (runMid c i arg1 harg1 arg2 harg2 arg3 harg3 arg4 harg4 arg5 harg5 hr hw x0 xs xq).2.1, y ∈ pc.1.set :=
  View.cover_of_tiledL ((runMid c i arg1 harg1 arg2 harg2 arg3 harg3 arg4 harg4 arg5 harg5 hr hw x0 xs xq).2.1) S1x256.size (by sl_kernel_rfl) y

/-- The mean row the last point stores. -/
def meanLast (c : Dev nD) (i : grid0.Coords) (arg1 : Memref sig .tc .vmem S2x256x56x56 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (hr : ¬resets i) (hw : writesOut i)
    (x0 : Vec F S2x256x56x56 .f32) (xs xq : Vec F S1x256 .f32) : Vec F S1x256 .f32 :=
  vMean.read (Elt F) (vMean.writes (Elt F) vMean.junk (runLast c i arg1 harg1 arg2 harg2 arg3 harg3 arg4 harg4 arg5 harg5 hr hw x0 xs xq).1)
theorem meanLast_cover (c : Dev nD) (i : grid0.Coords) (arg1 : Memref sig .tc .vmem S2x256x56x56 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (hr : ¬resets i) (hw : writesOut i)
    (x0 : Vec F S2x256x56x56 .f32) (xs xq : Vec F S1x256 .f32) (y : S1x256.Idx) :
    ∃ pc ∈ (runLast c i arg1 harg1 arg2 harg2 arg3 harg3 arg4 harg4 arg5 harg5 hr hw x0 xs xq).1, y ∈ pc.1.set :=
  View.cover_of_tiledL ((runLast c i arg1 harg1 arg2 harg2 arg3 harg3 arg4 harg4 arg5 harg5 hr hw x0 xs xq).1) S1x256.size (by sl_kernel_rfl) y

/-- The variance row the last point stores. -/
def varLast (c : Dev nD) (i : grid0.Coords) (arg1 : Memref sig .tc .vmem S2x256x56x56 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (hr : ¬resets i) (hw : writesOut i)
    (x0 : Vec F S2x256x56x56 .f32) (xs xq : Vec F S1x256 .f32) : Vec F S1x256 .f32 :=
  vVar.read (Elt F) (vVar.writes (Elt F) vVar.junk (runLast c i arg1 harg1 arg2 harg2 arg3 harg3 arg4 harg4 arg5 harg5 hr hw x0 xs xq).2.1)
theorem varLast_cover (c : Dev nD) (i : grid0.Coords) (arg1 : Memref sig .tc .vmem S2x256x56x56 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (hr : ¬resets i) (hw : writesOut i)
    (x0 : Vec F S2x256x56x56 .f32) (xs xq : Vec F S1x256 .f32) (y : S1x256.Idx) :
    ∃ pc ∈ (runLast c i arg1 harg1 arg2 harg2 arg3 harg3 arg4 harg4 arg5 harg5 hr hw x0 xs xq).2.1, y ∈ pc.1.set :=
  View.cover_of_tiledL ((runLast c i arg1 harg1 arg2 harg2 arg3 harg3 arg4 harg4 arg5 harg5 hr hw x0 xs xq).2.1) S1x256.size (by sl_kernel_rfl) y

/-- The sum row after the last point. -/
def sumLast (c : Dev nD) (i : grid0.Coords) (arg1 : Memref sig .tc .vmem S2x256x56x56 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (hr : ¬resets i) (hw : writesOut i)
    (x0 : Vec F S2x256x56x56 .f32) (xs xq : Vec F S1x256 .f32) : Vec F S1x256 .f32 :=
  vSum.read (Elt F) (vSum.writes (Elt F) vSum.junk (runLast c i arg1 harg1 arg2 harg2 arg3 harg3 arg4 harg4 arg5 harg5 hr hw x0 xs xq).2.2.1)
theorem sumLast_cover (c : Dev nD) (i : grid0.Coords) (arg1 : Memref sig .tc .vmem S2x256x56x56 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (hr : ¬resets i) (hw : writesOut i)
    (x0 : Vec F S2x256x56x56 .f32) (xs xq : Vec F S1x256 .f32) (y : S1x256.Idx) :
    ∃ pc ∈ (runLast c i arg1 harg1 arg2 harg2 arg3 harg3 arg4 harg4 arg5 harg5 hr hw x0 xs xq).2.2.1, y ∈ pc.1.set :=
  View.cover_of_tiledL ((runLast c i arg1 harg1 arg2 harg2 arg3 harg3 arg4 harg4 arg5 harg5 hr hw x0 xs xq).2.2.1) S1x256.size (by sl_kernel_rfl) y

/-- The sum-of-squares row after the last point. -/
def sqLast (c : Dev nD) (i : grid0.Coords) (arg1 : Memref sig .tc .vmem S2x256x56x56 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (hr : ¬resets i) (hw : writesOut i)
    (x0 : Vec F S2x256x56x56 .f32) (xs xq : Vec F S1x256 .f32) : Vec F S1x256 .f32 :=
  vSq.read (Elt F) (vSq.writes (Elt F) vSq.junk (runLast c i arg1 harg1 arg2 harg2 arg3 harg3 arg4 harg4 arg5 harg5 hr hw x0 xs xq).2.2.2.1)
theorem sqLast_cover (c : Dev nD) (i : grid0.Coords) (arg1 : Memref sig .tc .vmem S2x256x56x56 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (hr : ¬resets i) (hw : writesOut i)
    (x0 : Vec F S2x256x56x56 .f32) (xs xq : Vec F S1x256 .f32) (y : S1x256.Idx) :
    ∃ pc ∈ (runLast c i arg1 harg1 arg2 harg2 arg3 harg3 arg4 harg4 arg5 harg5 hr hw x0 xs xq).2.2.2.1, y ∈ pc.1.set :=
  View.cover_of_tiledL ((runLast c i arg1 harg1 arg2 harg2 arg3 harg3 arg4 harg4 arg5 harg5 hr hw x0 xs xq).2.2.2.1) S1x256.size (by sl_kernel_rfl) y

section AtEntry
-- the TensorCore's buffer contents when the region is entered
variable (V : (c : Dev nD) → (b : Ref sig .tc) → Buf (Elt F) ((c : Thread nD τ).loc b))

/-! ## The input blocks -/

/-- Window `w`'s block at point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input's staging buffer holds its block at every point, for any proof data over these arrays that leaves the
    block in place. -/
theorem held_in {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-! ## The rows after each point -/

/-- THE ACCUMULATION: the (sum, sum of squares) rows after the body at position `n` — the first point from nothing,
    every later point from the rows the point before left. -/
def rowsAt (c : Dev nD) : (n : ℕ) → n < cfg0.N → Vec F S1x256 .f32 × Vec F S1x256 .f32
  | 0, hn =>
    (sumFirst c (grid0.coords ⟨0, hn⟩) (bIn ⟨0, hn⟩) (hIn ⟨0, hn⟩) (bMean ⟨0, hn⟩) (hMean ⟨0, hn⟩) (bVar ⟨0, hn⟩) (hVar ⟨0, hn⟩) bSum (Memref.isWhole_whole _) bSq (Memref.isWhole_whole _) ((resets_iff ⟨0, hn⟩).mpr rfl) (fun h => (fun h' => by (try dsimp only at h'); omega) ((writesOut_iff ⟨0, hn⟩).mp h)) (blk0 V c 0 ⟨0, hn⟩),
     sqFirst c (grid0.coords ⟨0, hn⟩) (bIn ⟨0, hn⟩) (hIn ⟨0, hn⟩) (bMean ⟨0, hn⟩) (hMean ⟨0, hn⟩) (bVar ⟨0, hn⟩) (hVar ⟨0, hn⟩) bSum (Memref.isWhole_whole _) bSq (Memref.isWhole_whole _) ((resets_iff ⟨0, hn⟩).mpr rfl) (fun h => (fun h' => by (try dsimp only at h'); omega) ((writesOut_iff ⟨0, hn⟩).mp h)) (blk0 V c 0 ⟨0, hn⟩))
  | n + 1, hn =>
    if hl : n + 1 = 31 then
      (sumLast c (grid0.coords ⟨n + 1, hn⟩) (bIn ⟨n + 1, hn⟩) (hIn ⟨n + 1, hn⟩) (bMean ⟨n + 1, hn⟩) (hMean ⟨n + 1, hn⟩) (bVar ⟨n + 1, hn⟩) (hVar ⟨n + 1, hn⟩) bSum (Memref.isWhole_whole _) bSq (Memref.isWhole_whole _) (fun h => Nat.succ_ne_zero n ((resets_iff ⟨n + 1, hn⟩).mp h)) ((writesOut_iff ⟨n + 1, hn⟩).mpr hl) (blk0 V c 0 ⟨n + 1, hn⟩) (rowsAt c n (Nat.lt_of_succ_lt hn)).1 (rowsAt c n (Nat.lt_of_succ_lt hn)).2,
       sqLast c (grid0.coords ⟨n + 1, hn⟩) (bIn ⟨n + 1, hn⟩) (hIn ⟨n + 1, hn⟩) (bMean ⟨n + 1, hn⟩) (hMean ⟨n + 1, hn⟩) (bVar ⟨n + 1, hn⟩) (hVar ⟨n + 1, hn⟩) bSum (Memref.isWhole_whole _) bSq (Memref.isWhole_whole _) (fun h => Nat.succ_ne_zero n ((resets_iff ⟨n + 1, hn⟩).mp h)) ((writesOut_iff ⟨n + 1, hn⟩).mpr hl) (blk0 V c 0 ⟨n + 1, hn⟩) (rowsAt c n (Nat.lt_of_succ_lt hn)).1 (rowsAt c n (Nat.lt_of_succ_lt hn)).2)
    else
      (sumMid c (grid0.coords ⟨n + 1, hn⟩) (bIn ⟨n + 1, hn⟩) (hIn ⟨n + 1, hn⟩) (bMean ⟨n + 1, hn⟩) (hMean ⟨n + 1, hn⟩) (bVar ⟨n + 1, hn⟩) (hVar ⟨n + 1, hn⟩) bSum (Memref.isWhole_whole _) bSq (Memref.isWhole_whole _) (fun h => Nat.succ_ne_zero n ((resets_iff ⟨n + 1, hn⟩).mp h)) (fun h => hl ((writesOut_iff ⟨n + 1, hn⟩).mp h)) (blk0 V c 0 ⟨n + 1, hn⟩) (rowsAt c n (Nat.lt_of_succ_lt hn)).1 (rowsAt c n (Nat.lt_of_succ_lt hn)).2,
       sqMid c (grid0.coords ⟨n + 1, hn⟩) (bIn ⟨n + 1, hn⟩) (hIn ⟨n + 1, hn⟩) (bMean ⟨n + 1, hn⟩) (hMean ⟨n + 1, hn⟩) (bVar ⟨n + 1, hn⟩) (hVar ⟨n + 1, hn⟩) bSum (Memref.isWhole_whole _) bSq (Memref.isWhole_whole _) (fun h => Nat.succ_ne_zero n ((resets_iff ⟨n + 1, hn⟩).mp h)) (fun h => hl ((writesOut_iff ⟨n + 1, hn⟩).mp h)) (blk0 V c 0 ⟨n + 1, hn⟩) (rowsAt c n (Nat.lt_of_succ_lt hn)).1 (rowsAt c n (Nat.lt_of_succ_lt hn)).2)

/-- The rows the point before `t` left (for `t` not the first). -/
abbrev rowsBefore (c : Dev nD) (t : Fin cfg0.N) : Vec F S1x256 .f32 × Vec F S1x256 .f32 :=
  rowsAt V c (t.val - 1) (Nat.lt_of_le_of_lt (Nat.sub_le _ _) t.isLt)

theorem rowsAt_first (c : Dev nD) (t : Fin cfg0.N) (h0 : t.val = 0) (hr : resets (grid0.coords t)) (hw : ¬writesOut (grid0.coords t)) :
    rowsAt V c t.val t.isLt = (sumFirst c (grid0.coords t) (bIn t) (hIn t) (bMean t) (hMean t) (bVar t) (hVar t) bSum (Memref.isWhole_whole _) bSq (Memref.isWhole_whole _) hr hw (blk0 V c 0 t), sqFirst c (grid0.coords t) (bIn t) (hIn t) (bMean t) (hMean t) (bVar t) (hVar t) bSum (Memref.isWhole_whole _) bSq (Memref.isWhole_whole _) hr hw (blk0 V c 0 t)) := by
  obtain ⟨n, hn⟩ := t
  cases n with
  | zero => exact rfl
  | succ n => exact absurd h0 (Nat.succ_ne_zero n)

theorem rowsAt_mid (c : Dev nD) (t : Fin cfg0.N) (h0 : t.val ≠ 0) (hl : t.val ≠ 31) (hr : ¬resets (grid0.coords t)) (hw : ¬writesOut (grid0.coords t)) :
    rowsAt V c t.val t.isLt = (sumMid c (grid0.coords t) (bIn t) (hIn t) (bMean t) (hMean t) (bVar t) (hVar t) bSum (Memref.isWhole_whole _) bSq (Memref.isWhole_whole _) hr hw (blk0 V c 0 t) (rowsBefore V c t).1 (rowsBefore V c t).2,
      sqMid c (grid0.coords t) (bIn t) (hIn t) (bMean t) (hMean t) (bVar t) (hVar t) bSum (Memref.isWhole_whole _) bSq (Memref.isWhole_whole _) hr hw (blk0 V c 0 t) (rowsBefore V c t).1 (rowsBefore V c t).2) := by
  obtain ⟨n, hn⟩ := t
  cases n with
  | zero => exact absurd rfl h0
  | succ n => exact (dif_neg hl).trans rfl

theorem rowsAt_last (c : Dev nD) (t : Fin cfg0.N) (hl : t.val = 31) (hr : ¬resets (grid0.coords t)) (hw : writesOut (grid0.coords t)) :
    rowsAt V c t.val t.isLt = (sumLast c (grid0.coords t) (bIn t) (hIn t) (bMean t) (hMean t) (bVar t) (hVar t) bSum (Memref.isWhole_whole _) bSq (Memref.isWhole_whole _) hr hw (blk0 V c 0 t) (rowsBefore V c t).1 (rowsBefore V c t).2,
      sqLast c (grid0.coords t) (bIn t) (hIn t) (bMean t) (hMean t) (bVar t) (hVar t) bSum (Memref.isWhole_whole _) bSq (Memref.isWhole_whole _) hr hw (blk0 V c 0 t) (rowsBefore V c t).1 (rowsBefore V c t).2) := by
  obtain ⟨n, hn⟩ := t
  cases n with
  | zero => exact absurd (show (0 : ℕ) = 31 from hl) (by decide)
  | succ n => exact (dif_pos hl).trans rfl

/-- The (mean, variance) rows in the output windows' buffers after the body at point `t`: what the last point stores;
    elsewhere the windows are left alone and nothing consults this. -/
def outsAt (c : Dev nD) (t : Fin cfg0.N) : Vec F S1x256 .f32 × Vec F S1x256 .f32 :=
  if hl : t.val = 31 then
    (meanLast c (grid0.coords t) (bIn t) (hIn t) (bMean t) (hMean t) (bVar t) (hVar t) bSum (Memref.isWhole_whole _) bSq (Memref.isWhole_whole _) (fun h => by have := (resets_iff t).mp h; omega) ((writesOut_iff t).mpr hl) (blk0 V c 0 t) (rowsBefore V c t).1 (rowsBefore V c t).2,
     varLast c (grid0.coords t) (bIn t) (hIn t) (bMean t) (hMean t) (bVar t) (hVar t) bSum (Memref.isWhole_whole _) bSq (Memref.isWhole_whole _) (fun h => by have := (resets_iff t).mp h; omega) ((writesOut_iff t).mpr hl) (blk0 V c 0 t) (rowsBefore V c t).1 (rowsBefore V c t).2)
  else (vMean.read (Elt F) vMean.junk, vVar.read (Elt F) vVar.junk)

theorem outsAt_last (c : Dev nD) (t : Fin cfg0.N) (hl : t.val = 31) (hr : ¬resets (grid0.coords t)) (hw : writesOut (grid0.coords t)) :
    outsAt V c t = (meanLast c (grid0.coords t) (bIn t) (hIn t) (bMean t) (hMean t) (bVar t) (hVar t) bSum (Memref.isWhole_whole _) bSq (Memref.isWhole_whole _) hr hw (blk0 V c 0 t) (rowsBefore V c t).1 (rowsBefore V c t).2,
      varLast c (grid0.coords t) (bIn t) (hIn t) (bMean t) (hMean t) (bVar t) (hVar t) bSum (Memref.isWhole_whole _) bSq (Memref.isWhole_whole _) hr hw (blk0 V c 0 t) (rowsBefore V c t).1 (rowsBefore V c t).2) := by
  unfold outsAt; exact (dif_pos hl).trans rfl

/-! ## The invariant that links the points -/

/-- Before position `n`: at the region's entry, what the launch hands over (every scoped buffer at anything and the
    generator register); afterwards the two accumulator rows at what point `n - 1` left, the rest as before. -/
def carried (c : Dev nD) : (n : ℕ) → n ≤ cfg0.N → sProp 𝕄
  | 0, _ => Pipeline.ΦA spec0 c
  | n + 1, hn => iprop(iprop(owns (c : Thread nD τ) bSum fullShare (rowsAt V c n hn).1 ∗ owns (c : Thread nD τ) bSq fullShare (rowsAt V c n hn).2 ∗ restOfScoped c) ∗ (∃ r, prngReg c r))

theorem carried_zero (c : Dev nD) (n : ℕ) (h : n ≤ cfg0.N) (hz : n = 0) : carried V c n h = Pipeline.ΦA spec0 c := by
  subst hz; rfl

theorem carried_succ (c : Dev nD) (n : ℕ) (hn : n < cfg0.N) :
    carried V c (n + 1) hn = iprop(iprop(owns (c : Thread nD τ) bSum fullShare (rowsAt V c n hn).1 ∗ owns (c : Thread nD τ) bSq fullShare (rowsAt V c n hn).2 ∗ restOfScoped c) ∗ (∃ r, prngReg c r)) := rfl

theorem carried_pos (c : Dev nD) (n : ℕ) (h : n ≤ cfg0.N) (hz : n ≠ 0) :
    carried V c n h = iprop(iprop(owns (c : Thread nD τ) bSum fullShare (rowsAt V c (n - 1) (by omega)).1 ∗ owns (c : Thread nD τ) bSq fullShare (rowsAt V c (n - 1) (by omega)).2 ∗ restOfScoped c) ∗ (∃ r, prngReg c r)) := by
  cases n with
  | zero => exact absurd rfl hz
  | succ n => rfl

/-! ## The proof data -/

/-- On core `c`: the arrays as the region finds them; after the body at point `t` the input's buffer at its block and
    the output rows at `outsAt`; the invariant `carried`; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => (outsAt V c t).1
    | ⟨2, _⟩ => (outsAt V c t).2
  Φ t := carried V c t.val (Nat.le_of_lt_succ t.isLt)
  q _ := fullShare
  owed _ := 0

theorem arrays0 (c : Dev nD) (w : Fin cfg0.W) : (dat0 V c).A w = V c (Pipeline.arrRef spec0 w) := by
  dsimp only [dat0]

theorem carried_castSucc (c : Dev nD) (t : Fin cfg0.N) :
    (dat0 V c).Φ t.castSucc = carried V c t.val (Nat.le_of_lt t.isLt) := by
  dsimp only [dat0]; simp only [Fin.coe_castSucc]

theorem after_in (c : Dev nD) (t : Fin cfg0.N) : (dat0 V c).after 0 t = blk0 V c 0 t := by dsimp only [dat0]
theorem after_mean (c : Dev nD) (t : Fin cfg0.N) : (dat0 V c).after 1 t = (outsAt V c t).1 := by dsimp only [dat0]
theorem after_var (c : Dev nD) (t : Fin cfg0.N) : (dat0 V c).after 2 t = (outsAt V c t).2 := by dsimp only [dat0]

theorem before_in (c : Dev nD) (t : Fin cfg0.N) (d) : (dat0 V c).before 0 t d = blk0 V c 0 t :=
  held_in V (dat0 V c) (arrays0 V c 0) (after_in V c) t d

/-! ## Every point -/

def pre0 (c : Dev nD) (t : Fin cfg0.N) : sProp 𝕄 :=
  iprop((dat0 V c).Φ t.castSucc ∗ (dat0 V c).owesAt () t.castSucc
    ∗ (∃ d, owns (c : Thread nD τ) (bIn t) fullShare ((dat0 V c).before 0 t d))
    ∗ (∃ d, owns (c : Thread nD τ) (bMean t) fullShare ((dat0 V c).before 1 t d))
    ∗ (∃ d, owns (c : Thread nD τ) (bVar t) fullShare ((dat0 V c).before 2 t d)))

def post0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point. Which kind of point it is follows from its position; the invariant hands the body the rows
    the point before left (anything, at the first point) and takes them back at this point's contents, each read back
    from the stores that cover it; the output rows are handed back untouched except at the last point. -/
theorem stats_point (c : Dev nD) (t : Fin cfg0.N) :
    pre0 V c t ⊢ wp frame (wpE (defs₀ (F := F)) Variants.none c none) Set.univ (bodyAt0 t) (fun _ => post0 V c t) := by
  unfold pre0 post0 bodyAt0
  simp only [before_in]
  rw [show (dat0 V c).owesAt () t.succ = (dat0 V c).owesAt () t.castSucc from rfl]
  rw [show (dat0 V c).Φ t.succ = carried V c (t.val + 1) t.isLt from rfl, carried_succ]
  have hN : t.val < 32 := lt_of_lt_of_eq t.isLt (show cfg0.N = 32 from N_0)
  rw [show (dat0 V c).leavesExact 0 t = owns (c : Thread nD τ) (bIn t) fullShare ((dat0 V c).after 0 t) from by
    unfold Dat.leavesExact; rw [live_in t], after_in]
  by_cases h0 : t.val = 0
  · have hr : resets (grid0.coords t) := (resets_iff t).mpr h0
    have hw : ¬writesOut (grid0.coords t) := fun h => by have := (writesOut_iff t).mp h; omega
    rw [Dat.leavesExact_idle (dat0 V c) 1 t (idle_mean t hw) (noflush_mean t hw),
      Dat.leavesExact_idle (dat0 V c) 2 t (idle_var t hw) (noflush_var t hw)]
    rw [rowsAt_first V c t h0 hr hw]
    unfold sumFirst sqFirst; (try dsimp only)
    rw [carried_castSucc V c t, carried_zero V c _ _ h0, entry_eq]
    iintro ⟨⟨⟨HS, HQ, Hrest⟩, Hg⟩, Ho, ⟨%d0, H0⟩, ⟨%d1, H1⟩, ⟨%d2, H2⟩⟩
    iapply ((runFirst c (grid0.coords t) _ _ _ _ _ _ _ _ _ _ hr hw (blk0 V c 0 t)).2.2 _ _ Set.univ _)
    isplitl [H0]; · iexact H0
    isplitl [H1]; · iexact H1
    isplitl [H2]; · iexact H2
    isplitl [HS]; · iexact HS
    isplitl [HQ]; · iexact HQ
    iintro ⟨H0, H1, H2, ⟨%es, HS⟩, ⟨%eq, HQ⟩⟩
    isplitl [HS HQ Hrest Hg]
    · isplitr [Hg]
      · isplitl [HS]
        · unfold owns; iexists _; isplitr
          swap; · iexact HS
          ipureintro; exact View.read_writes_of_cover _ _ _ _ _ (sumFirst_cover c _ _ _ _ _ _ _ _ _ _ _ hr hw _)
        isplitl [HQ]
        · unfold owns; iexists _; isplitr
          swap; · iexact HQ
          ipureintro; exact View.read_writes_of_cover _ _ _ _ _ (sqFirst_cover c _ _ _ _ _ _ _ _ _ _ _ hr hw _)
        iexact Hrest
      iexact Hg
    isplitl [Ho]; · iexact Ho
    isplitl [H0]; · iexact H0
    isplitl [H1]; · iexists _; iexact H1
    iexists _; iexact H2
  · have hr : ¬resets (grid0.coords t) := fun h => h0 ((resets_iff t).mp h)
    rw [carried_castSucc V c t, carried_pos V c _ _ h0]
    by_cases hl : t.val = 31
    · have hw : writesOut (grid0.coords t) := (writesOut_iff t).mpr hl
      rw [show (dat0 V c).leavesExact 1 t = owns (c : Thread nD τ) (bMean t) fullShare ((dat0 V c).after 1 t) from by
        unfold Dat.leavesExact; rw [live_mean t hw], after_mean]
      rw [show (dat0 V c).leavesExact 2 t = owns (c : Thread nD τ) (bVar t) fullShare ((dat0 V c).after 2 t) from by
        unfold Dat.leavesExact; rw [live_var t hw], after_var]
      rw [rowsAt_last V c t hl hr hw, outsAt_last V c t hl hr hw]
      unfold meanLast varLast sumLast sqLast; (try dsimp only)
      iintro ⟨⟨⟨HS, HQ, Hrest⟩, Hg⟩, Ho, ⟨%d0, H0⟩, ⟨%d1, H1⟩, ⟨%d2, H2⟩⟩
      iapply ((runLast c (grid0.coords t) _ _ _ _ _ _ _ _ _ _ hr hw (blk0 V c 0 t) _ _).2.2.2.2 Set.univ _)
      isplitl [H0]; · iexact H0
      isplitl [H1]; · iexists _; iexact H1
      isplitl [H2]; · iexists _; iexact H2
      isplitl [HS]; · iexact HS
      isplitl [HQ]; · iexact HQ
      iintro ⟨H0, ⟨%e1, H1⟩, ⟨%e2, H2⟩, ⟨%es, HS⟩, ⟨%eq, HQ⟩⟩
      isplitl [HS HQ Hrest Hg]
      · isplitr [Hg]
        · isplitl [HS]
          · unfold owns; iexists _; isplitr
            swap; · iexact HS
            ipureintro; exact View.read_writes_of_cover _ _ _ _ _ (sumLast_cover c _ _ _ _ _ _ _ _ _ _ _ hr hw _ _ _)
          isplitl [HQ]
          · unfold owns; iexists _; isplitr
            swap; · iexact HQ
            ipureintro; exact View.read_writes_of_cover _ _ _ _ _ (sqLast_cover c _ _ _ _ _ _ _ _ _ _ _ hr hw _ _ _)
          iexact Hrest
        iexact Hg
      isplitl [Ho]; · iexact Ho
      isplitl [H0]; · iexact H0
      isplitl [H1]
      · unfold owns; iexists _; isplitr
        swap; · iexact H1
        ipureintro; exact View.read_writes_of_cover _ _ _ _ _ (meanLast_cover c _ _ _ _ _ _ _ _ _ _ _ hr hw _ _ _)
      unfold owns; iexists _; isplitr
      swap; · iexact H2
      ipureintro; exact View.read_writes_of_cover _ _ _ _ _ (varLast_cover c _ _ _ _ _ _ _ _ _ _ _ hr hw _ _ _)
    · have hw : ¬writesOut (grid0.coords t) := fun h => hl ((writesOut_iff t).mp h)
      rw [Dat.leavesExact_idle (dat0 V c) 1 t (idle_mean t hw) (noflush_mean t hw),
        Dat.leavesExact_idle (dat0 V c) 2 t (idle_var t hw) (noflush_var t hw)]
      rw [rowsAt_mid V c t h0 hl hr hw]
      unfold sumMid sqMid; (try dsimp only)
      iintro ⟨⟨⟨HS, HQ, Hrest⟩, Hg⟩, Ho, ⟨%d0, H0⟩, ⟨%d1, H1⟩, ⟨%d2, H2⟩⟩
      iapply ((runMid c (grid0.coords t) _ _ _ _ _ _ _ _ _ _ hr hw (blk0 V c 0 t) _ _).2.2 _ _ Set.univ _)
      isplitl [H0]; · iexact H0
      isplitl [H1]; · iexact H1
      isplitl [H2]; · iexact H2
      isplitl [HS]; · iexact HS
      isplitl [HQ]; · iexact HQ
      iintro ⟨H0, H1, H2, ⟨%es, HS⟩, ⟨%eq, HQ⟩⟩
      isplitl [HS HQ Hrest Hg]
      · isplitr [Hg]
        · isplitl [HS]
          · unfold owns; iexists _; isplitr
            swap; · iexact HS
            ipureintro; exact View.read_writes_of_cover _ _ _ _ _ (sumMid_cover c _ _ _ _ _ _ _ _ _ _ _ hr hw _ _ _)
          isplitl [HQ]
          · unfold owns; iexists _; isplitr
            swap; · iexact HQ
            ipureintro; exact View.read_writes_of_cover _ _ _ _ _ (sqMid_cover c _ _ _ _ _ _ _ _ _ _ _ hr hw _ _ _)
          iexact Hrest
        iexact Hg
      isplitl [Ho]; · iexact Ho
      isplitl [H0]; · iexact H0
      isplitl [H1]; · iexists _; iexact H1
      iexists _; iexact H2

/-- The pipeline's obligation for the statistics pass, at every point. -/
theorem obligation0 (c : Dev nD) : BodyObligation (dat0 (F := F) V c) (defs₀ (F := F)) Variants.none () Set.univ := fun t => by
  rw [bigSep_W0, bigSep_W0]
  exact stats_point V c t

/-! ## Into the first point and out of the last -/

theorem stats_in (c : Dev nD) : Pipeline.ΦA spec0 c ⊢ (dat0 V c).Φ 0 := by
  rw [show (dat0 V c).Φ 0 = carried V c 0 (Nat.zero_le _) from rfl, carried_zero V c 0 _ rfl]
  try exact Idealize.SL.BI.Entails.refl _

/-- After the last point the named rows are forgotten: the scoped buffers are again at anything. -/
theorem stats_out (c : Dev nD) : (dat0 V c).Φ (Fin.last cfg0.N) ⊢ Pipeline.ΦA spec0 c := by
  rw [show (dat0 V c).Φ (Fin.last cfg0.N) = carried V c (Fin.last cfg0.N).val (Nat.le_of_lt_succ (Fin.last cfg0.N).isLt) from rfl,
    carried_pos V c _ _ (by rw [Fin.val_last]; have : cfg0.N = 32 := N_0; omega), entry_eq]
  iintro ⟨⟨HS, HQ, Hrest⟩, Hg⟩
  isplitr [Hg]
  · isplitl [HS]; · iexists _; iexact HS
    isplitl [HQ]; · iexists _; iexact HQ
    iexact Hrest
  iexact Hg

end AtEntry

end Cert.Kernel.Fr

end
-- ==== Proof.KB.Affine.lean ====
/-
  The affine pass (the second pallas_call): 64 grid points, each handed one batch row x[t, :, :, :] together with
  the two per-channel rows `scale` and `shift` (fetched once, at the first point, and kept), and storing
  x * scale + shift — scale and shift spread along the batch, height and width axes — into the output block of the same
  place. Nothing is carried between points and every point stores its whole block.
-/
import proofs.«106418_j11261404250602_2_alg».proof.Proof.Gen.Kernel.Launch
import proofs.«106418_j11261404250602_2_alg».proof.Proof.Gen.Kernel.Skeleton
import proofs.«106418_j11261404250602_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section AtEntry
-- the TensorCore's buffer contents when the region is entered
variable (V : (c : Dev nD) → (b : Ref sig .tc) → Buf (Elt F) ((c : Thread nD τ).loc b))

/-! ## The blocks the points are handed -/

/-- Window `w`'s block at point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input's staging buffer holds its block at every point, fetched there or not (scale and shift are fetched at the
    first point only and their block never moves), for any proof data over these arrays that leaves the block in place. -/
theorem held_x {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem held_scale {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
theorem held_shift {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

/-! ## What the body stores -/

/-- The whole block, and the whole channel row. -/
abbrev rBlock : Rect S1x256x56x56 := Rect.unit (s := S1x256x56x56) ![0, 0, 0, 0] S1x256x56x56.size inb_S1x256x56x56_S1x256x56x56_0_0_0_0
abbrev rRow : Rect S256 := Rect.unit (s := S256) ![0] S256.size inb_S256_S256_0

/-- The output block after the body: its one store, of the body's arithmetic on the three loaded values. -/
def affineOut (x : Vec F S1x256x56x56 .f32) (a b : Vec F S256 .f32) : Vec F S1x256x56x56 .f32 :=
  View.canon [⟨rBlock, k1_pay1 (View.ld x rBlock) (View.ld a rRow) (View.ld b rRow)⟩]

/-- The one store covers the block. -/
theorem affine_cover (p : Vec F S1x256x56x56 .f32) (y : S1x256x56x56.Idx) :
    ∃ pc ∈ ([⟨rBlock, p⟩] : List (View.Piece (Elt F) S1x256x56x56 .f32)), y ∈ pc.1.set :=
  View.cover_of_tiled [⟨rBlock, p⟩] S1x256x56x56.size (by rfl) y

/-! ## The body's triple -/

set_option maxHeartbeats 1000000 in
/-- On whole staging buffers, the three inputs at read contents and the output at anything, the body runs to its end
    holding the inputs as they were and the output at `affineOut` of them. -/
theorem affine_body (c : Dev nD) (E : Set ℕ) (i : grid1.Coords) (arg1 : Memref sig .tc .vmem S1x256x56x56 .f32) (harg1 : arg1.IsWhole)
    (arg2 : Memref sig .tc .vmem S256 .f32) (harg2 : arg2.IsWhole) (arg3 : Memref sig .tc .vmem S256 .f32) (harg3 : arg3.IsWhole)
    (arg4 : Memref sig .tc .vmem S1x256x56x56 .f32) (harg4 : arg4.IsWhole)
    (x : Vec F S1x256x56x56 .f32) (a b : Vec F S256 .f32) (K : PUnit → sProp 𝕄) :
    iprop(owns (c : Thread nD τ) arg1 fullShare x ∗ owns (c : Thread nD τ) arg2 fullShare a ∗ owns (c : Thread nD τ) arg3 fullShare b
        ∗ (∃ d, owns (c : Thread nD τ) arg4 fullShare d)
        ∗ (iprop(owns (c : Thread nD τ) arg1 fullShare x ∗ owns (c : Thread nD τ) arg2 fullShare a ∗ owns (c : Thread nD τ) arg3 fullShare b
            ∗ owns (c : Thread nD τ) arg4 fullShare (affineOut x a b)) -∗ K ⟨⟩))
      ⊢ wp frame (wpE (defs₀ (F := F)) Variants.none c none) E (cc1__normalize_kernel i arg1 harg1 arg2 harg2 arg3 harg3 arg4 harg4) K := by
  simp only [cc1__normalize_kernel_eq_skeleton]; unfold cc1__normalize_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (affine_cover _)

/-! ## The proof data -/

/-- On core `c`: the arrays as the region finds them; after the body at point `t` each input's buffer at its block
    and the output's at `affineOut` of the three blocks; the invariant the untouched scoped rest and generator register;
    nothing owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => affineOut (blk1 V c 0 t) (blk1 V c 1 t) (blk1 V c 2 t)
  Φ _ := Pipeline.ΦA spec1 c
  q _ := fullShare
  owed _ := 0

theorem arrays1 (c : Dev nD) (w : Fin cfg1.W) : (dat1 V c).A w = V c (Pipeline.arrRef spec1 w) := by
  dsimp only [dat1]

theorem after_x (c : Dev nD) (t : Fin cfg1.N) : (dat1 V c).after 0 t = blk1 V c 0 t := by dsimp only [dat1]
theorem after_scale (c : Dev nD) (t : Fin cfg1.N) : (dat1 V c).after 1 t = blk1 V c 1 t := by dsimp only [dat1]
theorem after_shift (c : Dev nD) (t : Fin cfg1.N) : (dat1 V c).after 2 t = blk1 V c 2 t := by dsimp only [dat1]
theorem after_out (c : Dev nD) (t : Fin cfg1.N) :
    (dat1 V c).after 3 t = affineOut (blk1 V c 0 t) (blk1 V c 1 t) (blk1 V c 2 t) := by dsimp only [dat1]

theorem before_x (c : Dev nD) (t : Fin cfg1.N) (d) : (dat1 V c).before 0 t d = blk1 V c 0 t :=
  held_x V (dat1 V c) (arrays1 V c 0) (after_x V c) t d
theorem before_scale (c : Dev nD) (t : Fin cfg1.N) (d) : (dat1 V c).before 1 t d = blk1 V c 1 t :=
  held_scale V (dat1 V c) (arrays1 V c 1) (after_scale V c) t d
theorem before_shift (c : Dev nD) (t : Fin cfg1.N) (d) : (dat1 V c).before 2 t d = blk1 V c 2 t :=
  held_shift V (dat1 V c) (arrays1 V c 2) (after_shift V c) t d

/-! ## The body obligation -/

def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def post1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- At any point the inputs' buffers hold their blocks, so the body's triple applies; the invariant and what the core owes
    pass through unread. -/
theorem affine_point (c : Dev nD) (t : Fin cfg1.N) :
    pre1 V c t ⊢ wp frame (wpE (defs₀ (F := F)) Variants.none c none) Set.univ (bodyAt1 t) (fun _ => post1 V c t) := by
  unfold pre1 post1 bodyAt1
  simp only [before_x, before_scale, before_shift]
  rw [show (dat1 V c).Φ t.succ = (dat1 V c).Φ t.castSucc from rfl,
    show (dat1 V c).owesAt () t.succ = (dat1 V c).owesAt () t.castSucc from rfl,
    after_x, after_scale, after_shift, after_out]
  iintro ⟨HΦ, Ho, ⟨%d0, H0⟩, ⟨%d1, H1⟩, ⟨%d2, H2⟩, ⟨%d3, H3⟩⟩
  iapply (affine_body c Set.univ _ _ _ _ _ _ _ _ _ (blk1 V c 0 t) (blk1 V c 1 t) (blk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem obligation1 (c : Dev nD) : BodyObligation (dat1 (F := F) V c) (defs₀ (F := F)) Variants.none () Set.univ := fun t => by
  rw [bigSep_W1, bigSep_W1]
  exact affine_point V c t

end AtEntry

end Cert.Kernel.Fr

end
-- ==== Proof.KB.Whole.lean ====
/-
  The whole program. @main is: the statistics pass; 102 host operations (the blended moments, the divergence, the
  per-channel `scale` and `shift`), which the printed program cuts in two stretches of 59 and 43; the affine pass.
  This module names the TensorCore's buffer contents at each of those boundaries as a fold through @main, states the two
  passes as regions entered from and left at those contents, and launches the lot: every weakly fair execution
  terminates, nothing faults, and every unscoped buffer ends at the last boundary's contents.
-/
import proofs.«106418_j11261404250602_2_alg».proof.Proof.KB.StatsData
import proofs.«106418_j11261404250602_2_alg».proof.Proof.KB.Affine
import Idealize.ShloMosaic.Lib.Pipeline.RegionsLoop
import Idealize.ShloMosaic.Lib.Pipeline.FrameSuffix

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev E0 : Dev nD → Valuation τ sig (Elt F) := fun c b => (s₀ m ρ).mem ((c : Dev nD), b)
abbrev V0 : (c : Dev nD) → (b : Ref sig .tc) → Buf (Elt F) ((c : Thread nD τ).loc b) := fun c b => E0 m ρ c b
/-- After the statistics pass: the mean and variance rows at what the pass wrote back, everything else as launched. -/
def E1 (c : Dev nD) : Valuation τ sig (Elt F) :=
  Pipeline.withArrays spec0 c (E0 m ρ c) fun w => (dat0 (V0 m ρ) c).arrAt w cfg0.N
theorem E1_arr (c : Dev nD) (w : Fin cfg0.W) :
    E1 m ρ c (Proc.devRef .tc (Pipeline.arrRef spec0 w)) = (dat0 (V0 m ρ) c).arrAt w cfg0.N := by
  unfold E1; exact Pipeline.withArrays_arr spec0 launch0.win.arr_inj c _ _ w
theorem E1_of_ne (c : Dev nD) (b : Ref sig .tc) (hb : ∀ w, Pipeline.arrRef spec0 w ≠ b) :
    E1 m ρ c (Proc.devRef .tc b) = E0 m ρ c (Proc.devRef .tc b) := by
  unfold E1; exact Pipeline.withArrays_of_ne spec0 c _ _ b hb
abbrev V1 : (c : Dev nD) → (b : Ref sig .tc) → Buf (Elt F) ((c : Thread nD τ).loc b) := fun c b => E1 m ρ c b
theorem arr_end0 (c : Dev nD) (w : Fin cfg0.W) : (dat0 (V0 m ρ) c).arrAt w cfg0.N = V1 m ρ c (Pipeline.arrRef spec0 w) :=
  (E1_arr m ρ c w).symm
theorem rest_end0 (c : Dev nD) : ∀ b, b ∉ Finset.univ.image (Pipeline.arrRef spec0) → V1 m ρ c b = V0 m ρ c b :=
  fun b hb => E1_of_ne m ρ c b fun w e => hb (Finset.mem_image.mpr ⟨w, Finset.mem_univ _, e⟩)

/-- After the first 59 host operations, and after the remaining 43. -/
abbrev E2 : Dev nD → Valuation τ sig (Elt F) := fun c => StableHlo.after main_part0_ops0 (E1 m ρ c)
abbrev E3 : Dev nD → Valuation τ sig (Elt F) := fun c => StableHlo.after main_part1_ops0 (E2 m ρ c)
abbrev V3 : (c : Dev nD) → (b : Ref sig .tc) → Buf (Elt F) ((c : Thread nD τ).loc b) := fun c b => E3 m ρ c b
/-- After the affine pass: the output array at what the pass wrote back, everything else as it was entered. -/
def E4 (c : Dev nD) : Valuation τ sig (Elt F) :=
  Pipeline.withArrays spec1 c (E3 m ρ c) fun w => (dat1 (V3 m ρ) c).arrAt w cfg1.N
theorem E4_arr (c : Dev nD) (w : Fin cfg1.W) :
    E4 m ρ c (Proc.devRef .tc (Pipeline.arrRef spec1 w)) = (dat1 (V3 m ρ) c).arrAt w cfg1.N := by
  unfold E4; exact Pipeline.withArrays_arr spec1 launch1.win.arr_inj c _ _ w
theorem E4_of_ne (c : Dev nD) (b : Ref sig .tc) (hb : ∀ w, Pipeline.arrRef spec1 w ≠ b) :
    E4 m ρ c (Proc.devRef .tc b) = E3 m ρ c (Proc.devRef .tc b) := by
  unfold E4; exact Pipeline.withArrays_of_ne spec1 c _ _ b hb
abbrev V4 : (c : Dev nD) → (b : Ref sig .tc) → Buf (Elt F) ((c : Thread nD τ).loc b) := fun c b => E4 m ρ c b
theorem arr_end1 (c : Dev nD) (w : Fin cfg1.W) : (dat1 (V3 m ρ) c).arrAt w cfg1.N = V4 m ρ c (Pipeline.arrRef spec1 w) :=
  (E4_arr m ρ c w).symm
theorem rest_end1 (c : Dev nD) : ∀ b, b ∉ Finset.univ.image (Pipeline.arrRef spec1) → V4 m ρ c b = V3 m ρ c b :=
  fun b hb => E4_of_ne m ρ c b fun w e => hb (Finset.mem_image.mpr ⟨w, Finset.mem_univ _, e⟩)

/-! ### The arguments end as launched: no host operation writes one, and a pass at most reads one through an input window -/

theorem end_main_arg0 (c : Dev nD) : E4 m ρ c (Proc.devRef .tc main_arg0) = m ((c : Thread nD τ).loc main_arg0) :=
  calc E4 m ρ c (Proc.devRef .tc main_arg0)
    _ = E3 m ρ c (Proc.devRef .tc main_arg0) := (E4_arr m ρ c 0).trans (((dat1 (V3 m ρ) c).arrAt_in 0 rfl _).trans (arrays1 (V3 m ρ) c 0))
    _ = E2 m ρ c (Proc.devRef .tc main_arg0) := StableHlo.after_of_forall_not_mem (b := Proc.devRef .tc main_arg0) _ _ (List.forall_iff_forall_mem.mp (by
          simp only [main_part1_ops0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = E1 m ρ c (Proc.devRef .tc main_arg0) := StableHlo.after_of_forall_not_mem (b := Proc.devRef .tc main_arg0) _ _ (List.forall_iff_forall_mem.mp (by
          simp only [main_part0_ops0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = E0 m ρ c (Proc.devRef .tc main_arg0) := (E1_arr m ρ c 0).trans (((dat0 (V0 m ρ) c).arrAt_in 0 rfl _).trans (arrays0 (V0 m ρ) c 0))
    _ = m ((c : Thread nD τ).loc main_arg0) := rfl

theorem end_main_arg1 (c : Dev nD) : E4 m ρ c (Proc.devRef .tc main_arg1) = m ((c : Thread nD τ).loc main_arg1) :=
  calc E4 m ρ c (Proc.devRef .tc main_arg1)
    _ = E3 m ρ c (Proc.devRef .tc main_arg1) := E4_of_ne m ρ c main_arg1 (by decide)
    _ = E2 m ρ c (Proc.devRef .tc main_arg1) := StableHlo.after_of_forall_not_mem (b := Proc.devRef .tc main_arg1) _ _ (List.forall_iff_forall_mem.mp (by
          simp only [main_part1_ops0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = E1 m ρ c (Proc.devRef .tc main_arg1) := StableHlo.after_of_forall_not_mem (b := Proc.devRef .tc main_arg1) _ _ (List.forall_iff_forall_mem.mp (by
          simp only [main_part0_ops0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = E0 m ρ c (Proc.devRef .tc main_arg1) := E1_of_ne m ρ c main_arg1 (by decide)
    _ = m ((c : Thread nD τ).loc main_arg1) := rfl

theorem end_main_arg2 (c : Dev nD) : E4 m ρ c (Proc.devRef .tc main_arg2) = m ((c : Thread nD τ).loc main_arg2) :=
  calc E4 m ρ c (Proc.devRef .tc main_arg2)
    _ = E3 m ρ c (Proc.devRef .tc main_arg2) := E4_of_ne m ρ c main_arg2 (by decide)
    _ = E2 m ρ c (Proc.devRef .tc main_arg2) := StableHlo.after_of_forall_not_mem (b := Proc.devRef .tc main_arg2) _ _ (List.forall_iff_forall_mem.mp (by
          simp only [main_part1_ops0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = E1 m ρ c (Proc.devRef .tc main_arg2) := StableHlo.after_of_forall_not_mem (b := Proc.devRef .tc main_arg2) _ _ (List.forall_iff_forall_mem.mp (by
          simp only [main_part0_ops0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = E0 m ρ c (Proc.devRef .tc main_arg2) := E1_of_ne m ρ c main_arg2 (by decide)
    _ = m ((c : Thread nD τ).loc main_arg2) := rfl

theorem end_main_arg3 (c : Dev nD) : E4 m ρ c (Proc.devRef .tc main_arg3) = m ((c : Thread nD τ).loc main_arg3) :=
  calc E4 m ρ c (Proc.devRef .tc main_arg3)
    _ = E3 m ρ c (Proc.devRef .tc main_arg3) := E4_of_ne m ρ c main_arg3 (by decide)
    _ = E2 m ρ c (Proc.devRef .tc main_arg3) := StableHlo.after_of_forall_not_mem (b := Proc.devRef .tc main_arg3) _ _ (List.forall_iff_forall_mem.mp (by
          simp only [main_part1_ops0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = E1 m ρ c (Proc.devRef .tc main_arg3) := StableHlo.after_of_forall_not_mem (b := Proc.devRef .tc main_arg3) _ _ (List.forall_iff_forall_mem.mp (by
          simp only [main_part0_ops0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = E0 m ρ c (Proc.devRef .tc main_arg3) := E1_of_ne m ρ c main_arg3 (by decide)
    _ = m ((c : Thread nD τ).loc main_arg3) := rfl

theorem end_main_arg4 (c : Dev nD) : E4 m ρ c (Proc.devRef .tc main_arg4) = m ((c : Thread nD τ).loc main_arg4) :=
  calc E4 m ρ c (Proc.devRef .tc main_arg4)
    _ = E3 m ρ c (Proc.devRef .tc main_arg4) := E4_of_ne m ρ c main_arg4 (by decide)
    _ = E2 m ρ c (Proc.devRef .tc main_arg4) := StableHlo.after_of_forall_not_mem (b := Proc.devRef .tc main_arg4) _ _ (List.forall_iff_forall_mem.mp (by
          simp only [main_part1_ops0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = E1 m ρ c (Proc.devRef .tc main_arg4) := StableHlo.after_of_forall_not_mem (b := Proc.devRef .tc main_arg4) _ _ (List.forall_iff_forall_mem.mp (by
          simp only [main_part0_ops0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = E0 m ρ c (Proc.devRef .tc main_arg4) := E1_of_ne m ρ c main_arg4 (by decide)
    _ = m ((c : Thread nD τ).loc main_arg4) := rfl

theorem end_main_arg5 (c : Dev nD) : E4 m ρ c (Proc.devRef .tc main_arg5) = m ((c : Thread nD τ).loc main_arg5) :=
  calc E4 m ρ c (Proc.devRef .tc main_arg5)
    _ = E3 m ρ c (Proc.devRef .tc main_arg5) := E4_of_ne m ρ c main_arg5 (by decide)
    _ = E2 m ρ c (Proc.devRef .tc main_arg5) := StableHlo.after_of_forall_not_mem (b := Proc.devRef .tc main_arg5) _ _ (List.forall_iff_forall_mem.mp (by
          simp only [main_part1_ops0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = E1 m ρ c (Proc.devRef .tc main_arg5) := StableHlo.after_of_forall_not_mem (b := Proc.devRef .tc main_arg5) _ _ (List.forall_iff_forall_mem.mp (by
          simp only [main_part0_ops0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = E0 m ρ c (Proc.devRef .tc main_arg5) := E1_of_ne m ρ c main_arg5 (by decide)
    _ = m ((c : Thread nD τ).loc main_arg5) := rfl

theorem end_main_arg6 (c : Dev nD) : E4 m ρ c (Proc.devRef .tc main_arg6) = m ((c : Thread nD τ).loc main_arg6) :=
  calc E4 m ρ c (Proc.devRef .tc main_arg6)
    _ = E3 m ρ c (Proc.devRef .tc main_arg6) := E4_of_ne m ρ c main_arg6 (by decide)
    _ = E2 m ρ c (Proc.devRef .tc main_arg6) := StableHlo.after_of_forall_not_mem (b := Proc.devRef .tc main_arg6) _ _ (List.forall_iff_forall_mem.mp (by
          simp only [main_part1_ops0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = E1 m ρ c (Proc.devRef .tc main_arg6) := StableHlo.after_of_forall_not_mem (b := Proc.devRef .tc main_arg6) _ _ (List.forall_iff_forall_mem.mp (by
          simp only [main_part0_ops0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = E0 m ρ c (Proc.devRef .tc main_arg6) := E1_of_ne m ρ c main_arg6 (by decide)
    _ = m ((c : Thread nD τ).loc main_arg6) := rfl

theorem end_main_arg7 (c : Dev nD) : E4 m ρ c (Proc.devRef .tc main_arg7) = m ((c : Thread nD τ).loc main_arg7) :=
  calc E4 m ρ c (Proc.devRef .tc main_arg7)
    _ = E3 m ρ c (Proc.devRef .tc main_arg7) := E4_of_ne m ρ c main_arg7 (by decide)
    _ = E2 m ρ c (Proc.devRef .tc main_arg7) := StableHlo.after_of_forall_not_mem (b := Proc.devRef .tc main_arg7) _ _ (List.forall_iff_forall_mem.mp (by
          simp only [main_part1_ops0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = E1 m ρ c (Proc.devRef .tc main_arg7) := StableHlo.after_of_forall_not_mem (b := Proc.devRef .tc main_arg7) _ _ (List.forall_iff_forall_mem.mp (by
          simp only [main_part0_ops0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = E0 m ρ c (Proc.devRef .tc main_arg7) := E1_of_ne m ρ c main_arg7 (by decide)
    _ = m ((c : Thread nD τ).loc main_arg7) := rfl

/-! ## The proof data family and what rides along -/

abbrev adm : (p : Fin 2) → (pcfgs (F := F) p).Adm := fun p => (cfgs p).toPCfg_adm
/-- Each pass's proof data at its own entry contents — a literal match, so that the pinned configuration at a numeral
    reduces to the printed one. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- Beside the buffers: the generator register at some state, and the core owing nothing. -/
abbrev R (c : Dev nD) : sProp 𝕄 := iprop((∃ r, prngReg c r) ∗ ∃ W, owes (c : Thread nD τ) (0 : CellTallies nD τ sig Unit) W)
/-- A stretch of host operations as a segment over the unscoped buffers. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem ops0_fresh : (main_part0_ops0 : List (HloOp τ sig (Elt F))).Forall fun op => op.fresh = ∅ := by
  simp only [List.Forall]; repeat' constructor
theorem ops1_fresh : (main_part1_ops0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (E4 m ρ c) ∗ ∃ r, prngReg c r)

/-! ## The two passes as regions -/

-- a library lemma stated over the pinned configuration unifies with the printed one only when unification may unfold
-- plain definitions in a metavariable's type
set_option backward.isDefEq.respectTransparency.types false in
/-- THE STATISTICS PASS over the thread state: entered from every unscoped buffer at the launch contents, left with the mean and variance arrays at what it wrote back. Its arrays are split out of the unscoped buffers and put back; the generator register and the scoped buffers go into the pass's invariant and come back with the accumulator rows' contents forgotten; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (obligation0 (V0 m ρ) c).loose
  hwaits := Pipeline.hwaits_of_owed_zero _ _ _ _ L lv 0 fun _ _ => rfl
  pre c := iprop(StableHlo.held (c : Thread nD τ) (Pipeline.ucRefs τ sig) (E0 m ρ c) ∗ R c)
  post c := iprop(StableHlo.held (c : Thread nD τ) (Pipeline.ucRefs τ sig) (E1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    have hso : (pdats m ρ 0 c).Φ (Fin.last _) ⊢ iprop(Pipeline.scopedRest spec0 c ∗ ∃ r, prngReg c r) := by
      have h := stats_out (V0 m ρ) c; unfold Pipeline.ΦA at h; exact h
    iintro HΦ
    ihave H := hso $$ HΦ
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (arr_end0 m ρ c) (rest_end0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- THE AFFINE PASS over the thread state: entered from every unscoped buffer at the contents the host operations left, left with the output array at what it wrote back. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (obligation1 (V3 m ρ) c).loose
  hwaits := Pipeline.hwaits_of_owed_zero _ _ _ _ L lv 1 fun _ _ => rfl
  pre c := iprop(StableHlo.held (c : Thread nD τ) (Pipeline.ucRefs τ sig) (E3 m ρ c) ∗ R c)
  post c := iprop(StableHlo.held (c : Thread nD τ) (Pipeline.ucRefs τ sig) (E4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (arr_end1 m ρ c) (rest_end1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg main_part0_ops0 main_part0_ops0_sub ops0_fresh (E1 m ρ)),
    .host (hseg main_part1_ops0 main_part1_ops0_sub ops1_fresh (E2 m ρ)),
    .region (reg1 m ρ) ]

theorem main_run (c : Dev nD) : main (F := F) c = Pipeline.Seg.run (segs m ρ) := (main_chain_windows c).trans (by chain_rfl)

set_option backward.isDefEq.respectTransparency.types false in
/-- THE RUN: at the compiled mesh, from any memory with zero counters, every weakly fair execution of @main on the
    TensorCores terminates, nothing faulting, and every unscoped buffer ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = E4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (E0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (E4 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (E0 m ρ c)
        from Pipeline.unscopedBufs_held c (E0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = E4 m ρ c b)
    (hfin := fun c s' => by
      iintro ⟨⟨Hh, -⟩, HSI⟩
      unfold StableHlo.held
      imodintro
      iapply (pointsTo_read_all (Pipeline.ucRefs τ sig) (fun b => (((c : Thread nD τ)).1, b)) (E4 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (end_main_arg0 m ρ c),
     (h c _ (mem_uc main_arg1 (by decide))).trans (end_main_arg1 m ρ c),
     (h c _ (mem_uc main_arg2 (by decide))).trans (end_main_arg2 m ρ c),
     (h c _ (mem_uc main_arg3 (by decide))).trans (end_main_arg3 m ρ c),
     (h c _ (mem_uc main_arg4 (by decide))).trans (end_main_arg4 m ρ c),
     (h c _ (mem_uc main_arg5 (by decide))).trans (end_main_arg5 m ρ c),
     (h c _ (mem_uc main_arg6 (by decide))).trans (end_main_arg6 m ρ c),
     (h c _ (mem_uc main_arg7 (by decide))).trans (end_main_arg7 m ρ c)⟩) (run_all m ρ)

end Cert.Kernel.Fr

end
-- ==== Proof.KI.Affine.lean ====
/-
  The affine pass (the second pallas_call): 64 grid points, each handed one batch row x[t, :, :, :] together with
  the two per-channel rows `scale` and `shift` (fetched once, at the first point, and kept), and storing
  x * scale + shift — scale and shift spread along the batch, height and width axes — into the output block of the same
  place. Nothing is carried between points and every point stores its whole block.
-/
import proofs.«106418_j11261404250602_2_alg».proof.Proof.Gen.KernelIdeal.Launch
import proofs.«106418_j11261404250602_2_alg».proof.Proof.Gen.KernelIdeal.Skeleton
import proofs.«106418_j11261404250602_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section AtEntry
-- the TensorCore's buffer contents when the region is entered
variable (V : (c : Dev nD) → (b : Ref sig .tc) → Buf (Elt F) ((c : Thread nD τ).loc b))

/-! ## The blocks the points are handed -/

/-- Window `w`'s block at point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input's staging buffer holds its block at every point, fetched there or not (scale and shift are fetched at the
    first point only and their block never moves), for any proof data over these arrays that leaves the block in place. -/
theorem held_x {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem held_scale {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
theorem held_shift {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

/-! ## What the body stores -/

/-- The whole block, and the whole channel row. -/
abbrev rBlock : Rect S1x256x56x56 := Rect.unit (s := S1x256x56x56) ![0, 0, 0, 0] S1x256x56x56.size inb_S1x256x56x56_S1x256x56x56_0_0_0_0
abbrev rRow : Rect S256 := Rect.unit (s := S256) ![0] S256.size inb_S256_S256_0

/-- The output block after the body: its one store, of the body's arithmetic on the three loaded values. -/
def affineOut (x : Vec F S1x256x56x56 .f32) (a b : Vec F S256 .f32) : Vec F S1x256x56x56 .f32 :=
  View.canon [⟨rBlock, k1_pay1 (View.ld x rBlock) (View.ld a rRow) (View.ld b rRow)⟩]

/-- The one store covers the block. -/
theorem affine_cover (p : Vec F S1x256x56x56 .f32) (y : S1x256x56x56.Idx) :
    ∃ pc ∈ ([⟨rBlock, p⟩] : List (View.Piece (Elt F) S1x256x56x56 .f32)), y ∈ pc.1.set :=
  View.cover_of_tiled [⟨rBlock, p⟩] S1x256x56x56.size (by rfl) y

/-! ## The body's triple -/

set_option maxHeartbeats 1000000 in
/-- On whole staging buffers, the three inputs at read contents and the output at anything, the body runs to its end
    holding the inputs as they were and the output at `affineOut` of them. -/
theorem affine_body (c : Dev nD) (E : Set ℕ) (i : grid1.Coords) (arg1 : Memref sig .tc .vmem S1x256x56x56 .f32) (harg1 : arg1.IsWhole)
    (arg2 : Memref sig .tc .vmem S256 .f32) (harg2 : arg2.IsWhole) (arg3 : Memref sig .tc .vmem S256 .f32) (harg3 : arg3.IsWhole)
    (arg4 : Memref sig .tc .vmem S1x256x56x56 .f32) (harg4 : arg4.IsWhole)
    (x : Vec F S1x256x56x56 .f32) (a b : Vec F S256 .f32) (K : PUnit → sProp 𝕄) :
    iprop(owns (c : Thread nD τ) arg1 fullShare x ∗ owns (c : Thread nD τ) arg2 fullShare a ∗ owns (c : Thread nD τ) arg3 fullShare b
        ∗ (∃ d, owns (c : Thread nD τ) arg4 fullShare d)
        ∗ (iprop(owns (c : Thread nD τ) arg1 fullShare x ∗ owns (c : Thread nD τ) arg2 fullShare a ∗ owns (c : Thread nD τ) arg3 fullShare b
            ∗ owns (c : Thread nD τ) arg4 fullShare (affineOut x a b)) -∗ K ⟨⟩))
      ⊢ wp frame (wpE (defs₀ (F := F)) Variants.none c none) E (cc1__normalize_kernel i arg1 harg1 arg2 harg2 arg3 harg3 arg4 harg4) K := by
  simp only [cc1__normalize_kernel_eq_skeleton]; unfold cc1__normalize_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (affine_cover _)

/-! ## The proof data -/

/-- On core `c`: the arrays as the region finds them; after the body at point `t` each input's buffer at its block
    and the output's at `affineOut` of the three blocks; the invariant the untouched scoped rest and generator register;
    nothing owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => affineOut (blk1 V c 0 t) (blk1 V c 1 t) (blk1 V c 2 t)
  Φ _ := Pipeline.ΦA spec1 c
  q _ := fullShare
  owed _ := 0

theorem arrays1 (c : Dev nD) (w : Fin cfg1.W) : (dat1 V c).A w = V c (Pipeline.arrRef spec1 w) := by
  dsimp only [dat1]

theorem after_x (c : Dev nD) (t : Fin cfg1.N) : (dat1 V c).after 0 t = blk1 V c 0 t := by dsimp only [dat1]
theorem after_scale (c : Dev nD) (t : Fin cfg1.N) : (dat1 V c).after 1 t = blk1 V c 1 t := by dsimp only [dat1]
theorem after_shift (c : Dev nD) (t : Fin cfg1.N) : (dat1 V c).after 2 t = blk1 V c 2 t := by dsimp only [dat1]
theorem after_out (c : Dev nD) (t : Fin cfg1.N) :
    (dat1 V c).after 3 t = affineOut (blk1 V c 0 t) (blk1 V c 1 t) (blk1 V c 2 t) := by dsimp only [dat1]

theorem before_x (c : Dev nD) (t : Fin cfg1.N) (d) : (dat1 V c).before 0 t d = blk1 V c 0 t :=
  held_x V (dat1 V c) (arrays1 V c 0) (after_x V c) t d
theorem before_scale (c : Dev nD) (t : Fin cfg1.N) (d) : (dat1 V c).before 1 t d = blk1 V c 1 t :=
  held_scale V (dat1 V c) (arrays1 V c 1) (after_scale V c) t d
theorem before_shift (c : Dev nD) (t : Fin cfg1.N) (d) : (dat1 V c).before 2 t d = blk1 V c 2 t :=
  held_shift V (dat1 V c) (arrays1 V c 2) (after_shift V c) t d

/-! ## The body obligation -/

def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def post1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- At any point the inputs' buffers hold their blocks, so the body's triple applies; the invariant and what the core owes
    pass through unread. -/
theorem affine_point (c : Dev nD) (t : Fin cfg1.N) :
    pre1 V c t ⊢ wp frame (wpE (defs₀ (F := F)) Variants.none c none) Set.univ (bodyAt1 t) (fun _ => post1 V c t) := by
  unfold pre1 post1 bodyAt1
  simp only [before_x, before_scale, before_shift]
  rw [show (dat1 V c).Φ t.succ = (dat1 V c).Φ t.castSucc from rfl,
    show (dat1 V c).owesAt () t.succ = (dat1 V c).owesAt () t.castSucc from rfl,
    after_x, after_scale, after_shift, after_out]
  iintro ⟨HΦ, Ho, ⟨%d0, H0⟩, ⟨%d1, H1⟩, ⟨%d2, H2⟩, ⟨%d3, H3⟩⟩
  iapply (affine_body c Set.univ _ _ _ _ _ _ _ _ _ (blk1 V c 0 t) (blk1 V c 1 t) (blk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem obligation1 (c : Dev nD) : BodyObligation (dat1 (F := F) V c) (defs₀ (F := F)) Variants.none () Set.univ := fun t => by
  rw [bigSep_W1, bigSep_W1]
  exact affine_point V c t

end AtEntry

end Cert.KernelIdeal.Fr

end
-- ==== Proof.KI.AffineValue.lean ====
/-
  What the affine pass leaves. Point `t`'s input block is batch row `t` of the input array, its scale and shift blocks
  are the whole per-channel rows, and it stores x * scale + shift, the rows spread over batch, height and width. Every
  point writes its block back and the 64 blocks tile the output array, so at an index (n, ch, h, w) the array ends
  holding input(n, ch, h, w) * scale(ch) + shift(ch).
-/
import proofs.«106418_j11261404250602_2_alg».proof.Proof.KI.Affine
import Idealize.ShloMosaic.Lib.ValueIdx
import Idealize.ShloMosaic.Lib.ValueLayout
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

theorem zeros_blk : (![0, 0, 0, 0] : Fin S1x256x56x56.rank → Nat) = fun _ => 0 := by funext a; fin_cases a <;> rfl
theorem zeros_chan : (![0] : Fin S256.rank → Nat) = fun _ => 0 := by funext a; fin_cases a; rfl

/-- The output block after the body is the body's arithmetic on the three blocks. -/
theorem affineOut_eq (x : Vec F S1x256x56x56 .f32) (a b : Vec F S256 .f32) : affineOut x a b = k1_pay1 x a b := by
  unfold affineOut
  rw [View.canon_unit_zero zeros_blk, View.ld_unit_zero zeros_blk, View.ld_unit_zero zeros_chan, View.ld_unit_zero zeros_chan]

/-- A per-channel row laid out as [1, 256, 1, 1] reads, at (0, ch, 0, 0), the row at ch. -/
theorem row_as_1c11 {α : Type} (x : S256.Idx → α) (u : Fin 1) (ch : Fin 256) (v w : Fin 1) :
    shapeCast S1x256x1x1 x shapeCasts_S256_S1x256x1x1 (ix4 u ch v w) = x (ix1 ch) :=
  shapeCast_apply x shapeCasts_S256_S1x256x1x1 _ _ (by
    have hu : u.val = 0 := by omega
    have hv : v.val = 0 := by omega
    have hw : w.val = 0 := by omega
    rw [Shape.rowMajor_val_four, Shape.rowMajor_val_one]
    show ch.val = ((u.val * 256 + ch.val) * 1 + v.val) * 1 + w.val
    rw [hu, hv, hw]; omega)

/-- A [1, 256, 1, 1] array spread to [1, 256, 56, 56] reads, at (u, ch, h, w), the array at (0, ch, 0, 0). -/
theorem spread_1c11 {α : Type} (x : S1x256x1x1.Idx → α) (u : Fin 1) (ch : Fin 256) (h w : Fin 56) :
    broadcastTo S1x256x56x56 x broadcasts_S1x256x1x1_S1x256x56x56 (ix4 u ch h w) = x (ix4 (0 : Fin 1) ch (0 : Fin 1) (0 : Fin 1)) :=
  broadcastTo_apply x broadcasts_S1x256x1x1_S1x256x56x56 _ _ (fun d => match d with
    | ⟨0, _⟩ => by show (0 : ℕ) = if (1 : ℕ) = 1 then 0 else u.val; rw [if_pos rfl]
    | ⟨1, _⟩ => by show ch.val = if (256 : ℕ) = 1 then 0 else ch.val; rw [if_neg (by decide)]
    | ⟨2, _⟩ => by show (0 : ℕ) = if (1 : ℕ) = 1 then 0 else h.val; rw [if_pos rfl]
    | ⟨3, _⟩ => by show (0 : ℕ) = if (1 : ℕ) = 1 then 0 else w.val; rw [if_pos rfl])

/-- The body's arithmetic at an index, on the extended reals: x * scale(ch) + shift(ch). -/
theorem affine_at (x : Vec Ideal S1x256x56x56 .f32) (a b : Vec Ideal S256 .f32) (u : Fin 1) (ch : Fin 256) (h w : Fin 56) :
    k1_pay1 (F := Ideal) x a b (ix4 u ch h w) = x (ix4 u ch h w) * a (ix1 ch) + b (ix1 ch) := by
  unfold k1_pay1
  (try dsimp only)
  rw [shapeCast_self, shapeCast_self, shapeCast_self, shapeCast_self]
  show x (ix4 u ch h w) * broadcastTo S1x256x56x56 _ broadcasts_S1x256x1x1_S1x256x56x56 (ix4 u ch h w)
      + broadcastTo S1x256x56x56 _ broadcasts_S1x256x1x1_S1x256x56x56 (ix4 u ch h w) = _
  rw [spread_1c11, spread_1c11, row_as_1c11, row_as_1c11]

section AtEntry
variable (V : (c : Dev nD) → (b : Ref sig .tc) → Buf (Elt F) ((c : Thread nD τ).loc b))

/-- The windows' block indices: the input and output blocks at batch position `t`, the two rows whole. -/
theorem in_index1 : ∀ t : Fin cfg1.N, win1_0.index t 0 = t.val ∧ win1_0.index t 1 = 0 ∧ win1_0.index t 2 = 0 ∧ win1_0.index t 3 = 0 :=
  (by decide +kernel : ∀ t : Fin grid1.N, win1_0.index t 0 = t.val ∧ win1_0.index t 1 = 0 ∧ win1_0.index t 2 = 0 ∧ win1_0.index t 3 = 0)
theorem out_index1 : ∀ t : Fin cfg1.N, win1_3.index t 0 = t.val ∧ win1_3.index t 1 = 0 ∧ win1_3.index t 2 = 0 ∧ win1_3.index t 3 = 0 :=
  (by decide +kernel : ∀ t : Fin grid1.N, win1_3.index t 0 = t.val ∧ win1_3.index t 1 = 0 ∧ win1_3.index t 2 = 0 ∧ win1_3.index t 3 = 0)
theorem row_index1 : ∀ t : Fin cfg1.N, win1_1.index t 0 = 0 ∧ win1_2.index t 0 = 0 :=
  (by decide +kernel : ∀ t : Fin grid1.N, win1_1.index t 0 = 0 ∧ win1_2.index t 0 = 0)

/-- Point `t`'s input block is batch row `t` of the input array. -/
theorem x_block_at (c : Dev nD) (t : Fin cfg1.N) (y : S1x256x56x56.Idx) (k : S64x256x56x56.Idx)
    (hk0 : (k 0).val = t.val + (y 0).val) (hk1 : (k 1).val = (y 1).val) (hk2 : (k 2).val = (y 2).val) (hk3 : (k 3).val = (y 3).val) :
    (blk1 V c 0 t : Vec F S1x256x56x56 .f32) y = (V c main_arg0 : S64x256x56x56.Idx → Elt F .f32) k := by
  have hi := in_index1 t
  unfold blk1
  rw [View.read_apply]
  show V c main_arg0 _ = V c main_arg0 _
  refine congrArg _ (funext fun a => Fin.ext ?_)
  match a with
  | ⟨0, _⟩ => show win1_0.index t 0 * 1 + 1 * (y 0).val = (k 0).val; rw [hi.1, hk0]; omega
  | ⟨1, _⟩ => show win1_0.index t 1 * 256 + 1 * (y 1).val = (k 1).val; rw [hi.2.1, hk1]; omega
  | ⟨2, _⟩ => show win1_0.index t 2 * 56 + 1 * (y 2).val = (k 2).val; rw [hi.2.2.1, hk2]; omega
  | ⟨3, _⟩ => show win1_0.index t 3 * 56 + 1 * (y 3).val = (k 3).val; rw [hi.2.2.2, hk3]; omega

/-- The scale block is the whole scale row, at every point; the shift block the whole shift row. -/
theorem scale_block_at (c : Dev nD) (t : Fin cfg1.N) (y : S256.Idx) :
    (blk1 V c 1 t : Vec F S256 .f32) y = (V c main_v75 : S256.Idx → Elt F .f32) y := by
  have hi := row_index1 t
  unfold blk1
  rw [View.read_apply]
  show V c main_v75 _ = V c main_v75 _
  refine congrArg _ (funext fun a => Fin.ext ?_)
  match a with
  | ⟨0, _⟩ => show win1_1.index t 0 * 256 + 1 * (y 0).val = (y 0).val; rw [hi.1]; omega
theorem shift_block_at (c : Dev nD) (t : Fin cfg1.N) (y : S256.Idx) :
    (blk1 V c 2 t : Vec F S256 .f32) y = (V c main_v77 : S256.Idx → Elt F .f32) y := by
  have hi := row_index1 t
  unfold blk1
  rw [View.read_apply]
  show V c main_v77 _ = V c main_v77 _
  refine congrArg _ (funext fun a => Fin.ext ?_)
  match a with
  | ⟨0, _⟩ => show win1_2.index t 0 * 256 + 1 * (y 0).val = (y 0).val; rw [hi.2]; omega

end AtEntry

section AtIdeal
variable (V : (c : Dev nD) → (b : Ref sig .tc) → Buf (Elt Ideal) ((c : Thread nD τ).loc b))

/-- The input array and the two rows the pass is entered with, as functions into the extended reals. -/
abbrev inX (c : Dev nD) : S64x256x56x56.Idx → EReal := V c main_arg0
abbrev scaleRow (c : Dev nD) : S256.Idx → EReal := V c main_v75
abbrev shiftRow (c : Dev nD) : S256.Idx → EReal := V c main_v77

/-- What the output array ends holding. -/
def affineAll (c : Dev nD) : S64x256x56x56.Idx → EReal :=
  fun k => inX V c k * scaleRow V c (ix1 (k 1)) + shiftRow V c (ix1 (k 1))

/-- Every write-back writes the block of `affineAll` at its place. -/
theorem flushed_affine (c : Dev nD) (t : Fin cfg1.N) :
    (dat1 V c).flushed 3 t = ((cfg1.win 3).blk t).view.read (Elt Ideal) (affineAll V c) := by
  have ho := out_index1 t
  show (cfg1.win 3).cut (grid1.coords t) ((dat1 V c).after 3 t) = _
  rw [after_out, affineOut_eq]
  funext y
  rw [View.read_apply]
  obtain ⟨u, ch, h, w, rfl⟩ : ∃ (u : Fin 1) (ch : Fin 256) (h w : Fin 56), y = ix4 u ch h w := ⟨y 0, y 1, y 2, y 3, eq_ix4 y⟩
  show k1_pay1 (F := Ideal) (blk1 V c 0 t) (blk1 V c 1 t) (blk1 V c 2 t) (ix4 u ch h w) = affineAll V c _
  rw [affine_at]
  have hu : u.val = 0 := by omega
  have hk : (((cfg1.win 3).blk t).view.emb (ix4 u ch h w) : S64x256x56x56.Idx)
      = ix4 ⟨t.val, by have := t.isLt; have : cfg1.N = 64 := N_1; omega⟩ ch h w := by
    funext a; refine Fin.ext ?_
    match a with
    | ⟨0, _⟩ => show win1_3.index t 0 * 1 + 1 * u.val = t.val; rw [ho.1, hu]; omega
    | ⟨1, _⟩ => show win1_3.index t 1 * 256 + 1 * ch.val = ch.val; rw [ho.2.1]; omega
    | ⟨2, _⟩ => show win1_3.index t 2 * 56 + 1 * h.val = h.val; rw [ho.2.2.1]; omega
    | ⟨3, _⟩ => show win1_3.index t 3 * 56 + 1 * w.val = w.val; rw [ho.2.2.2]; omega
  rw [hk]
  unfold affineAll
  rw [x_block_at V c t (ix4 u ch h w) (ix4 ⟨t.val, by have := t.isLt; have : cfg1.N = 64 := N_1; omega⟩ ch h w) (by show t.val = t.val + u.val; omega) rfl rfl rfl,
    scale_block_at, shift_block_at]

set_option maxHeartbeats 3200000 in
/-- The 64 blocks tile the output array, so it ends holding `affineAll`. -/
theorem out_final (c : Dev nD) : (dat1 V c).arrAt 3 cfg1.N = affineAll V c := by
  have hN : cfg1.N = 64 := N_1
  refine (dat1 V c).arrAt_eq_of_cover 3 (affineAll V c) (fun t _ => flushed_affine V c t) fun i => ?_
  have h0 : (i 0 : Nat) < 64 := (i 0).isLt
  have h1 : (i 1 : Nat) < 256 := (i 1).isLt
  have h2 : (i 2 : Nat) < 56 := (i 2).isLt
  have h3 : (i 3 : Nat) < 56 := (i 3).isLt
  have hlt : (i 0 : Nat) < cfg1.N := lt_of_lt_of_eq h0 hN.symm
  refine ⟨⟨(i 0).val, hlt⟩, flush1_3 _, ?_⟩
  have ho := out_index1 ⟨(i 0).val, hlt⟩
  show i ∈ ((View.whole main_v78).slice (win1_3.rect ⟨(i 0).val, hlt⟩)).set
  rw [View.set_slice_whole, Rect.mem_set_unit]
  intro a
  match a with
  | ⟨0, _⟩ =>
    show win1_3.index ⟨(i 0).val, _⟩ 0 * 1 ≤ (i 0 : Nat) ∧ (i 0 : Nat) < win1_3.index ⟨(i 0).val, _⟩ 0 * 1 + 1
    rw [ho.1]; dsimp only; omega
  | ⟨1, _⟩ =>
    show win1_3.index ⟨(i 0).val, _⟩ 1 * 256 ≤ (i 1 : Nat) ∧ (i 1 : Nat) < win1_3.index ⟨(i 0).val, _⟩ 1 * 256 + 256
    rw [ho.2.1]; omega
  | ⟨2, _⟩ =>
    show win1_3.index ⟨(i 0).val, _⟩ 2 * 56 ≤ (i 2 : Nat) ∧ (i 2 : Nat) < win1_3.index ⟨(i 0).val, _⟩ 2 * 56 + 56
    rw [ho.2.2.1]; omega
  | ⟨3, _⟩ =>
    show win1_3.index ⟨(i 0).val, _⟩ 3 * 56 ≤ (i 3 : Nat) ∧ (i 3 : Nat) < win1_3.index ⟨(i 0).val, _⟩ 3 * 56 + 56
    rw [ho.2.2.2]; omega

end AtIdeal

end Cert.KernelIdeal.Fr

end
-- ==== Proof.KI.StatsCases.lean ====
/-
  The statistics pass (the first pallas_call): 32 grid points, each handed a block of two batch rows
  x[2t .. 2t+1, :, :, :]. Two scratch rows of 256 channels carry the running sum and the running sum of
  squares from point to point: both are zeroed at the first point, every point adds its block's channel
  sums to them, and the last point divides by the number of samples per channel and writes the mean and
  the (biased) variance rows out. This module fixes the vocabulary the three kinds of point share: which
  points reset, which points write out, where the two output rows are left untouched, and the buffers the
  body runs on.
-/
import proofs.«106418_j11261404250602_2_alg».proof.Proof.Gen.KernelIdeal.Launch
import proofs.«106418_j11261404250602_2_alg».proof.Proof.Gen.KernelIdeal.Skeleton
import proofs.«106418_j11261404250602_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which points reset and which write out -/

/-- The accumulators are zeroed where the grid coordinate is 0. -/
abbrev resets (i : grid0.Coords) : Prop :=
  (Scalar.cmpi .ne (Scalar.extui (Scalar.cmpi .eq (BitVec.ofNat 32 (i 0).val) 0#32)) 0#32) = 1#1

/-- That is the first of the 32 points, and no other. -/
theorem resets_iff : ∀ t : Fin cfg0.N, resets (grid0.coords t) ↔ t.val = 0 :=
  (by decide +kernel : ∀ t : Fin grid0.N, resets (grid0.coords t) ↔ t.val = 0)

/-- The mean and variance rows are written where the grid coordinate is 31. -/
abbrev writesOut (i : grid0.Coords) : Prop := k0_cond2 i = 1#1

/-- That is the last of the 32 points, and no other. -/
theorem writesOut_iff : ∀ t : Fin cfg0.N, writesOut (grid0.coords t) ↔ t.val = 31 :=
  (by decide +kernel : ∀ t : Fin grid0.N, writesOut (grid0.coords t) ↔ t.val = 31)

/-! ## Where the windows are left alone -/

/-- The input block is live at every point. -/
theorem live_in : ∀ t : Fin cfg0.N, cfg0.idle 0 (grid0.coords t) = false := by decide +kernel

/-- Away from the last point the mean row is neither stored into nor written back. -/
theorem idle_mean : ∀ t : Fin cfg0.N, ¬writesOut (grid0.coords t) → cfg0.idle 1 (grid0.coords t) = true := by decide +kernel
theorem noflush_mean : ∀ t : Fin cfg0.N, ¬writesOut (grid0.coords t) → (cfg0.win 1).flush t = false := by decide +kernel
/-- At the last point it is stored. -/
theorem live_mean : ∀ t : Fin cfg0.N, writesOut (grid0.coords t) → cfg0.idle 1 (grid0.coords t) = false := by decide +kernel

/-- The same for the variance row. -/
theorem idle_var : ∀ t : Fin cfg0.N, ¬writesOut (grid0.coords t) → cfg0.idle 2 (grid0.coords t) = true := by decide +kernel
theorem noflush_var : ∀ t : Fin cfg0.N, ¬writesOut (grid0.coords t) → (cfg0.win 2).flush t = false := by decide +kernel
theorem live_var : ∀ t : Fin cfg0.N, writesOut (grid0.coords t) → cfg0.idle 2 (grid0.coords t) = false := by decide +kernel

/-! ## The buffers the body runs on -/

/-- The staging buffer each window is on at point `t`, as the pipeline passes it, with its wholeness. -/
abbrev bIn (t : Fin cfg0.N) : Memref sig .tc .vmem S2x256x56x56 .f32 := win0_0.stage (cfg0.slots t 0)
abbrev hIn (t : Fin cfg0.N) : (bIn t).IsWhole := hstage0_0 ((cfg0.slots t 0).cast nbuf0_0)
abbrev bMean (t : Fin cfg0.N) : Memref sig .tc .vmem S1x256 .f32 := win0_1.stage (cfg0.slots t 1)
abbrev hMean (t : Fin cfg0.N) : (bMean t).IsWhole := hstage0_1 ((cfg0.slots t 1).cast nbuf0_1)
abbrev bVar (t : Fin cfg0.N) : Memref sig .tc .vmem S1x256 .f32 := win0_2.stage (cfg0.slots t 2)
abbrev hVar (t : Fin cfg0.N) : (bVar t).IsWhole := hstage0_2 ((cfg0.slots t 2).cast nbuf0_2)

/-- The two accumulator rows: whole scoped buffers of the kernel's own. -/
abbrev bSum : Memref sig .tc .vmem S1x256 .f32 := Memref.whole cc0_scratch0
abbrev bSq : Memref sig .tc .vmem S1x256 .f32 := Memref.whole cc0_scratch1

/-- Views through which the rows' contents are stated. -/
abbrev vSum : View sig .tc .vmem S1x256 .f32 := bSum.view
abbrev vSq : View sig .tc .vmem S1x256 .f32 := bSq.view
abbrev vMean : View sig .tc .vmem S1x256 .f32 := (Memref.whole cc0_stg1_0 : Memref sig .tc .vmem S1x256 .f32).view
abbrev vVar : View sig .tc .vmem S1x256 .f32 := (Memref.whole cc0_stg2_0 : Memref sig .tc .vmem S1x256 .f32).view

/-- What the region is entered with besides its windows: the two accumulator rows at some contents, the other
    call's staging buffers at some contents, and the generator register. -/
def restOfScoped (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f))

theorem entry_eq (c : Dev nD) :
    (Pipeline.ΦA spec0 c : sProp 𝕄)
      = iprop(iprop((∃ d, owns (c : Thread nD τ) bSum fullShare d) ∗ (∃ d, owns (c : Thread nD τ) bSq fullShare d) ∗ restOfScoped c)
          ∗ (∃ r, prngReg c r)) := by
  unfold Pipeline.ΦA restOfScoped; rw [scopedRest0_eq]; simp only [bSum, bSq, owns_whole]; try rfl

end Cert.KernelIdeal.Fr

end
-- ==== Proof.KI.StatsFirst.lean ====
/-
  The statistics pass at its FIRST point: both accumulator rows are zeroed, then the block's channel sums and sums of squares are added; the mean and variance rows are not touched.
-/
import proofs.«106418_j11261404250602_2_alg».proof.Proof.KI.StatsCases

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point that resets and does not write out, on whole buffers — the input block at `x0`, the mean and variance
    rows at any `xm`, `xv` (handed back as they were), the accumulator rows at anything — the body runs to its end
    leaving the input block as it was and each accumulator row with the stores the run finds (the zero row, then the
    row plus the block's sums). -/
noncomputable def runFirst (c : Dev nD) (i : grid0.Coords) (arg1 : Memref sig .tc .vmem S2x256x56x56 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (hr : resets i) (hw : ¬writesOut i)
    (x0 : Vec F S2x256x56x56 .f32) :
    Σ' (LS : List (View.Piece (Elt F) S1x256 .f32)), { LQ : List (View.Piece (Elt F) S1x256 .f32) //
      ∀ (xm xv : Vec F S1x256 .f32) (E : Set ℕ) (K : PUnit → sProp 𝕄),
        iprop(owns (c : Thread nD τ) arg1 fullShare x0 ∗ owns (c : Thread nD τ) arg2 fullShare xm ∗ owns (c : Thread nD τ) arg3 fullShare xv
            ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare xm ∗ owns (c : Thread nD τ) arg3 fullShare xv
                ∗ (∃ f, arg4.view.loc (c : Thread nD τ) ↦[arg4.view.set]{fullShare} arg4.view.writes (Elt F) f LS)
                ∗ (∃ f, arg5.view.loc (c : Thread nD τ) ↦[arg5.view.set]{fullShare} arg5.view.writes (Elt F) f LQ)) -∗ K ⟨⟩))
          ⊢ wp frame (wpE (defs₀ (F := F)) Variants.none c none) E (cc0__stats_kernel i arg1 harg1 arg2 harg2 arg3 harg3 arg4 harg4 arg5 harg5) K } := by
  refine ⟨?_, ?_, fun xm xv E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%ds, %fs, -, HS⟩, ⟨%dq, %fq, -, HQ⟩, Hk⟩
    obtain rfl := harg1.eq_unread hf0; obtain rfl := harg2.eq_unread hf1; obtain rfl := harg3.eq_unread hf2
    sl_exec (disch := first | exact hr | exact hw)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS]; · iexists _; iexact HS
    iexists _; iexact HQ

end Cert.KernelIdeal.Fr

end
-- ==== Proof.KI.StatsMid.lean ====
/-
  The statistics pass at a MIDDLE point: the block's channel sums and sums of squares are added to what the point before left in the accumulator rows; nothing else is touched.
-/
import proofs.«106418_j11261404250602_2_alg».proof.Proof.KI.StatsCases

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point that neither resets nor writes out, the accumulator rows at the contents `xs`, `xq` the point before
    left: the body runs to its end leaving the input block and the two output rows as they were and each accumulator row
    with the one store the run finds (the row plus the block's sums). -/
noncomputable def runMid (c : Dev nD) (i : grid0.Coords) (arg1 : Memref sig .tc .vmem S2x256x56x56 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (hr : ¬resets i) (hw : ¬writesOut i)
    (x0 : Vec F S2x256x56x56 .f32) (xs xq : Vec F S1x256 .f32) :
    Σ' (LS : List (View.Piece (Elt F) S1x256 .f32)), { LQ : List (View.Piece (Elt F) S1x256 .f32) //
      ∀ (xm xv : Vec F S1x256 .f32) (E : Set ℕ) (K : PUnit → sProp 𝕄),
        iprop(owns (c : Thread nD τ) arg1 fullShare x0 ∗ owns (c : Thread nD τ) arg2 fullShare xm ∗ owns (c : Thread nD τ) arg3 fullShare xv
            ∗ owns (c : Thread nD τ) arg4 fullShare xs ∗ owns (c : Thread nD τ) arg5 fullShare xq
            ∗ (iprop(owns (c : Thread nD τ) arg1 fullShare x0 ∗ owns (c : Thread nD τ) arg2 fullShare xm ∗ owns (c : Thread nD τ) arg3 fullShare xv
                ∗ (∃ f, arg4.view.loc (c : Thread nD τ) ↦[arg4.view.set]{fullShare} arg4.view.writes (Elt F) f LS)
                ∗ (∃ f, arg5.view.loc (c : Thread nD τ) ↦[arg5.view.set]{fullShare} arg5.view.writes (Elt F) f LQ)) -∗ K ⟨⟩))
          ⊢ wp frame (wpE (defs₀ (F := F)) Variants.none c none) E (cc0__stats_kernel i arg1 harg1 arg2 harg2 arg3 harg3 arg4 harg4 arg5 harg5) K } := by
  refine ⟨?_, ?_, fun xm xv E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%fs, %hfs, HS⟩, ⟨%fq, %hfq, HQ⟩, Hk⟩
    obtain rfl := harg1.eq_unread hf0; obtain rfl := harg2.eq_unread hf1; obtain rfl := harg3.eq_unread hf2
    obtain rfl := harg4.eq_unread hfs; obtain rfl := harg5.eq_unread hfq
    sl_exec (disch := first | exact hr | exact hw)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS]; · iexists _; iexact HS
    iexists _; iexact HQ

end Cert.KernelIdeal.Fr

end
-- ==== Proof.KI.StatsLast.lean ====
/-
  The statistics pass at its LAST point: the block's sums are added to the accumulator rows, and then the mean row (sum / n) and the variance row (sum of squares / n - mean * mean) are stored.
-/
import proofs.«106418_j11261404250602_2_alg».proof.Proof.KI.StatsCases

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point that writes out and does not reset, the accumulator rows at the contents `xs`, `xq` the point before
    left and the two output rows at anything: the body runs to its end leaving the input block as it was, each
    accumulator row with the one store the run finds, and each output row with its one store. -/
noncomputable def runLast (c : Dev nD) (i : grid0.Coords) (arg1 : Memref sig .tc .vmem S2x256x56x56 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (hr : ¬resets i) (hw : writesOut i)
    (x0 : Vec F S2x256x56x56 .f32) (xs xq : Vec F S1x256 .f32) :
    Σ' (LM : List (View.Piece (Elt F) S1x256 .f32)) (LV : List (View.Piece (Elt F) S1x256 .f32)) (LS : List (View.Piece (Elt F) S1x256 .f32)), { LQ : List (View.Piece (Elt F) S1x256 .f32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d)
            ∗ owns (c : Thread nD τ) arg4 fullShare xs ∗ owns (c : Thread nD τ) arg5 fullShare xq
            ∗ (iprop(owns (c : Thread nD τ) arg1 fullShare x0
                ∗ (∃ f, arg2.view.loc (c : Thread nD τ) ↦[arg2.view.set]{fullShare} arg2.view.writes (Elt F) f LM)
                ∗ (∃ f, arg3.view.loc (c : Thread nD τ) ↦[arg3.view.set]{fullShare} arg3.view.writes (Elt F) f LV)
                ∗ (∃ f, arg4.view.loc (c : Thread nD τ) ↦[arg4.view.set]{fullShare} arg4.view.writes (Elt F) f LS)
                ∗ (∃ f, arg5.view.loc (c : Thread nD τ) ↦[arg5.view.set]{fullShare} arg5.view.writes (Elt F) f LQ)) -∗ K ⟨⟩))
          ⊢ wp frame (wpE (defs₀ (F := F)) Variants.none c none) E (cc0__stats_kernel i arg1 harg1 arg2 harg2 arg3 harg3 arg4 harg4 arg5 harg5) K } := by
  refine ⟨?_, ?_, ?_, ?_, fun E K => ?run⟩
  case run =>
    simp only [cc0__stats_kernel_eq_skeleton]; unfold cc0__stats_kernel_skel
    unfold owns
    iintro ⟨⟨%f0, %hf0, H0⟩, ⟨%d1, %f1, -, H1⟩, ⟨%d2, %f2, -, H2⟩, ⟨%fs, %hfs, HS⟩, ⟨%fq, %hfq, HQ⟩, Hk⟩
    obtain rfl := harg1.eq_unread hf0
    obtain rfl := harg4.eq_unread hfs; obtain rfl := harg5.eq_unread hfq
    sl_exec (disch := first | exact hr | exact hw)
    sl_step
    iapply Hk
    isplitl [H0]
    · iexists _; isplitr; · ipureintro; exact harg1.read_unread _
      iexact H0
    isplitl [H1]; · iexists _; iexact H1
    isplitl [H2]; · iexists _; iexact H2
    isplitl [HS]; · iexists _; iexact HS
    iexists _; iexact HQ

end Cert.KernelIdeal.Fr

end
-- ==== Proof.KI.StatsData.lean ====
/-
  The statistics pass, all 32 points together. After point n the sum row holds the channel sums of the blocks of
  points 0..n added up in that order starting from the zero row, and the sum-of-squares row likewise: this module
  NAMES those contents by recursion on the point (each point's stores read back over what the point before left),
  carries them in the invariant that links one point to the next, and states what the pipeline needs of every point:
  handed its input block (and, from the second point on, the rows the point before left), the body leaves the rows of
  this point; the mean and variance rows are untouched until the last point stores them.
-/
import proofs.«106418_j11261404250602_2_alg».proof.Proof.KI.StatsFirst
import proofs.«106418_j11261404250602_2_alg».proof.Proof.KI.StatsMid
import proofs.«106418_j11261404250602_2_alg».proof.Proof.KI.StatsLast

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What one point leaves in each row, read back from the stores its run found -/

/-- The sum row after the first point. -/
def sumFirst (c : Dev nD) (i : grid0.Coords) (arg1 : Memref sig .tc .vmem S2x256x56x56 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (hr : resets i) (hw : ¬writesOut i)
    (x0 : Vec F S2x256x56x56 .f32) : Vec F S1x256 .f32 :=
  vSum.read (Elt F) (vSum.writes (Elt F) vSum.junk (runFirst c i arg1 harg1 arg2 harg2 arg3 harg3 arg4 harg4 arg5 harg5 hr hw x0).1)
theorem sumFirst_cover (c : Dev nD) (i : grid0.Coords) (arg1 : Memref sig .tc .vmem S2x256x56x56 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (hr : resets i) (hw : ¬writesOut i)
    (x0 : Vec F S2x256x56x56 .f32) (y : S1x256.Idx) :
    ∃ pc ∈ (runFirst c i arg1 harg1 arg2 harg2 arg3 harg3 arg4 harg4 arg5 harg5 hr hw x0).1, y ∈ pc.1.set :=
  View.cover_of_tiledL ((runFirst c i arg1 harg1 arg2 harg2 arg3 harg3 arg4 harg4 arg5 harg5 hr hw x0).1) S1x256.size (by sl_kernel_rfl) y

/-- The sum-of-squares row after the first point. -/
def sqFirst (c : Dev nD) (i : grid0.Coords) (arg1 : Memref sig .tc .vmem S2x256x56x56 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (hr : resets i) (hw : ¬writesOut i)
    (x0 : Vec F S2x256x56x56 .f32) : Vec F S1x256 .f32 :=
  vSq.read (Elt F) (vSq.writes (Elt F) vSq.junk (runFirst c i arg1 harg1 arg2 harg2 arg3 harg3 arg4 harg4 arg5 harg5 hr hw x0).2.1)
theorem sqFirst_cover (c : Dev nD) (i : grid0.Coords) (arg1 : Memref sig .tc .vmem S2x256x56x56 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (hr : resets i) (hw : ¬writesOut i)
    (x0 : Vec F S2x256x56x56 .f32) (y : S1x256.Idx) :
    ∃ pc ∈ (runFirst c i arg1 harg1 arg2 harg2 arg3 harg3 arg4 harg4 arg5 harg5 hr hw x0).2.1, y ∈ pc.1.set :=
  View.cover_of_tiledL ((runFirst c i arg1 harg1 arg2 harg2 arg3 harg3 arg4 harg4 arg5 harg5 hr hw x0).2.1) S1x256.size (by sl_kernel_rfl) y

/-- The sum row after a middle point, from the rows `xs`, `xq` the point before left. -/
def sumMid (c : Dev nD) (i : grid0.Coords) (arg1 : Memref sig .tc .vmem S2x256x56x56 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (hr : ¬resets i) (hw : ¬writesOut i)
    (x0 : Vec F S2x256x56x56 .f32) (xs xq : Vec F S1x256 .f32) : Vec F S1x256 .f32 :=
  vSum.read (Elt F) (vSum.writes (Elt F) vSum.junk (runMid c i arg1 harg1 arg2 harg2 arg3 harg3 arg4 harg4 arg5 harg5 hr hw x0 xs xq).1)
theorem sumMid_cover (c : Dev nD) (i : grid0.Coords) (arg1 : Memref sig .tc .vmem S2x256x56x56 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (hr : ¬resets i) (hw : ¬writesOut i)
    (x0 : Vec F S2x256x56x56 .f32) (xs xq : Vec F S1x256 .f32) (y : S1x256.Idx) :
    ∃ pc ∈ (runMid c i arg1 harg1 arg2 harg2 arg3 harg3 arg4 harg4 arg5 harg5 hr hw x0 xs xq).1, y ∈ pc.1.set :=
  View.cover_of_tiledL ((runMid c i arg1 harg1 arg2 harg2 arg3 harg3 arg4 harg4 arg5 harg5 hr hw x0 xs xq).1) S1x256.size (by sl_kernel_rfl) y

/-- The sum-of-squares row after a middle point. -/
def sqMid (c : Dev nD) (i : grid0.Coords) (arg1 : Memref sig .tc .vmem S2x256x56x56 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (hr : ¬resets i) (hw : ¬writesOut i)
    (x0 : Vec F S2x256x56x56 .f32) (xs xq : Vec F S1x256 .f32) : Vec F S1x256 .f32 :=
  vSq.read (Elt F) (vSq.writes (Elt F) vSq.junk (runMid c i arg1 harg1 arg2 harg2 arg3 harg3 arg4 harg4 arg5 harg5 hr hw x0 xs xq).2.1)
theorem sqMid_cover (c : Dev nD) (i : grid0.Coords) (arg1 : Memref sig .tc .vmem S2x256x56x56 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (hr : ¬resets i) (hw : ¬writesOut i)
    (x0 : Vec F S2x256x56x56 .f32) (xs xq : Vec F S1x256 .f32) (y : S1x256.Idx) :
    ∃ pc ∈ (runMid c i arg1 harg1 arg2 harg2 arg3 harg3 arg4 harg4 arg5 harg5 hr hw x0 xs xq).2.1, y ∈ pc.1.set :=
  View.cover_of_tiledL ((runMid c i arg1 harg1 arg2 harg2 arg3 harg3 arg4 harg4 arg5 harg5 hr hw x0 xs xq).2.1) S1x256.size (by sl_kernel_rfl) y

/-- The mean row the last point stores. -/
def meanLast (c : Dev nD) (i : grid0.Coords) (arg1 : Memref sig .tc .vmem S2x256x56x56 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (hr : ¬resets i) (hw : writesOut i)
    (x0 : Vec F S2x256x56x56 .f32) (xs xq : Vec F S1x256 .f32) : Vec F S1x256 .f32 :=
  vMean.read (Elt F) (vMean.writes (Elt F) vMean.junk (runLast c i arg1 harg1 arg2 harg2 arg3 harg3 arg4 harg4 arg5 harg5 hr hw x0 xs xq).1)
theorem meanLast_cover (c : Dev nD) (i : grid0.Coords) (arg1 : Memref sig .tc .vmem S2x256x56x56 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (hr : ¬resets i) (hw : writesOut i)
    (x0 : Vec F S2x256x56x56 .f32) (xs xq : Vec F S1x256 .f32) (y : S1x256.Idx) :
    ∃ pc ∈ (runLast c i arg1 harg1 arg2 harg2 arg3 harg3 arg4 harg4 arg5 harg5 hr hw x0 xs xq).1, y ∈ pc.1.set :=
  View.cover_of_tiledL ((runLast c i arg1 harg1 arg2 harg2 arg3 harg3 arg4 harg4 arg5 harg5 hr hw x0 xs xq).1) S1x256.size (by sl_kernel_rfl) y

/-- The variance row the last point stores. -/
def varLast (c : Dev nD) (i : grid0.Coords) (arg1 : Memref sig .tc .vmem S2x256x56x56 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (hr : ¬resets i) (hw : writesOut i)
    (x0 : Vec F S2x256x56x56 .f32) (xs xq : Vec F S1x256 .f32) : Vec F S1x256 .f32 :=
  vVar.read (Elt F) (vVar.writes (Elt F) vVar.junk (runLast c i arg1 harg1 arg2 harg2 arg3 harg3 arg4 harg4 arg5 harg5 hr hw x0 xs xq).2.1)
theorem varLast_cover (c : Dev nD) (i : grid0.Coords) (arg1 : Memref sig .tc .vmem S2x256x56x56 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (hr : ¬resets i) (hw : writesOut i)
    (x0 : Vec F S2x256x56x56 .f32) (xs xq : Vec F S1x256 .f32) (y : S1x256.Idx) :
    ∃ pc ∈ (runLast c i arg1 harg1 arg2 harg2 arg3 harg3 arg4 harg4 arg5 harg5 hr hw x0 xs xq).2.1, y ∈ pc.1.set :=
  View.cover_of_tiledL ((runLast c i arg1 harg1 arg2 harg2 arg3 harg3 arg4 harg4 arg5 harg5 hr hw x0 xs xq).2.1) S1x256.size (by sl_kernel_rfl) y

/-- The sum row after the last point. -/
def sumLast (c : Dev nD) (i : grid0.Coords) (arg1 : Memref sig .tc .vmem S2x256x56x56 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (hr : ¬resets i) (hw : writesOut i)
    (x0 : Vec F S2x256x56x56 .f32) (xs xq : Vec F S1x256 .f32) : Vec F S1x256 .f32 :=
  vSum.read (Elt F) (vSum.writes (Elt F) vSum.junk (runLast c i arg1 harg1 arg2 harg2 arg3 harg3 arg4 harg4 arg5 harg5 hr hw x0 xs xq).2.2.1)
theorem sumLast_cover (c : Dev nD) (i : grid0.Coords) (arg1 : Memref sig .tc .vmem S2x256x56x56 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (hr : ¬resets i) (hw : writesOut i)
    (x0 : Vec F S2x256x56x56 .f32) (xs xq : Vec F S1x256 .f32) (y : S1x256.Idx) :
    ∃ pc ∈ (runLast c i arg1 harg1 arg2 harg2 arg3 harg3 arg4 harg4 arg5 harg5 hr hw x0 xs xq).2.2.1, y ∈ pc.1.set :=
  View.cover_of_tiledL ((runLast c i arg1 harg1 arg2 harg2 arg3 harg3 arg4 harg4 arg5 harg5 hr hw x0 xs xq).2.2.1) S1x256.size (by sl_kernel_rfl) y

/-- The sum-of-squares row after the last point. -/
def sqLast (c : Dev nD) (i : grid0.Coords) (arg1 : Memref sig .tc .vmem S2x256x56x56 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (hr : ¬resets i) (hw : writesOut i)
    (x0 : Vec F S2x256x56x56 .f32) (xs xq : Vec F S1x256 .f32) : Vec F S1x256 .f32 :=
  vSq.read (Elt F) (vSq.writes (Elt F) vSq.junk (runLast c i arg1 harg1 arg2 harg2 arg3 harg3 arg4 harg4 arg5 harg5 hr hw x0 xs xq).2.2.2.1)
theorem sqLast_cover (c : Dev nD) (i : grid0.Coords) (arg1 : Memref sig .tc .vmem S2x256x56x56 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (hr : ¬resets i) (hw : writesOut i)
    (x0 : Vec F S2x256x56x56 .f32) (xs xq : Vec F S1x256 .f32) (y : S1x256.Idx) :
    ∃ pc ∈ (runLast c i arg1 harg1 arg2 harg2 arg3 harg3 arg4 harg4 arg5 harg5 hr hw x0 xs xq).2.2.2.1, y ∈ pc.1.set :=
  View.cover_of_tiledL ((runLast c i arg1 harg1 arg2 harg2 arg3 harg3 arg4 harg4 arg5 harg5 hr hw x0 xs xq).2.2.2.1) S1x256.size (by sl_kernel_rfl) y

section AtEntry
-- the TensorCore's buffer contents when the region is entered
variable (V : (c : Dev nD) → (b : Ref sig .tc) → Buf (Elt F) ((c : Thread nD τ).loc b))

/-! ## The input blocks -/

/-- Window `w`'s block at point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input's staging buffer holds its block at every point, for any proof data over these arrays that leaves the
    block in place. -/
theorem held_in {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-! ## The rows after each point -/

/-- THE ACCUMULATION: the (sum, sum of squares) rows after the body at position `n` — the first point from nothing,
    every later point from the rows the point before left. -/
def rowsAt (c : Dev nD) : (n : ℕ) → n < cfg0.N → Vec F S1x256 .f32 × Vec F S1x256 .f32
  | 0, hn =>
    (sumFirst c (grid0.coords ⟨0, hn⟩) (bIn ⟨0, hn⟩) (hIn ⟨0, hn⟩) (bMean ⟨0, hn⟩) (hMean ⟨0, hn⟩) (bVar ⟨0, hn⟩) (hVar ⟨0, hn⟩) bSum (Memref.isWhole_whole _) bSq (Memref.isWhole_whole _) ((resets_iff ⟨0, hn⟩).mpr rfl) (fun h => (fun h' => by (try dsimp only at h'); omega) ((writesOut_iff ⟨0, hn⟩).mp h)) (blk0 V c 0 ⟨0, hn⟩),
     sqFirst c (grid0.coords ⟨0, hn⟩) (bIn ⟨0, hn⟩) (hIn ⟨0, hn⟩) (bMean ⟨0, hn⟩) (hMean ⟨0, hn⟩) (bVar ⟨0, hn⟩) (hVar ⟨0, hn⟩) bSum (Memref.isWhole_whole _) bSq (Memref.isWhole_whole _) ((resets_iff ⟨0, hn⟩).mpr rfl) (fun h => (fun h' => by (try dsimp only at h'); omega) ((writesOut_iff ⟨0, hn⟩).mp h)) (blk0 V c 0 ⟨0, hn⟩))
  | n + 1, hn =>
    if hl : n + 1 = 31 then
      (sumLast c (grid0.coords ⟨n + 1, hn⟩) (bIn ⟨n + 1, hn⟩) (hIn ⟨n + 1, hn⟩) (bMean ⟨n + 1, hn⟩) (hMean ⟨n + 1, hn⟩) (bVar ⟨n + 1, hn⟩) (hVar ⟨n + 1, hn⟩) bSum (Memref.isWhole_whole _) bSq (Memref.isWhole_whole _) (fun h => Nat.succ_ne_zero n ((resets_iff ⟨n + 1, hn⟩).mp h)) ((writesOut_iff ⟨n + 1, hn⟩).mpr hl) (blk0 V c 0 ⟨n + 1, hn⟩) (rowsAt c n (Nat.lt_of_succ_lt hn)).1 (rowsAt c n (Nat.lt_of_succ_lt hn)).2,
       sqLast c (grid0.coords ⟨n + 1, hn⟩) (bIn ⟨n + 1, hn⟩) (hIn ⟨n + 1, hn⟩) (bMean ⟨n + 1, hn⟩) (hMean ⟨n + 1, hn⟩) (bVar ⟨n + 1, hn⟩) (hVar ⟨n + 1, hn⟩) bSum (Memref.isWhole_whole _) bSq (Memref.isWhole_whole _) (fun h => Nat.succ_ne_zero n ((resets_iff ⟨n + 1, hn⟩).mp h)) ((writesOut_iff ⟨n + 1, hn⟩).mpr hl) (blk0 V c 0 ⟨n + 1, hn⟩) (rowsAt c n (Nat.lt_of_succ_lt hn)).1 (rowsAt c n (Nat.lt_of_succ_lt hn)).2)
    else
      (sumMid c (grid0.coords ⟨n + 1, hn⟩) (bIn ⟨n + 1, hn⟩) (hIn ⟨n + 1, hn⟩) (bMean ⟨n + 1, hn⟩) (hMean ⟨n + 1, hn⟩) (bVar ⟨n + 1, hn⟩) (hVar ⟨n + 1, hn⟩) bSum (Memref.isWhole_whole _) bSq (Memref.isWhole_whole _) (fun h => Nat.succ_ne_zero n ((resets_iff ⟨n + 1, hn⟩).mp h)) (fun h => hl ((writesOut_iff ⟨n + 1, hn⟩).mp h)) (blk0 V c 0 ⟨n + 1, hn⟩) (rowsAt c n (Nat.lt_of_succ_lt hn)).1 (rowsAt c n (Nat.lt_of_succ_lt hn)).2,
       sqMid c (grid0.coords ⟨n + 1, hn⟩) (bIn ⟨n + 1, hn⟩) (hIn ⟨n + 1, hn⟩) (bMean ⟨n + 1, hn⟩) (hMean ⟨n + 1, hn⟩) (bVar ⟨n + 1, hn⟩) (hVar ⟨n + 1, hn⟩) bSum (Memref.isWhole_whole _) bSq (Memref.isWhole_whole _) (fun h => Nat.succ_ne_zero n ((resets_iff ⟨n + 1, hn⟩).mp h)) (fun h => hl ((writesOut_iff ⟨n + 1, hn⟩).mp h)) (blk0 V c 0 ⟨n + 1, hn⟩) (rowsAt c n (Nat.lt_of_succ_lt hn)).1 (rowsAt c n (Nat.lt_of_succ_lt hn)).2)

/-- The rows the point before `t` left (for `t` not the first). -/
abbrev rowsBefore (c : Dev nD) (t : Fin cfg0.N) : Vec F S1x256 .f32 × Vec F S1x256 .f32 :=
  rowsAt V c (t.val - 1) (Nat.lt_of_le_of_lt (Nat.sub_le _ _) t.isLt)

theorem rowsAt_first (c : Dev nD) (t : Fin cfg0.N) (h0 : t.val = 0) (hr : resets (grid0.coords t)) (hw : ¬writesOut (grid0.coords t)) :
    rowsAt V c t.val t.isLt = (sumFirst c (grid0.coords t) (bIn t) (hIn t) (bMean t) (hMean t) (bVar t) (hVar t) bSum (Memref.isWhole_whole _) bSq (Memref.isWhole_whole _) hr hw (blk0 V c 0 t), sqFirst c (grid0.coords t) (bIn t) (hIn t) (bMean t) (hMean t) (bVar t) (hVar t) bSum (Memref.isWhole_whole _) bSq (Memref.isWhole_whole _) hr hw (blk0 V c 0 t)) := by
  obtain ⟨n, hn⟩ := t
  cases n with
  | zero => exact rfl
  | succ n => exact absurd h0 (Nat.succ_ne_zero n)

theorem rowsAt_mid (c : Dev nD) (t : Fin cfg0.N) (h0 : t.val ≠ 0) (hl : t.val ≠ 31) (hr : ¬resets (grid0.coords t)) (hw : ¬writesOut (grid0.coords t)) :
    rowsAt V c t.val t.isLt = (sumMid c (grid0.coords t) (bIn t) (hIn t) (bMean t) (hMean t) (bVar t) (hVar t) bSum (Memref.isWhole_whole _) bSq (Memref.isWhole_whole _) hr hw (blk0 V c 0 t) (rowsBefore V c t).1 (rowsBefore V c t).2,
      sqMid c (grid0.coords t) (bIn t) (hIn t) (bMean t) (hMean t) (bVar t) (hVar t) bSum (Memref.isWhole_whole _) bSq (Memref.isWhole_whole _) hr hw (blk0 V c 0 t) (rowsBefore V c t).1 (rowsBefore V c t).2) := by
  obtain ⟨n, hn⟩ := t
  cases n with
  | zero => exact absurd rfl h0
  | succ n => exact (dif_neg hl).trans rfl

theorem rowsAt_last (c : Dev nD) (t : Fin cfg0.N) (hl : t.val = 31) (hr : ¬resets (grid0.coords t)) (hw : writesOut (grid0.coords t)) :
    rowsAt V c t.val t.isLt = (sumLast c (grid0.coords t) (bIn t) (hIn t) (bMean t) (hMean t) (bVar t) (hVar t) bSum (Memref.isWhole_whole _) bSq (Memref.isWhole_whole _) hr hw (blk0 V c 0 t) (rowsBefore V c t).1 (rowsBefore V c t).2,
      sqLast c (grid0.coords t) (bIn t) (hIn t) (bMean t) (hMean t) (bVar t) (hVar t) bSum (Memref.isWhole_whole _) bSq (Memref.isWhole_whole _) hr hw (blk0 V c 0 t) (rowsBefore V c t).1 (rowsBefore V c t).2) := by
  obtain ⟨n, hn⟩ := t
  cases n with
  | zero => exact absurd (show (0 : ℕ) = 31 from hl) (by decide)
  | succ n => exact (dif_pos hl).trans rfl

/-- The (mean, variance) rows in the output windows' buffers after the body at point `t`: what the last point stores;
    elsewhere the windows are left alone and nothing consults this. -/
def outsAt (c : Dev nD) (t : Fin cfg0.N) : Vec F S1x256 .f32 × Vec F S1x256 .f32 :=
  if hl : t.val = 31 then
    (meanLast c (grid0.coords t) (bIn t) (hIn t) (bMean t) (hMean t) (bVar t) (hVar t) bSum (Memref.isWhole_whole _) bSq (Memref.isWhole_whole _) (fun h => by have := (resets_iff t).mp h; omega) ((writesOut_iff t).mpr hl) (blk0 V c 0 t) (rowsBefore V c t).1 (rowsBefore V c t).2,
     varLast c (grid0.coords t) (bIn t) (hIn t) (bMean t) (hMean t) (bVar t) (hVar t) bSum (Memref.isWhole_whole _) bSq (Memref.isWhole_whole _) (fun h => by have := (resets_iff t).mp h; omega) ((writesOut_iff t).mpr hl) (blk0 V c 0 t) (rowsBefore V c t).1 (rowsBefore V c t).2)
  else (vMean.read (Elt F) vMean.junk, vVar.read (Elt F) vVar.junk)

theorem outsAt_last (c : Dev nD) (t : Fin cfg0.N) (hl : t.val = 31) (hr : ¬resets (grid0.coords t)) (hw : writesOut (grid0.coords t)) :
    outsAt V c t = (meanLast c (grid0.coords t) (bIn t) (hIn t) (bMean t) (hMean t) (bVar t) (hVar t) bSum (Memref.isWhole_whole _) bSq (Memref.isWhole_whole _) hr hw (blk0 V c 0 t) (rowsBefore V c t).1 (rowsBefore V c t).2,
      varLast c (grid0.coords t) (bIn t) (hIn t) (bMean t) (hMean t) (bVar t) (hVar t) bSum (Memref.isWhole_whole _) bSq (Memref.isWhole_whole _) hr hw (blk0 V c 0 t) (rowsBefore V c t).1 (rowsBefore V c t).2) := by
  unfold outsAt; exact (dif_pos hl).trans rfl

/-! ## The invariant that links the points -/

/-- Before position `n`: at the region's entry, what the launch hands over (every scoped buffer at anything and the
    generator register); afterwards the two accumulator rows at what point `n - 1` left, the rest as before. -/
def carried (c : Dev nD) : (n : ℕ) → n ≤ cfg0.N → sProp 𝕄
  | 0, _ => Pipeline.ΦA spec0 c
  | n + 1, hn => iprop(iprop(owns (c : Thread nD τ) bSum fullShare (rowsAt V c n hn).1 ∗ owns (c : Thread nD τ) bSq fullShare (rowsAt V c n hn).2 ∗ restOfScoped c) ∗ (∃ r, prngReg c r))

theorem carried_zero (c : Dev nD) (n : ℕ) (h : n ≤ cfg0.N) (hz : n = 0) : carried V c n h = Pipeline.ΦA spec0 c := by
  subst hz; rfl

theorem carried_succ (c : Dev nD) (n : ℕ) (hn : n < cfg0.N) :
    carried V c (n + 1) hn = iprop(iprop(owns (c : Thread nD τ) bSum fullShare (rowsAt V c n hn).1 ∗ owns (c : Thread nD τ) bSq fullShare (rowsAt V c n hn).2 ∗ restOfScoped c) ∗ (∃ r, prngReg c r)) := rfl

theorem carried_pos (c : Dev nD) (n : ℕ) (h : n ≤ cfg0.N) (hz : n ≠ 0) :
    carried V c n h = iprop(iprop(owns (c : Thread nD τ) bSum fullShare (rowsAt V c (n - 1) (by omega)).1 ∗ owns (c : Thread nD τ) bSq fullShare (rowsAt V c (n - 1) (by omega)).2 ∗ restOfScoped c) ∗ (∃ r, prngReg c r)) := by
  cases n with
  | zero => exact absurd rfl hz
  | succ n => rfl

/-! ## The proof data -/

/-- On core `c`: the arrays as the region finds them; after the body at point `t` the input's buffer at its block and
    the output rows at `outsAt`; the invariant `carried`; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => (outsAt V c t).1
    | ⟨2, _⟩ => (outsAt V c t).2
  Φ t := carried V c t.val (Nat.le_of_lt_succ t.isLt)
  q _ := fullShare
  owed _ := 0

theorem arrays0 (c : Dev nD) (w : Fin cfg0.W) : (dat0 V c).A w = V c (Pipeline.arrRef spec0 w) := by
  dsimp only [dat0]

theorem carried_castSucc (c : Dev nD) (t : Fin cfg0.N) :
    (dat0 V c).Φ t.castSucc = carried V c t.val (Nat.le_of_lt t.isLt) := by
  dsimp only [dat0]; simp only [Fin.coe_castSucc]

theorem after_in (c : Dev nD) (t : Fin cfg0.N) : (dat0 V c).after 0 t = blk0 V c 0 t := by dsimp only [dat0]
theorem after_mean (c : Dev nD) (t : Fin cfg0.N) : (dat0 V c).after 1 t = (outsAt V c t).1 := by dsimp only [dat0]
theorem after_var (c : Dev nD) (t : Fin cfg0.N) : (dat0 V c).after 2 t = (outsAt V c t).2 := by dsimp only [dat0]

theorem before_in (c : Dev nD) (t : Fin cfg0.N) (d) : (dat0 V c).before 0 t d = blk0 V c 0 t :=
  held_in V (dat0 V c) (arrays0 V c 0) (after_in V c) t d

/-! ## Every point -/

def pre0 (c : Dev nD) (t : Fin cfg0.N) : sProp 𝕄 :=
  iprop((dat0 V c).Φ t.castSucc ∗ (dat0 V c).owesAt () t.castSucc
    ∗ (∃ d, owns (c : Thread nD τ) (bIn t) fullShare ((dat0 V c).before 0 t d))
    ∗ (∃ d, owns (c : Thread nD τ) (bMean t) fullShare ((dat0 V c).before 1 t d))
    ∗ (∃ d, owns (c : Thread nD τ) (bVar t) fullShare ((dat0 V c).before 2 t d)))

def post0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point. Which kind of point it is follows from its position; the invariant hands the body the rows
    the point before left (anything, at the first point) and takes them back at this point's contents, each read back
    from the stores that cover it; the output rows are handed back untouched except at the last point. -/
theorem stats_point (c : Dev nD) (t : Fin cfg0.N) :
    pre0 V c t ⊢ wp frame (wpE (defs₀ (F := F)) Variants.none c none) Set.univ (bodyAt0 t) (fun _ => post0 V c t) := by
  unfold pre0 post0 bodyAt0
  simp only [before_in]
  rw [show (dat0 V c).owesAt () t.succ = (dat0 V c).owesAt () t.castSucc from rfl]
  rw [show (dat0 V c).Φ t.succ = carried V c (t.val + 1) t.isLt from rfl, carried_succ]
  have hN : t.val < 32 := lt_of_lt_of_eq t.isLt (show cfg0.N = 32 from N_0)
  rw [show (dat0 V c).leavesExact 0 t = owns (c : Thread nD τ) (bIn t) fullShare ((dat0 V c).after 0 t) from by
    unfold Dat.leavesExact; rw [live_in t], after_in]
  by_cases h0 : t.val = 0
  · have hr : resets (grid0.coords t) := (resets_iff t).mpr h0
    have hw : ¬writesOut (grid0.coords t) := fun h => by have := (writesOut_iff t).mp h; omega
    rw [Dat.leavesExact_idle (dat0 V c) 1 t (idle_mean t hw) (noflush_mean t hw),
      Dat.leavesExact_idle (dat0 V c) 2 t (idle_var t hw) (noflush_var t hw)]
    rw [rowsAt_first V c t h0 hr hw]
    unfold sumFirst sqFirst; (try dsimp only)
    rw [carried_castSucc V c t, carried_zero V c _ _ h0, entry_eq]
    iintro ⟨⟨⟨HS, HQ, Hrest⟩, Hg⟩, Ho, ⟨%d0, H0⟩, ⟨%d1, H1⟩, ⟨%d2, H2⟩⟩
    iapply ((runFirst c (grid0.coords t) _ _ _ _ _ _ _ _ _ _ hr hw (blk0 V c 0 t)).2.2 _ _ Set.univ _)
    isplitl [H0]; · iexact H0
    isplitl [H1]; · iexact H1
    isplitl [H2]; · iexact H2
    isplitl [HS]; · iexact HS
    isplitl [HQ]; · iexact HQ
    iintro ⟨H0, H1, H2, ⟨%es, HS⟩, ⟨%eq, HQ⟩⟩
    isplitl [HS HQ Hrest Hg]
    · isplitr [Hg]
      · isplitl [HS]
        · unfold owns; iexists _; isplitr
          swap; · iexact HS
          ipureintro; exact View.read_writes_of_cover _ _ _ _ _ (sumFirst_cover c _ _ _ _ _ _ _ _ _ _ _ hr hw _)
        isplitl [HQ]
        · unfold owns; iexists _; isplitr
          swap; · iexact HQ
          ipureintro; exact View.read_writes_of_cover _ _ _ _ _ (sqFirst_cover c _ _ _ _ _ _ _ _ _ _ _ hr hw _)
        iexact Hrest
      iexact Hg
    isplitl [Ho]; · iexact Ho
    isplitl [H0]; · iexact H0
    isplitl [H1]; · iexists _; iexact H1
    iexists _; iexact H2
  · have hr : ¬resets (grid0.coords t) := fun h => h0 ((resets_iff t).mp h)
    rw [carried_castSucc V c t, carried_pos V c _ _ h0]
    by_cases hl : t.val = 31
    · have hw : writesOut (grid0.coords t) := (writesOut_iff t).mpr hl
      rw [show (dat0 V c).leavesExact 1 t = owns (c : Thread nD τ) (bMean t) fullShare ((dat0 V c).after 1 t) from by
        unfold Dat.leavesExact; rw [live_mean t hw], after_mean]
      rw [show (dat0 V c).leavesExact 2 t = owns (c : Thread nD τ) (bVar t) fullShare ((dat0 V c).after 2 t) from by
        unfold Dat.leavesExact; rw [live_var t hw], after_var]
      rw [rowsAt_last V c t hl hr hw, outsAt_last V c t hl hr hw]
      unfold meanLast varLast sumLast sqLast; (try dsimp only)
      iintro ⟨⟨⟨HS, HQ, Hrest⟩, Hg⟩, Ho, ⟨%d0, H0⟩, ⟨%d1, H1⟩, ⟨%d2, H2⟩⟩
      iapply ((runLast c (grid0.coords t) _ _ _ _ _ _ _ _ _ _ hr hw (blk0 V c 0 t) _ _).2.2.2.2 Set.univ _)
      isplitl [H0]; · iexact H0
      isplitl [H1]; · iexists _; iexact H1
      isplitl [H2]; · iexists _; iexact H2
      isplitl [HS]; · iexact HS
      isplitl [HQ]; · iexact HQ
      iintro ⟨H0, ⟨%e1, H1⟩, ⟨%e2, H2⟩, ⟨%es, HS⟩, ⟨%eq, HQ⟩⟩
      isplitl [HS HQ Hrest Hg]
      · isplitr [Hg]
        · isplitl [HS]
          · unfold owns; iexists _; isplitr
            swap; · iexact HS
            ipureintro; exact View.read_writes_of_cover _ _ _ _ _ (sumLast_cover c _ _ _ _ _ _ _ _ _ _ _ hr hw _ _ _)
          isplitl [HQ]
          · unfold owns; iexists _; isplitr
            swap; · iexact HQ
            ipureintro; exact View.read_writes_of_cover _ _ _ _ _ (sqLast_cover c _ _ _ _ _ _ _ _ _ _ _ hr hw _ _ _)
          iexact Hrest
        iexact Hg
      isplitl [Ho]; · iexact Ho
      isplitl [H0]; · iexact H0
      isplitl [H1]
      · unfold owns; iexists _; isplitr
        swap; · iexact H1
        ipureintro; exact View.read_writes_of_cover _ _ _ _ _ (meanLast_cover c _ _ _ _ _ _ _ _ _ _ _ hr hw _ _ _)
      unfold owns; iexists _; isplitr
      swap; · iexact H2
      ipureintro; exact View.read_writes_of_cover _ _ _ _ _ (varLast_cover c _ _ _ _ _ _ _ _ _ _ _ hr hw _ _ _)
    · have hw : ¬writesOut (grid0.coords t) := fun h => hl ((writesOut_iff t).mp h)
      rw [Dat.leavesExact_idle (dat0 V c) 1 t (idle_mean t hw) (noflush_mean t hw),
        Dat.leavesExact_idle (dat0 V c) 2 t (idle_var t hw) (noflush_var t hw)]
      rw [rowsAt_mid V c t h0 hl hr hw]
      unfold sumMid sqMid; (try dsimp only)
      iintro ⟨⟨⟨HS, HQ, Hrest⟩, Hg⟩, Ho, ⟨%d0, H0⟩, ⟨%d1, H1⟩, ⟨%d2, H2⟩⟩
      iapply ((runMid c (grid0.coords t) _ _ _ _ _ _ _ _ _ _ hr hw (blk0 V c 0 t) _ _).2.2 _ _ Set.univ _)
      isplitl [H0]; · iexact H0
      isplitl [H1]; · iexact H1
      isplitl [H2]; · iexact H2
      isplitl [HS]; · iexact HS
      isplitl [HQ]; · iexact HQ
      iintro ⟨H0, H1, H2, ⟨%es, HS⟩, ⟨%eq, HQ⟩⟩
      isplitl [HS HQ Hrest Hg]
      · isplitr [Hg]
        · isplitl [HS]
          · unfold owns; iexists _; isplitr
            swap; · iexact HS
            ipureintro; exact View.read_writes_of_cover _ _ _ _ _ (sumMid_cover c _ _ _ _ _ _ _ _ _ _ _ hr hw _ _ _)
          isplitl [HQ]
          · unfold owns; iexists _; isplitr
            swap; · iexact HQ
            ipureintro; exact View.read_writes_of_cover _ _ _ _ _ (sqMid_cover c _ _ _ _ _ _ _ _ _ _ _ hr hw _ _ _)
          iexact Hrest
        iexact Hg
      isplitl [Ho]; · iexact Ho
      isplitl [H0]; · iexact H0
      isplitl [H1]; · iexists _; iexact H1
      iexists _; iexact H2

/-- The pipeline's obligation for the statistics pass, at every point. -/
theorem obligation0 (c : Dev nD) : BodyObligation (dat0 (F := F) V c) (defs₀ (F := F)) Variants.none () Set.univ := fun t => by
  rw [bigSep_W0, bigSep_W0]
  exact stats_point V c t

/-! ## Into the first point and out of the last -/

theorem stats_in (c : Dev nD) : Pipeline.ΦA spec0 c ⊢ (dat0 V c).Φ 0 := by
  rw [show (dat0 V c).Φ 0 = carried V c 0 (Nat.zero_le _) from rfl, carried_zero V c 0 _ rfl]
  try exact Idealize.SL.BI.Entails.refl _

/-- After the last point the named rows are forgotten: the scoped buffers are again at anything. -/
theorem stats_out (c : Dev nD) : (dat0 V c).Φ (Fin.last cfg0.N) ⊢ Pipeline.ΦA spec0 c := by
  rw [show (dat0 V c).Φ (Fin.last cfg0.N) = carried V c (Fin.last cfg0.N).val (Nat.le_of_lt_succ (Fin.last cfg0.N).isLt) from rfl,
    carried_pos V c _ _ (by rw [Fin.val_last]; have : cfg0.N = 32 := N_0; omega), entry_eq]
  iintro ⟨⟨HS, HQ, Hrest⟩, Hg⟩
  isplitr [Hg]
  · isplitl [HS]; · iexists _; iexact HS
    isplitl [HQ]; · iexists _; iexact HQ
    iexact Hrest
  iexact Hg

end AtEntry

end Cert.KernelIdeal.Fr

end
-- ==== Proof.KI.Whole.lean ====
/-
  The whole program. @main is: the statistics pass; 102 host operations (the blended moments, the divergence, the
  per-channel `scale` and `shift`), which the printed program cuts in two stretches of 59 and 43; the affine pass.
  This module names the TensorCore's buffer contents at each of those boundaries as a fold through @main, states the two
  passes as regions entered from and left at those contents, and launches the lot: every weakly fair execution
  terminates, nothing faults, and every unscoped buffer ends at the last boundary's contents.
-/
import proofs.«106418_j11261404250602_2_alg».proof.Proof.KI.StatsData
import proofs.«106418_j11261404250602_2_alg».proof.Proof.KI.Affine
import Idealize.ShloMosaic.Lib.Pipeline.RegionsLoop
import Idealize.ShloMosaic.Lib.Pipeline.FrameSuffix

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev E0 : Dev nD → Valuation τ sig (Elt F) := fun c b => (s₀ m ρ).mem ((c : Dev nD), b)
abbrev V0 : (c : Dev nD) → (b : Ref sig .tc) → Buf (Elt F) ((c : Thread nD τ).loc b) := fun c b => E0 m ρ c b
/-- After the statistics pass: the mean and variance rows at what the pass wrote back, everything else as launched. -/
def E1 (c : Dev nD) : Valuation τ sig (Elt F) :=
  Pipeline.withArrays spec0 c (E0 m ρ c) fun w => (dat0 (V0 m ρ) c).arrAt w cfg0.N
theorem E1_arr (c : Dev nD) (w : Fin cfg0.W) :
    E1 m ρ c (Proc.devRef .tc (Pipeline.arrRef spec0 w)) = (dat0 (V0 m ρ) c).arrAt w cfg0.N := by
  unfold E1; exact Pipeline.withArrays_arr spec0 launch0.win.arr_inj c _ _ w
theorem E1_of_ne (c : Dev nD) (b : Ref sig .tc) (hb : ∀ w, Pipeline.arrRef spec0 w ≠ b) :
    E1 m ρ c (Proc.devRef .tc b) = E0 m ρ c (Proc.devRef .tc b) := by
  unfold E1; exact Pipeline.withArrays_of_ne spec0 c _ _ b hb
abbrev V1 : (c : Dev nD) → (b : Ref sig .tc) → Buf (Elt F) ((c : Thread nD τ).loc b) := fun c b => E1 m ρ c b
theorem arr_end0 (c : Dev nD) (w : Fin cfg0.W) : (dat0 (V0 m ρ) c).arrAt w cfg0.N = V1 m ρ c (Pipeline.arrRef spec0 w) :=
  (E1_arr m ρ c w).symm
theorem rest_end0 (c : Dev nD) : ∀ b, b ∉ Finset.univ.image (Pipeline.arrRef spec0) → V1 m ρ c b = V0 m ρ c b :=
  fun b hb => E1_of_ne m ρ c b fun w e => hb (Finset.mem_image.mpr ⟨w, Finset.mem_univ _, e⟩)

/-- After the first 59 host operations, and after the remaining 43. -/
abbrev E2 : Dev nD → Valuation τ sig (Elt F) := fun c => StableHlo.after main_part0_ops0 (E1 m ρ c)
abbrev E3 : Dev nD → Valuation τ sig (Elt F) := fun c => StableHlo.after main_part1_ops0 (E2 m ρ c)
abbrev V3 : (c : Dev nD) → (b : Ref sig .tc) → Buf (Elt F) ((c : Thread nD τ).loc b) := fun c b => E3 m ρ c b
/-- After the affine pass: the output array at what the pass wrote back, everything else as it was entered. -/
def E4 (c : Dev nD) : Valuation τ sig (Elt F) :=
  Pipeline.withArrays spec1 c (E3 m ρ c) fun w => (dat1 (V3 m ρ) c).arrAt w cfg1.N
theorem E4_arr (c : Dev nD) (w : Fin cfg1.W) :
    E4 m ρ c (Proc.devRef .tc (Pipeline.arrRef spec1 w)) = (dat1 (V3 m ρ) c).arrAt w cfg1.N := by
  unfold E4; exact Pipeline.withArrays_arr spec1 launch1.win.arr_inj c _ _ w
theorem E4_of_ne (c : Dev nD) (b : Ref sig .tc) (hb : ∀ w, Pipeline.arrRef spec1 w ≠ b) :
    E4 m ρ c (Proc.devRef .tc b) = E3 m ρ c (Proc.devRef .tc b) := by
  unfold E4; exact Pipeline.withArrays_of_ne spec1 c _ _ b hb
abbrev V4 : (c : Dev nD) → (b : Ref sig .tc) → Buf (Elt F) ((c : Thread nD τ).loc b) := fun c b => E4 m ρ c b
theorem arr_end1 (c : Dev nD) (w : Fin cfg1.W) : (dat1 (V3 m ρ) c).arrAt w cfg1.N = V4 m ρ c (Pipeline.arrRef spec1 w) :=
  (E4_arr m ρ c w).symm
theorem rest_end1 (c : Dev nD) : ∀ b, b ∉ Finset.univ.image (Pipeline.arrRef spec1) → V4 m ρ c b = V3 m ρ c b :=
  fun b hb => E4_of_ne m ρ c b fun w e => hb (Finset.mem_image.mpr ⟨w, Finset.mem_univ _, e⟩)

/-! ### The arguments end as launched: no host operation writes one, and a pass at most reads one through an input window -/

theorem end_main_arg0 (c : Dev nD) : E4 m ρ c (Proc.devRef .tc main_arg0) = m ((c : Thread nD τ).loc main_arg0) :=
  calc E4 m ρ c (Proc.devRef .tc main_arg0)
    _ = E3 m ρ c (Proc.devRef .tc main_arg0) := (E4_arr m ρ c 0).trans (((dat1 (V3 m ρ) c).arrAt_in 0 rfl _).trans (arrays1 (V3 m ρ) c 0))
    _ = E2 m ρ c (Proc.devRef .tc main_arg0) := StableHlo.after_of_forall_not_mem (b := Proc.devRef .tc main_arg0) _ _ (List.forall_iff_forall_mem.mp (by
          simp only [main_part1_ops0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = E1 m ρ c (Proc.devRef .tc main_arg0) := StableHlo.after_of_forall_not_mem (b := Proc.devRef .tc main_arg0) _ _ (List.forall_iff_forall_mem.mp (by
          simp only [main_part0_ops0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = E0 m ρ c (Proc.devRef .tc main_arg0) := (E1_arr m ρ c 0).trans (((dat0 (V0 m ρ) c).arrAt_in 0 rfl _).trans (arrays0 (V0 m ρ) c 0))
    _ = m ((c : Thread nD τ).loc main_arg0) := rfl

theorem end_main_arg1 (c : Dev nD) : E4 m ρ c (Proc.devRef .tc main_arg1) = m ((c : Thread nD τ).loc main_arg1) :=
  calc E4 m ρ c (Proc.devRef .tc main_arg1)
    _ = E3 m ρ c (Proc.devRef .tc main_arg1) := E4_of_ne m ρ c main_arg1 (by decide)
    _ = E2 m ρ c (Proc.devRef .tc main_arg1) := StableHlo.after_of_forall_not_mem (b := Proc.devRef .tc main_arg1) _ _ (List.forall_iff_forall_mem.mp (by
          simp only [main_part1_ops0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = E1 m ρ c (Proc.devRef .tc main_arg1) := StableHlo.after_of_forall_not_mem (b := Proc.devRef .tc main_arg1) _ _ (List.forall_iff_forall_mem.mp (by
          simp only [main_part0_ops0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = E0 m ρ c (Proc.devRef .tc main_arg1) := E1_of_ne m ρ c main_arg1 (by decide)
    _ = m ((c : Thread nD τ).loc main_arg1) := rfl

theorem end_main_arg2 (c : Dev nD) : E4 m ρ c (Proc.devRef .tc main_arg2) = m ((c : Thread nD τ).loc main_arg2) :=
  calc E4 m ρ c (Proc.devRef .tc main_arg2)
    _ = E3 m ρ c (Proc.devRef .tc main_arg2) := E4_of_ne m ρ c main_arg2 (by decide)
    _ = E2 m ρ c (Proc.devRef .tc main_arg2) := StableHlo.after_of_forall_not_mem (b := Proc.devRef .tc main_arg2) _ _ (List.forall_iff_forall_mem.mp (by
          simp only [main_part1_ops0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = E1 m ρ c (Proc.devRef .tc main_arg2) := StableHlo.after_of_forall_not_mem (b := Proc.devRef .tc main_arg2) _ _ (List.forall_iff_forall_mem.mp (by
          simp only [main_part0_ops0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = E0 m ρ c (Proc.devRef .tc main_arg2) := E1_of_ne m ρ c main_arg2 (by decide)
    _ = m ((c : Thread nD τ).loc main_arg2) := rfl

theorem end_main_arg3 (c : Dev nD) : E4 m ρ c (Proc.devRef .tc main_arg3) = m ((c : Thread nD τ).loc main_arg3) :=
  calc E4 m ρ c (Proc.devRef .tc main_arg3)
    _ = E3 m ρ c (Proc.devRef .tc main_arg3) := E4_of_ne m ρ c main_arg3 (by decide)
    _ = E2 m ρ c (Proc.devRef .tc main_arg3) := StableHlo.after_of_forall_not_mem (b := Proc.devRef .tc main_arg3) _ _ (List.forall_iff_forall_mem.mp (by
          simp only [main_part1_ops0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = E1 m ρ c (Proc.devRef .tc main_arg3) := StableHlo.after_of_forall_not_mem (b := Proc.devRef .tc main_arg3) _ _ (List.forall_iff_forall_mem.mp (by
          simp only [main_part0_ops0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = E0 m ρ c (Proc.devRef .tc main_arg3) := E1_of_ne m ρ c main_arg3 (by decide)
    _ = m ((c : Thread nD τ).loc main_arg3) := rfl

theorem end_main_arg4 (c : Dev nD) : E4 m ρ c (Proc.devRef .tc main_arg4) = m ((c : Thread nD τ).loc main_arg4) :=
  calc E4 m ρ c (Proc.devRef .tc main_arg4)
    _ = E3 m ρ c (Proc.devRef .tc main_arg4) := E4_of_ne m ρ c main_arg4 (by decide)
    _ = E2 m ρ c (Proc.devRef .tc main_arg4) := StableHlo.after_of_forall_not_mem (b := Proc.devRef .tc main_arg4) _ _ (List.forall_iff_forall_mem.mp (by
          simp only [main_part1_ops0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = E1 m ρ c (Proc.devRef .tc main_arg4) := StableHlo.after_of_forall_not_mem (b := Proc.devRef .tc main_arg4) _ _ (List.forall_iff_forall_mem.mp (by
          simp only [main_part0_ops0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = E0 m ρ c (Proc.devRef .tc main_arg4) := E1_of_ne m ρ c main_arg4 (by decide)
    _ = m ((c : Thread nD τ).loc main_arg4) := rfl

theorem end_main_arg5 (c : Dev nD) : E4 m ρ c (Proc.devRef .tc main_arg5) = m ((c : Thread nD τ).loc main_arg5) :=
  calc E4 m ρ c (Proc.devRef .tc main_arg5)
    _ = E3 m ρ c (Proc.devRef .tc main_arg5) := E4_of_ne m ρ c main_arg5 (by decide)
    _ = E2 m ρ c (Proc.devRef .tc main_arg5) := StableHlo.after_of_forall_not_mem (b := Proc.devRef .tc main_arg5) _ _ (List.forall_iff_forall_mem.mp (by
          simp only [main_part1_ops0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = E1 m ρ c (Proc.devRef .tc main_arg5) := StableHlo.after_of_forall_not_mem (b := Proc.devRef .tc main_arg5) _ _ (List.forall_iff_forall_mem.mp (by
          simp only [main_part0_ops0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = E0 m ρ c (Proc.devRef .tc main_arg5) := E1_of_ne m ρ c main_arg5 (by decide)
    _ = m ((c : Thread nD τ).loc main_arg5) := rfl

theorem end_main_arg6 (c : Dev nD) : E4 m ρ c (Proc.devRef .tc main_arg6) = m ((c : Thread nD τ).loc main_arg6) :=
  calc E4 m ρ c (Proc.devRef .tc main_arg6)
    _ = E3 m ρ c (Proc.devRef .tc main_arg6) := E4_of_ne m ρ c main_arg6 (by decide)
    _ = E2 m ρ c (Proc.devRef .tc main_arg6) := StableHlo.after_of_forall_not_mem (b := Proc.devRef .tc main_arg6) _ _ (List.forall_iff_forall_mem.mp (by
          simp only [main_part1_ops0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = E1 m ρ c (Proc.devRef .tc main_arg6) := StableHlo.after_of_forall_not_mem (b := Proc.devRef .tc main_arg6) _ _ (List.forall_iff_forall_mem.mp (by
          simp only [main_part0_ops0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = E0 m ρ c (Proc.devRef .tc main_arg6) := E1_of_ne m ρ c main_arg6 (by decide)
    _ = m ((c : Thread nD τ).loc main_arg6) := rfl

theorem end_main_arg7 (c : Dev nD) : E4 m ρ c (Proc.devRef .tc main_arg7) = m ((c : Thread nD τ).loc main_arg7) :=
  calc E4 m ρ c (Proc.devRef .tc main_arg7)
    _ = E3 m ρ c (Proc.devRef .tc main_arg7) := E4_of_ne m ρ c main_arg7 (by decide)
    _ = E2 m ρ c (Proc.devRef .tc main_arg7) := StableHlo.after_of_forall_not_mem (b := Proc.devRef .tc main_arg7) _ _ (List.forall_iff_forall_mem.mp (by
          simp only [main_part1_ops0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = E1 m ρ c (Proc.devRef .tc main_arg7) := StableHlo.after_of_forall_not_mem (b := Proc.devRef .tc main_arg7) _ _ (List.forall_iff_forall_mem.mp (by
          simp only [main_part0_ops0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = E0 m ρ c (Proc.devRef .tc main_arg7) := E1_of_ne m ρ c main_arg7 (by decide)
    _ = m ((c : Thread nD τ).loc main_arg7) := rfl

/-! ## The proof data family and what rides along -/

abbrev adm : (p : Fin 2) → (pcfgs (F := F) p).Adm := fun p => (cfgs p).toPCfg_adm
/-- Each pass's proof data at its own entry contents — a literal match, so that the pinned configuration at a numeral
    reduces to the printed one. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- Beside the buffers: the generator register at some state, and the core owing nothing. -/
abbrev R (c : Dev nD) : sProp 𝕄 := iprop((∃ r, prngReg c r) ∗ ∃ W, owes (c : Thread nD τ) (0 : CellTallies nD τ sig Unit) W)
/-- A stretch of host operations as a segment over the unscoped buffers. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem ops0_fresh : (main_part0_ops0 : List (HloOp τ sig (Elt F))).Forall fun op => op.fresh = ∅ := by
  simp only [List.Forall]; repeat' constructor
theorem ops1_fresh : (main_part1_ops0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (E4 m ρ c) ∗ ∃ r, prngReg c r)

/-! ## The two passes as regions -/

-- a library lemma stated over the pinned configuration unifies with the printed one only when unification may unfold
-- plain definitions in a metavariable's type
set_option backward.isDefEq.respectTransparency.types false in
/-- THE STATISTICS PASS over the thread state: entered from every unscoped buffer at the launch contents, left with the mean and variance arrays at what it wrote back. Its arrays are split out of the unscoped buffers and put back; the generator register and the scoped buffers go into the pass's invariant and come back with the accumulator rows' contents forgotten; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (obligation0 (V0 m ρ) c).loose
  hwaits := Pipeline.hwaits_of_owed_zero _ _ _ _ L lv 0 fun _ _ => rfl
  pre c := iprop(StableHlo.held (c : Thread nD τ) (Pipeline.ucRefs τ sig) (E0 m ρ c) ∗ R c)
  post c := iprop(StableHlo.held (c : Thread nD τ) (Pipeline.ucRefs τ sig) (E1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    have hso : (pdats m ρ 0 c).Φ (Fin.last _) ⊢ iprop(Pipeline.scopedRest spec0 c ∗ ∃ r, prngReg c r) := by
      have h := stats_out (V0 m ρ) c; unfold Pipeline.ΦA at h; exact h
    iintro HΦ
    ihave H := hso $$ HΦ
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (arr_end0 m ρ c) (rest_end0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- THE AFFINE PASS over the thread state: entered from every unscoped buffer at the contents the host operations left, left with the output array at what it wrote back. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (obligation1 (V3 m ρ) c).loose
  hwaits := Pipeline.hwaits_of_owed_zero _ _ _ _ L lv 1 fun _ _ => rfl
  pre c := iprop(StableHlo.held (c : Thread nD τ) (Pipeline.ucRefs τ sig) (E3 m ρ c) ∗ R c)
  post c := iprop(StableHlo.held (c : Thread nD τ) (Pipeline.ucRefs τ sig) (E4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (arr_end1 m ρ c) (rest_end1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg main_part0_ops0 main_part0_ops0_sub ops0_fresh (E1 m ρ)),
    .host (hseg main_part1_ops0 main_part1_ops0_sub ops1_fresh (E2 m ρ)),
    .region (reg1 m ρ) ]

theorem main_run (c : Dev nD) : main (F := F) c = Pipeline.Seg.run (segs m ρ) := (main_chain_windows c).trans (by chain_rfl)

set_option backward.isDefEq.respectTransparency.types false in
/-- THE RUN: at the compiled mesh, from any memory with zero counters, every weakly fair execution of @main on the
    TensorCores terminates, nothing faulting, and every unscoped buffer ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = E4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (E0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (E4 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (E0 m ρ c)
        from Pipeline.unscopedBufs_held c (E0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = E4 m ρ c b)
    (hfin := fun c s' => by
      iintro ⟨⟨Hh, -⟩, HSI⟩
      unfold StableHlo.held
      imodintro
      iapply (pointsTo_read_all (Pipeline.ucRefs τ sig) (fun b => (((c : Thread nD τ)).1, b)) (E4 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (end_main_arg0 m ρ c),
     (h c _ (mem_uc main_arg1 (by decide))).trans (end_main_arg1 m ρ c),
     (h c _ (mem_uc main_arg2 (by decide))).trans (end_main_arg2 m ρ c),
     (h c _ (mem_uc main_arg3 (by decide))).trans (end_main_arg3 m ρ c),
     (h c _ (mem_uc main_arg4 (by decide))).trans (end_main_arg4 m ρ c),
     (h c _ (mem_uc main_arg5 (by decide))).trans (end_main_arg5 m ρ c),
     (h c _ (mem_uc main_arg6 (by decide))).trans (end_main_arg6 m ρ c),
     (h c _ (mem_uc main_arg7 (by decide))).trans (end_main_arg7 m ρ c)⟩) (run_all m ρ)

end Cert.KernelIdeal.Fr

end
-- ==== Proof.KI.StatsPayload.lean ====
/-
  What the rows hold, as arithmetic. Each row a point of the statistics pass leaves was named by reading its stores
  back; here each is identified with the body's own arithmetic: the sum row after a point is the row before it plus
  the block's channel sums (from the zero row at the first point), the sum-of-squares row likewise, and at the last
  point the mean row is the sum row divided by the sample count and the variance row the sum-of-squares row divided
  by it less the square of the mean row.
-/
import proofs.«106418_j11261404250602_2_alg».proof.Proof.KI.StatsData
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem zeros_row : (![0, 0] : Fin S1x256.rank → Nat) = fun _ => 0 := by funext a; fin_cases a <;> rfl
theorem zeros_block : (![0, 0, 0, 0] : Fin S2x256x56x56.rank → Nat) = fun _ => 0 := by funext a; fin_cases a <;> rfl

/-- A whole row buffer read through the whole rectangle gives its contents. -/
theorem read_row (arg : Memref sig .tc .vmem S1x256 .f32) (h : arg.IsWhole) (x : Vec F S1x256 .f32) :
    View.readAt (Elt F) arg.view (Rect.unit (s := S1x256) ![0, 0] S1x256.size inb_S1x256_S1x256_0_0).toLoadRect (h.unread x) = x := by
  rw [View.readAt_eq_ld, h.read_unread]; exact View.ld_unit_zero zeros_row _ x

/-- A whole block buffer read through the whole rectangle gives its contents. -/
theorem read_block (arg : Memref sig .tc .vmem S2x256x56x56 .f32) (h : arg.IsWhole) (x : Vec F S2x256x56x56 .f32) :
    View.readAt (Elt F) arg.view (Rect.unit (s := S2x256x56x56) ![0, 0, 0, 0] S2x256x56x56.size inb_S2x256x56x56_S2x256x56x56_0_0_0_0).toLoadRect (h.unread x) = x := by
  rw [View.readAt_eq_ld, h.read_unread]; exact View.ld_unit_zero zeros_block _ x

/-- A row read back right after one whole-row store is what was stored. -/
theorem read_stored (v : View sig .tc .vmem S1x256 .f32) (w : Vec F S1x256 .f32) :
    v.readCov [(⟨(Rect.unit (s := S1x256) ![0, 0] S1x256.size inb_S1x256_S1x256_0_0), w⟩ : View.Piece (Elt F) S1x256 .f32)] (Rect.unit (s := S1x256) ![0, 0] S1x256.size inb_S1x256_S1x256_0_0).toLoadRect = w :=
  View.readCov_unit_zero v zeros_row _ w

/-- A whole-row store, last, leaves what it stored whatever came before. -/
theorem last_store (w : Vec F S1x256 .f32) (L : List (View.Piece (Elt F) S1x256 .f32)) :
    View.canon ((⟨(Rect.unit (s := S1x256) ![0, 0] S1x256.size inb_S1x256_S1x256_0_0), w⟩ : View.Piece (Elt F) S1x256 .f32) :: L) = w :=
  View.canon_cons_unit_zero zeros_row _ w L

/-! ## The first point -/

theorem sumFirst_eq (c : Dev nD) (i : grid0.Coords) (arg1 : Memref sig .tc .vmem S2x256x56x56 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (hr : resets i) (hw : ¬writesOut i)
    (x0 : Vec F S2x256x56x56 .f32) :
    sumFirst c i arg1 harg1 arg2 harg2 arg3 harg3 arg4 harg4 arg5 harg5 hr hw x0 = k0_pay3 x0 k0_pay1 := by
  unfold sumFirst
  rw [View.read_writes_eq_canon _ _ _ (sumFirst_cover c i arg1 harg1 arg2 harg2 arg3 harg3 arg4 harg4 arg5 harg5 hr hw x0)]
  unfold runFirst
  dsimp only
  sl_unfold_words
  refine (last_store _ _).trans ?_
  rw [read_block, read_stored]

theorem sqFirst_eq (c : Dev nD) (i : grid0.Coords) (arg1 : Memref sig .tc .vmem S2x256x56x56 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (hr : resets i) (hw : ¬writesOut i)
    (x0 : Vec F S2x256x56x56 .f32) :
    sqFirst c i arg1 harg1 arg2 harg2 arg3 harg3 arg4 harg4 arg5 harg5 hr hw x0 = k0_pay4 x0 k0_pay2 := by
  unfold sqFirst
  rw [View.read_writes_eq_canon _ _ _ (sqFirst_cover c i arg1 harg1 arg2 harg2 arg3 harg3 arg4 harg4 arg5 harg5 hr hw x0)]
  unfold runFirst
  dsimp only
  sl_unfold_words
  refine (last_store _ _).trans ?_
  rw [read_block, read_stored]

/-! ## A middle point -/

theorem sumMid_eq (c : Dev nD) (i : grid0.Coords) (arg1 : Memref sig .tc .vmem S2x256x56x56 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (hr : ¬resets i) (hw : ¬writesOut i)
    (x0 : Vec F S2x256x56x56 .f32) (xs xq : Vec F S1x256 .f32) :
    sumMid c i arg1 harg1 arg2 harg2 arg3 harg3 arg4 harg4 arg5 harg5 hr hw x0 xs xq = k0_pay3 x0 xs := by
  unfold sumMid
  rw [View.read_writes_eq_canon _ _ _ (sumMid_cover c i arg1 harg1 arg2 harg2 arg3 harg3 arg4 harg4 arg5 harg5 hr hw x0 xs xq)]
  unfold runMid
  dsimp only
  sl_unfold_words
  refine (last_store _ _).trans ?_
  rw [read_block, read_row]

theorem sqMid_eq (c : Dev nD) (i : grid0.Coords) (arg1 : Memref sig .tc .vmem S2x256x56x56 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (hr : ¬resets i) (hw : ¬writesOut i)
    (x0 : Vec F S2x256x56x56 .f32) (xs xq : Vec F S1x256 .f32) :
    sqMid c i arg1 harg1 arg2 harg2 arg3 harg3 arg4 harg4 arg5 harg5 hr hw x0 xs xq = k0_pay4 x0 xq := by
  unfold sqMid
  rw [View.read_writes_eq_canon _ _ _ (sqMid_cover c i arg1 harg1 arg2 harg2 arg3 harg3 arg4 harg4 arg5 harg5 hr hw x0 xs xq)]
  unfold runMid
  dsimp only
  sl_unfold_words
  refine (last_store _ _).trans ?_
  rw [read_block, read_row]

/-! ## The last point -/

theorem sumLast_eq (c : Dev nD) (i : grid0.Coords) (arg1 : Memref sig .tc .vmem S2x256x56x56 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (hr : ¬resets i) (hw : writesOut i)
    (x0 : Vec F S2x256x56x56 .f32) (xs xq : Vec F S1x256 .f32) :
    sumLast c i arg1 harg1 arg2 harg2 arg3 harg3 arg4 harg4 arg5 harg5 hr hw x0 xs xq = k0_pay3 x0 xs := by
  unfold sumLast
  rw [View.read_writes_eq_canon _ _ _ (sumLast_cover c i arg1 harg1 arg2 harg2 arg3 harg3 arg4 harg4 arg5 harg5 hr hw x0 xs xq)]
  unfold runLast
  dsimp only
  sl_unfold_words
  refine (last_store _ _).trans ?_
  rw [read_block, read_row]

theorem sqLast_eq (c : Dev nD) (i : grid0.Coords) (arg1 : Memref sig .tc .vmem S2x256x56x56 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (hr : ¬resets i) (hw : writesOut i)
    (x0 : Vec F S2x256x56x56 .f32) (xs xq : Vec F S1x256 .f32) :
    sqLast c i arg1 harg1 arg2 harg2 arg3 harg3 arg4 harg4 arg5 harg5 hr hw x0 xs xq = k0_pay4 x0 xq := by
  unfold sqLast
  rw [View.read_writes_eq_canon _ _ _ (sqLast_cover c i arg1 harg1 arg2 harg2 arg3 harg3 arg4 harg4 arg5 harg5 hr hw x0 xs xq)]
  unfold runLast
  dsimp only
  sl_unfold_words
  refine (last_store _ _).trans ?_
  rw [read_block, read_row]

theorem meanLast_eq (c : Dev nD) (i : grid0.Coords) (arg1 : Memref sig .tc .vmem S2x256x56x56 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (hr : ¬resets i) (hw : writesOut i)
    (x0 : Vec F S2x256x56x56 .f32) (xs xq : Vec F S1x256 .f32) :
    meanLast c i arg1 harg1 arg2 harg2 arg3 harg3 arg4 harg4 arg5 harg5 hr hw x0 xs xq = k0_pay5 (k0_pay3 x0 xs) := by
  unfold meanLast
  rw [View.read_writes_eq_canon _ _ _ (meanLast_cover c i arg1 harg1 arg2 harg2 arg3 harg3 arg4 harg4 arg5 harg5 hr hw x0 xs xq)]
  unfold runLast
  dsimp only
  sl_unfold_words
  refine (last_store _ _).trans ?_
  rw [read_stored, read_block, read_row]

theorem varLast_eq (c : Dev nD) (i : grid0.Coords) (arg1 : Memref sig .tc .vmem S2x256x56x56 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (hr : ¬resets i) (hw : writesOut i)
    (x0 : Vec F S2x256x56x56 .f32) (xs xq : Vec F S1x256 .f32) :
    varLast c i arg1 harg1 arg2 harg2 arg3 harg3 arg4 harg4 arg5 harg5 hr hw x0 xs xq = k0_pay6 (k0_pay3 x0 xs) (k0_pay4 x0 xq) := by
  unfold varLast
  rw [View.read_writes_eq_canon _ _ _ (varLast_cover c i arg1 harg1 arg2 harg2 arg3 harg3 arg4 harg4 arg5 harg5 hr hw x0 xs xq)]
  unfold runLast
  dsimp only
  sl_unfold_words
  refine (last_store _ _).trans ?_
  rw [read_stored, read_stored, read_block, read_row, read_row]

section AtEntry
variable (V : (c : Dev nD) → (b : Ref sig .tc) → Buf (Elt F) ((c : Thread nD τ).loc b))

/-! ## The accumulation, as arithmetic -/

/-- The (sum, sum of squares) rows after point `n`, by the body's arithmetic alone. -/
def acc (c : Dev nD) : (n : ℕ) → n < cfg0.N → Vec F S1x256 .f32 × Vec F S1x256 .f32
  | 0, hn => (k0_pay3 (blk0 V c 0 ⟨0, hn⟩) k0_pay1, k0_pay4 (blk0 V c 0 ⟨0, hn⟩) k0_pay2)
  | n + 1, hn => (k0_pay3 (blk0 V c 0 ⟨n + 1, hn⟩) (acc c n (Nat.lt_of_succ_lt hn)).1,
      k0_pay4 (blk0 V c 0 ⟨n + 1, hn⟩) (acc c n (Nat.lt_of_succ_lt hn)).2)

/-- The rows the points leave are that arithmetic. -/
theorem rowsAt_eq_acc (c : Dev nD) : ∀ (n : ℕ) (hn : n < cfg0.N), rowsAt V c n hn = acc V c n hn
  | 0, hn => by
    have hr : resets (grid0.coords ⟨0, hn⟩) := (resets_iff ⟨0, hn⟩).mpr rfl
    have hw : ¬writesOut (grid0.coords ⟨0, hn⟩) := fun h => (fun h' => by (try dsimp only at h'); omega) ((writesOut_iff ⟨0, hn⟩).mp h)
    rw [show rowsAt V c 0 hn = rowsAt V c (⟨0, hn⟩ : Fin cfg0.N).val (⟨0, hn⟩ : Fin cfg0.N).isLt from rfl,
      rowsAt_first V c ⟨0, hn⟩ rfl hr hw, sumFirst_eq, sqFirst_eq]
    rfl
  | n + 1, hn => by
    have ih := rowsAt_eq_acc c n (Nat.lt_of_succ_lt hn)
    have hr : ¬resets (grid0.coords ⟨n + 1, hn⟩) := fun h => Nat.succ_ne_zero n ((resets_iff ⟨n + 1, hn⟩).mp h)
    have hb : rowsBefore V c ⟨n + 1, hn⟩ = acc V c n (Nat.lt_of_succ_lt hn) := ih
    by_cases hl : n + 1 = 31
    · have hw : writesOut (grid0.coords ⟨n + 1, hn⟩) := (writesOut_iff ⟨n + 1, hn⟩).mpr hl
      rw [show rowsAt V c (n + 1) hn = rowsAt V c (⟨n + 1, hn⟩ : Fin cfg0.N).val (⟨n + 1, hn⟩ : Fin cfg0.N).isLt from rfl,
        rowsAt_last V c ⟨n + 1, hn⟩ hl hr hw, sumLast_eq, sqLast_eq, hb]
      rfl
    · have hw : ¬writesOut (grid0.coords ⟨n + 1, hn⟩) := fun h => hl ((writesOut_iff ⟨n + 1, hn⟩).mp h)
      rw [show rowsAt V c (n + 1) hn = rowsAt V c (⟨n + 1, hn⟩ : Fin cfg0.N).val (⟨n + 1, hn⟩ : Fin cfg0.N).isLt from rfl,
        rowsAt_mid V c ⟨n + 1, hn⟩ (Nat.succ_ne_zero n) hl hr hw, sumMid_eq, sqMid_eq, hb]
      rfl

/-- The last point: position 31. -/
abbrev tLast : Fin cfg0.N := ⟨31, lt_of_lt_of_eq (by decide : (31 : ℕ) < 32) (show cfg0.N = 32 from N_0).symm⟩

/-- What the last point stores in the mean and variance rows, as arithmetic on the rows after all 32 points. -/
theorem outs_last (c : Dev nD) :
    outsAt V c tLast = (k0_pay5 (acc V c 31 tLast.isLt).1, k0_pay6 (acc V c 31 tLast.isLt).1 (acc V c 31 tLast.isLt).2) := by
  have hr : ¬resets (grid0.coords tLast) := fun h => by have := (resets_iff tLast).mp h; simp at this
  have hw : writesOut (grid0.coords tLast) := (writesOut_iff tLast).mpr rfl
  have hb : rowsBefore V c tLast = acc V c 30 (lt_of_lt_of_eq (by decide : (30 : ℕ) < 32) (show cfg0.N = 32 from N_0).symm) := rowsAt_eq_acc V c 30 _
  rw [outsAt_last V c tLast rfl hr hw, meanLast_eq, varLast_eq, hb]
  rfl

end AtEntry

end Cert.KernelIdeal.Fr

end
-- ==== Proof.LibIndexSums.lean ====
/-
  Sums over the index set of a rank-4 array, re-indexed through the four coordinates: the whole sum, the sum over
  the indices with a given second coordinate (a reduction over axes 0, 2, 3 read at a channel), and the sum over the
  indices with given first and second coordinates (a reduction over axes 2, 3 read at a row and a channel). Also a
  sum over `m * n` consecutive positions cut into `m` groups of `n`. All in any commutative additive monoid, so
  in particular on the extended reals, where no finiteness is needed to regroup a sum.
-/
import Idealize.ShloMosaic.Lib.ValueIdx
import Mathlib.Algebra.BigOperators.Fin
import Mathlib.Algebra.BigOperators.Group.Finset.Basic

namespace Idealize.ShloMosaic.IndexSums

open Idealize.ShloMosaic Idealize.ShloMosaic.ValueIdx

variable {M : Type*} [AddCommMonoid M] {n0 n1 n2 n3 : Nat}

/-- A rank-4 index set is the product of its four coordinate ranges. -/
def idxEquiv4 : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- A sum over a rank-4 index set is the fourfold sum over the coordinates. -/
theorem sum_idx4 (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f]
  simp only [Fintype.sum_prod_type]
  rfl

/-- The sum over the indices whose SECOND coordinate is `b` (stated for any decidable predicate that says so):
    the threefold sum over the other coordinates. -/
theorem sum_second_eq (f : (⟨4, ![n0, n1, n2, n3]⟩ : Shape).Idx → M) (b : Fin n1)
    (p : (⟨4, ![n0, n1, n2, n3]⟩ : Shape).Idx → Prop) [DecidablePred p] (hp : ∀ i, p i ↔ (i 1).val = b.val) :
    ∑ i ∈ Finset.univ.filter p, f i = ∑ a : Fin n0, ∑ c : Fin n2, ∑ d : Fin n3, f (ix4 a b c d) := by
  rw [Finset.sum_filter, sum_idx4]
  refine Finset.sum_congr rfl fun a _ => ?_
  rw [Finset.sum_eq_single b]
  · refine Finset.sum_congr rfl fun c _ => Finset.sum_congr rfl fun d _ => ?_
    rw [if_pos ((hp _).mpr rfl)]
  · intro b' _ hb
    refine Finset.sum_eq_zero fun c _ => Finset.sum_eq_zero fun d _ => ?_
    rw [if_neg fun h => hb (Fin.ext ((hp _).mp h))]
  · intro h; exact absurd (Finset.mem_univ b) h

/-- The sum over the indices whose FIRST TWO coordinates are `a`, `b`: the double sum over the last two. -/
theorem sum_first_second_eq (f : (⟨4, ![n0, n1, n2, n3]⟩ : Shape).Idx → M) (a : Fin n0) (b : Fin n1)
    (p : (⟨4, ![n0, n1, n2, n3]⟩ : Shape).Idx → Prop) [DecidablePred p]
    (hp : ∀ i, p i ↔ ((i 0).val = a.val ∧ (i 1).val = b.val)) :
    ∑ i ∈ Finset.univ.filter p, f i = ∑ c : Fin n2, ∑ d : Fin n3, f (ix4 a b c d) := by
  rw [Finset.sum_filter, sum_idx4, Finset.sum_eq_single a]
  · rw [Finset.sum_eq_single b]
    · refine Finset.sum_congr rfl fun c _ => Finset.sum_congr rfl fun d _ => ?_
      rw [if_pos ((hp _).mpr ⟨rfl, rfl⟩)]
    · intro b' _ hb
      refine Finset.sum_eq_zero fun c _ => Finset.sum_eq_zero fun d _ => ?_
      rw [if_neg fun h => hb (Fin.ext ((hp _).mp h).2)]
    · intro h; exact absurd (Finset.mem_univ b) h
  · intro a' _ ha
    refine Finset.sum_eq_zero fun b' _ => Finset.sum_eq_zero fun c _ => Finset.sum_eq_zero fun d _ => ?_
    rw [if_neg fun h => ha (Fin.ext ((hp _).mp h).1)]
  · intro h; exact absurd (Finset.mem_univ a) h

/-- Rank 2: the sum over the indices whose SECOND coordinate is `b` is the sum over the first coordinate. -/
theorem sum2_second_eq (f : (⟨2, ![n0, n1]⟩ : Shape).Idx → M) (b : Fin n1)
    (p : (⟨2, ![n0, n1]⟩ : Shape).Idx → Prop) [DecidablePred p] (hp : ∀ i, p i ↔ (i 1).val = b.val) :
    ∑ i ∈ Finset.univ.filter p, f i = ∑ a : Fin n0, f (ix2 a b) := by
  rw [Finset.sum_filter, sum_idx2]
  refine Finset.sum_congr rfl fun a _ => ?_
  rw [Finset.sum_eq_single b]
  · rw [if_pos ((hp _).mpr rfl)]
  · intro b' _ hb
    rw [if_neg fun h => hb (Fin.ext ((hp _).mp h))]
  · intro h; exact absurd (Finset.mem_univ b) h

/-- A sum over `m * n` positions is the sum over `m` groups of the sums over the `n` positions of each group,
    group `t` holding the positions `n * t + j`. -/
theorem sum_groups (m n : Nat) (g : Fin (m * n) → M) :
    ∑ k : Fin (m * n), g k
      = ∑ t : Fin m, ∑ j : Fin n, g ⟨n * t.val + j.val, by
          calc n * t.val + j.val < n * t.val + n := Nat.add_lt_add_left j.isLt _
            _ = n * (t.val + 1) := by ring
            _ ≤ n * m := Nat.mul_le_mul_left _ t.isLt
            _ = m * n := Nat.mul_comm _ _⟩ := by
  rw [← Equiv.sum_comp finProdFinEquiv g, Fintype.sum_prod_type]
  refine Finset.sum_congr rfl fun t _ => Finset.sum_congr rfl fun j _ => congrArg g (Fin.ext ?_)
  simp [finProdFinEquiv, Nat.add_comm]

end Idealize.ShloMosaic.IndexSums
-- ==== Proof.KI.StatsIndex.lean ====
/-
  The statistics pass's arithmetic read at a channel, on the extended reals. The block's channel sums: a sum over the
  last two axes of the [2, 256, 56, 56] block into [2, 256], reshaped to [2, 256, 1, 1] and back (the identity), then
  summed over the two rows into [256] and laid out as a [1, 256] row. So at channel `ch` the new sum row is the old
  one plus the sum of the block's 2 * 56 * 56 entries of that channel, and the new sum-of-squares row the old one plus
  the sum of their squares; the mean row is the sum row over the sample count, the variance row the sum-of-squares row
  over it less the square of the mean row.
-/
import proofs.«106418_j11261404250602_2_alg».proof.Proof.KI.StatsPayload
import proofs.«106418_j11261404250602_2_alg».proof.Proof.LibIndexSums
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Idealize.ShloMosaic.IndexSums

/-- The sum over the last two axes, at row `j` and channel `ch`. -/
theorem lanes_sum (x : FVec Ideal S2x256x56x56 .f32) (j : Fin 2) (ch : Fin 256) :
    multiReduction .add [2, 3] S2x256 x 0x00000000#32 reduces_S2x256x56x56_S2x256 (.inl rfl) rfl (ix2 j ch)
      = ∑ h : Fin 56, ∑ w : Fin 56, x (ix4 j ch h w) := by
  show Ideal.reduceAdd reduces_S2x256x56x56_S2x256 x (ix2 j ch) = _
  unfold Ideal.reduceAdd
  refine sum_first_second_eq x j ch _ fun i => ⟨fun h => ⟨?_, ?_⟩, fun h => ?_⟩
  · have e := congrArg (fun t : S2x256.Idx => (t 0).val) h
    exact (Shape.Reduces.drop_apply_val_of_eq reduces_S2x256x56x56_S2x256 i 0 0).symm.trans e
  · have e := congrArg (fun t : S2x256.Idx => (t 1).val) h
    exact (Shape.Reduces.drop_apply_val_of_eq reduces_S2x256x56x56_S2x256 i 1 1).symm.trans e
  · funext b
    refine Fin.ext ?_
    match b with
    | ⟨0, _⟩ => exact (Shape.Reduces.drop_apply_val_of_eq reduces_S2x256x56x56_S2x256 i 0 0).trans h.1
    | ⟨1, _⟩ => exact (Shape.Reduces.drop_apply_val_of_eq reduces_S2x256x56x56_S2x256 i 1 1).trans h.2

/-- The sum over the two rows, at channel `ch`. -/
theorem rows_sum (y : FVec Ideal S2x256 .f32) (ch : Fin 256) :
    multiReduction .add [0] S256 y 0x00000000#32 reduces_S2x256_S256 (.inl rfl) rfl (ix1 ch) = ∑ j : Fin 2, y (ix2 j ch) := by
  show Ideal.reduceAdd reduces_S2x256_S256 y (ix1 ch) = _
  unfold Ideal.reduceAdd
  refine sum2_second_eq y ch _ fun i => ⟨fun h => ?_, fun h => ?_⟩
  · have e := congrArg (fun t : S256.Idx => (t 0).val) h
    exact (Shape.Reduces.drop_apply_val_of_eq reduces_S2x256_S256 i 0 1).symm.trans e
  · funext b
    refine Fin.ext ?_
    match b with
    | ⟨0, _⟩ => exact (Shape.Reduces.drop_apply_val_of_eq reduces_S2x256_S256 i 0 1).trans h

/-- The block's channel sum: all 2 * 56 * 56 entries of channel `ch`. -/
def blockSum (x : FVec Ideal S2x256x56x56 .f32) (ch : Fin 256) : EReal :=
  ∑ j : Fin 2, ∑ h : Fin 56, ∑ w : Fin 56, x (ix4 j ch h w)

/-- The new sum row at a channel: the old row there plus the block's channel sum. -/
theorem sum_row_at (x : Vec Ideal S2x256x56x56 .f32) (s : Vec Ideal S1x256 .f32) (ch : Fin 256) :
    k0_pay3 (F := Ideal) x s (ix2 (0 : Fin 1) ch) = s (ix2 (0 : Fin 1) ch) + blockSum x ch := by
  unfold k0_pay3
  dsimp only
  rw [shapeCast_self, shapeCast_shapeCast]
  show s (ix2 (0 : Fin 1) ch) + shapeCast S1x256 _ shapeCasts_S256_S1x256 (ix2 (0 : Fin 1) ch) = _
  rw [shapeCast_a_1a_apply, rows_sum]
  unfold blockSum
  refine congrArg _ (Finset.sum_congr rfl fun j _ => ?_)
  exact lanes_sum x j ch

/-- The new sum-of-squares row at a channel: the old row there plus the block's channel sum of squares. -/
theorem sq_row_at (x : Vec Ideal S2x256x56x56 .f32) (q : Vec Ideal S1x256 .f32) (ch : Fin 256) :
    k0_pay4 (F := Ideal) x q (ix2 (0 : Fin 1) ch) = q (ix2 (0 : Fin 1) ch) + blockSum (fun i => x i * x i) ch := by
  unfold k0_pay4
  dsimp only
  rw [shapeCast_self, shapeCast_shapeCast]
  show q (ix2 (0 : Fin 1) ch) + shapeCast S1x256 _ shapeCasts_S256_S1x256 (ix2 (0 : Fin 1) ch) = _
  rw [shapeCast_a_1a_apply, rows_sum]
  unfold blockSum
  refine congrArg _ (Finset.sum_congr rfl fun j _ => ?_)
  exact lanes_sum (mulf x x) j ch

/-- The rows start from zero. -/
theorem zero_row_at (ch : Fin 256) : k0_pay1 (F := Ideal) (ix2 (0 : Fin 1) ch) = 0 := by
  unfold k0_pay1
  (try dsimp only)
  rw [shapeCast_self]
  exact Ideal.ofBits_zero_f32
theorem zero_row_at' (ch : Fin 256) : k0_pay2 (F := Ideal) (ix2 (0 : Fin 1) ch) = 0 := by
  unfold k0_pay2
  (try dsimp only)
  rw [shapeCast_self]
  exact Ideal.ofBits_zero_f32

/-- The mean row at a channel: the sum row there over the sample count. -/
theorem mean_row_at (s : Vec Ideal S1x256 .f32) (ch : Fin 256) :
    k0_pay5 (F := Ideal) s (ix2 (0 : Fin 1) ch) = Ideal.div (s (ix2 (0 : Fin 1) ch)) (Ideal.ofBits .f32 0x48440000#32) := rfl

/-- The variance row at a channel: the sum-of-squares row there over the sample count, less the square of the mean. -/
theorem var_row_at (s q : Vec Ideal S1x256 .f32) (ch : Fin 256) :
    k0_pay6 (F := Ideal) s q (ix2 (0 : Fin 1) ch)
      = Ideal.div (q (ix2 (0 : Fin 1) ch)) (Ideal.ofBits .f32 0x48440000#32)
        - Ideal.div (s (ix2 (0 : Fin 1) ch)) (Ideal.ofBits .f32 0x48440000#32) * Ideal.div (s (ix2 (0 : Fin 1) ch)) (Ideal.ofBits .f32 0x48440000#32) := rfl

end Cert.KernelIdeal.Fr

end
-- ==== Proof.KI.StatsTotal.lean ====
/-
  The statistics pass, summed up. Point `t`'s block is batch rows 2t and 2t + 1 of the input; the sum row after all
  32 points is therefore, at channel `ch`, the sum of all 64 * 56 * 56 entries of that channel (32 groups of two rows,
  regrouped), and the sum-of-squares row the sum of their squares. The mean and variance arrays are written back once,
  at the last point, whole: they end holding the rows that point stored.
-/
import proofs.«106418_j11261404250602_2_alg».proof.Proof.KI.StatsIndex

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Idealize.ShloMosaic.IndexSums

section Generic
variable (V : (c : Dev nD) → (b : Ref sig .tc) → Buf (Elt F) ((c : Thread nD τ).loc b))

/-- The input window's block index at point `t`: batch position `t`, everything else from the start. -/
theorem in_index : ∀ t : Fin cfg0.N, win0_0.index t 0 = t.val ∧ win0_0.index t 1 = 0 ∧ win0_0.index t 2 = 0 ∧ win0_0.index t 3 = 0 :=
  (by decide +kernel : ∀ t : Fin grid0.N, win0_0.index t 0 = t.val ∧ win0_0.index t 1 = 0 ∧ win0_0.index t 2 = 0 ∧ win0_0.index t 3 = 0)

/-- Point `t`'s block is batch rows `2t`, `2t + 1` of the input array. -/
theorem block_at (c : Dev nD) (t : Fin cfg0.N) (x : S2x256x56x56.Idx) (k : S64x256x56x56.Idx)
    (hk0 : (k 0).val = 2 * t.val + (x 0).val) (hk1 : (k 1).val = (x 1).val) (hk2 : (k 2).val = (x 2).val) (hk3 : (k 3).val = (x 3).val) :
    (blk0 V c 0 t : Vec F S2x256x56x56 .f32) x = (V c main_arg0 : S64x256x56x56.Idx → Elt F .f32) k := by
  have hi := in_index t
  unfold blk0
  rw [View.read_apply]
  show V c main_arg0 _ = V c main_arg0 _
  refine congrArg _ (funext fun a => Fin.ext ?_)
  match a with
  | ⟨0, _⟩ => show win0_0.index t 0 * 2 + 1 * (x 0).val = (k 0).val; rw [hi.1, hk0]; omega
  | ⟨1, _⟩ => show win0_0.index t 1 * 256 + 1 * (x 1).val = (k 1).val; rw [hi.2.1, hk1]; omega
  | ⟨2, _⟩ => show win0_0.index t 2 * 56 + 1 * (x 2).val = (k 2).val; rw [hi.2.2.1, hk2]; omega
  | ⟨3, _⟩ => show win0_0.index t 3 * 56 + 1 * (x 3).val = (k 3).val; rw [hi.2.2.2, hk3]; omega

/-- The mean array is written back once, at the last point, whole. -/
theorem mean_written (c : Dev nD) (G : Vec F S1x256 .f32) (hG : (outsAt V c tLast).1 = G) :
    (dat0 V c).arrAt 1 cfg0.N = G := by
  have hN : cfg0.N = 32 := N_0
  refine (dat0 V c).arrAt_eq_of_cover 1 G (fun t hf => ?_) fun i => ⟨tLast, (flush0_1 tLast).mpr rfl, ?_⟩
  · have h1 : t.val = 31 := by have := (flush0_1 t).mp hf; have := t.isLt; omega
    obtain rfl : t = tLast := Fin.ext h1
    show (cfg0.win 1).cut (grid0.coords tLast) ((dat0 V c).after 1 tLast) = _
    rw [after_mean, hG]
    have hz' : (fun a => win0_1.index tLast a * main_v0_0.ty.shape.size a) = fun _ => 0 := funext fun a => by fin_cases a <;> decide +kernel
    exact (Memref.read_access_unit_zero (Elt F) main_v0_0 hz' (fun a => by rw [congrFun hz' a]; simp) G).symm
  · show i ∈ ((View.whole main_v0_0).slice (win0_1.rect tLast)).set
    rw [View.set_slice_whole, Rect.mem_set_unit]
    intro a
    have h0 : (i 0 : Nat) < 1 := (i 0).isLt
    have h1 : (i 1 : Nat) < 256 := (i 1).isLt
    match a with
    | ⟨0, _⟩ =>
      show win0_1.index tLast 0 * win0_1.size 0 ≤ (i 0 : Nat) ∧ (i 0 : Nat) < win0_1.index tLast 0 * win0_1.size 0 + win0_1.xsize (grid0.coords tLast) 0
      rw [show win0_1.index tLast 0 * win0_1.size 0 = 0 from by decide +kernel, show win0_1.xsize (grid0.coords tLast) 0 = 1 from by decide +kernel]; omega
    | ⟨1, _⟩ =>
      show win0_1.index tLast 1 * win0_1.size 1 ≤ (i 1 : Nat) ∧ (i 1 : Nat) < win0_1.index tLast 1 * win0_1.size 1 + win0_1.xsize (grid0.coords tLast) 1
      rw [show win0_1.index tLast 1 * win0_1.size 1 = 0 from by decide +kernel, show win0_1.xsize (grid0.coords tLast) 1 = 256 from by decide +kernel]; omega

/-- The variance array likewise. -/
theorem var_written (c : Dev nD) (G : Vec F S1x256 .f32) (hG : (outsAt V c tLast).2 = G) :
    (dat0 V c).arrAt 2 cfg0.N = G := by
  have hN : cfg0.N = 32 := N_0
  refine (dat0 V c).arrAt_eq_of_cover 2 G (fun t hf => ?_) fun i => ⟨tLast, (flush0_2 tLast).mpr rfl, ?_⟩
  · have h1 : t.val = 31 := by have := (flush0_2 t).mp hf; have := t.isLt; omega
    obtain rfl : t = tLast := Fin.ext h1
    show (cfg0.win 2).cut (grid0.coords tLast) ((dat0 V c).after 2 tLast) = _
    rw [after_var, hG]
    have hz' : (fun a => win0_2.index tLast a * main_v0_1.ty.shape.size a) = fun _ => 0 := funext fun a => by fin_cases a <;> decide +kernel
    exact (Memref.read_access_unit_zero (Elt F) main_v0_1 hz' (fun a => by rw [congrFun hz' a]; simp) G).symm
  · show i ∈ ((View.whole main_v0_1).slice (win0_2.rect tLast)).set
    rw [View.set_slice_whole, Rect.mem_set_unit]
    intro a
    have h0 : (i 0 : Nat) < 1 := (i 0).isLt
    have h1 : (i 1 : Nat) < 256 := (i 1).isLt
    match a with
    | ⟨0, _⟩ =>
      show win0_2.index tLast 0 * win0_2.size 0 ≤ (i 0 : Nat) ∧ (i 0 : Nat) < win0_2.index tLast 0 * win0_2.size 0 + win0_2.xsize (grid0.coords tLast) 0
      rw [show win0_2.index tLast 0 * win0_2.size 0 = 0 from by decide +kernel, show win0_2.xsize (grid0.coords tLast) 0 = 1 from by decide +kernel]; omega
    | ⟨1, _⟩ =>
      show win0_2.index tLast 1 * win0_2.size 1 ≤ (i 1 : Nat) ∧ (i 1 : Nat) < win0_2.index tLast 1 * win0_2.size 1 + win0_2.xsize (grid0.coords tLast) 1
      rw [show win0_2.index tLast 1 * win0_2.size 1 = 0 from by decide +kernel, show win0_2.xsize (grid0.coords tLast) 1 = 256 from by decide +kernel]; omega

end Generic

section AtIdeal
variable (V : (c : Dev nD) → (b : Ref sig .tc) → Buf (Elt Ideal) ((c : Thread nD τ).loc b))

/-- The input array, and point `t`'s block of it, as functions into the extended reals. -/
abbrev argX (c : Dev nD) : S64x256x56x56.Idx → EReal := V c main_arg0
abbrev blkX (c : Dev nD) (t : Fin cfg0.N) : S2x256x56x56.Idx → EReal := blk0 V c 0 t

/-- A sum over the points up to `n + 1` is the sum up to `n` plus the term of point `n + 1`. -/
theorem sum_upto_succ (g : Fin cfg0.N → EReal) (n : ℕ) (hn : n + 1 < cfg0.N) :
    (∑ t : Fin cfg0.N, if t.val ≤ n + 1 then g t else 0) = (∑ t : Fin cfg0.N, if t.val ≤ n then g t else 0) + g ⟨n + 1, hn⟩ := by
  have hsplit : ∀ t : Fin cfg0.N, (if t.val ≤ n + 1 then g t else 0)
      = (if t.val ≤ n then g t else 0) + (if t = ⟨n + 1, hn⟩ then g t else 0) := fun t => by
    by_cases h1 : t.val ≤ n
    · have h2 : t ≠ ⟨n + 1, hn⟩ := fun e => by rw [e] at h1; simp at h1
      rw [if_pos h1, if_pos (Nat.le_succ_of_le h1), if_neg h2, add_zero]
    · by_cases h2 : t.val = n + 1
      · have h3 : t = ⟨n + 1, hn⟩ := Fin.ext h2
        rw [if_neg h1, if_pos (le_of_eq h2), if_pos h3, zero_add]
      · have h3 : t ≠ ⟨n + 1, hn⟩ := fun e => h2 (congrArg Fin.val e)
        have h4 : ¬t.val ≤ n + 1 := by omega
        rw [if_neg h1, if_neg h4, if_neg h3, add_zero]
  simp only [hsplit, Finset.sum_add_distrib, Finset.sum_ite_eq', Finset.mem_univ, if_true]

/-- Only the first point is at or before position 0. -/
theorem sum_upto_zero (g : Fin cfg0.N → EReal) (hn : 0 < cfg0.N) :
    (∑ t : Fin cfg0.N, if t.val ≤ 0 then g t else 0) = g ⟨0, hn⟩ := by
  have : ∀ t : Fin cfg0.N, (if t.val ≤ 0 then g t else 0) = if t = ⟨0, hn⟩ then g t else 0 := fun t => by
    by_cases h : t.val ≤ 0
    · rw [if_pos h, if_pos (Fin.ext (Nat.le_zero.mp h))]
    · rw [if_neg h, if_neg fun e => h (by rw [e])]
  simp only [this, Finset.sum_ite_eq', Finset.mem_univ, if_true]

/-- After point `n` the sum row at a channel holds the channel sums of the blocks of points `0..n`, and the
    sum-of-squares row the channel sums of their squares. -/
theorem acc_at (c : Dev nD) (ch : Fin 256) : ∀ (n : ℕ) (hn : n < cfg0.N),
    (acc V c n hn).1 (ix2 (0 : Fin 1) ch) = (∑ t : Fin cfg0.N, if t.val ≤ n then blockSum (blkX V c t) ch else 0)
    ∧ (acc V c n hn).2 (ix2 (0 : Fin 1) ch) = (∑ t : Fin cfg0.N, if t.val ≤ n then blockSum (fun i => blkX V c t i * blkX V c t i) ch else 0)
  | 0, hn => by
    refine ⟨?_, ?_⟩
    · rw [sum_upto_zero _ hn]; show k0_pay3 (F := Ideal) _ (k0_pay1 (F := Ideal)) (ix2 (0 : Fin 1) ch) = _
      rw [sum_row_at, zero_row_at, zero_add]
    · rw [sum_upto_zero _ hn]; show k0_pay4 (F := Ideal) _ (k0_pay2 (F := Ideal)) (ix2 (0 : Fin 1) ch) = _
      rw [sq_row_at, zero_row_at', zero_add]
  | n + 1, hn => by
    obtain ⟨ih1, ih2⟩ := acc_at c ch n (Nat.lt_of_succ_lt hn)
    refine ⟨?_, ?_⟩
    · rw [sum_upto_succ _ n hn, ← ih1]; show k0_pay3 (F := Ideal) _ _ (ix2 (0 : Fin 1) ch) = _
      rw [sum_row_at]
    · rw [sum_upto_succ _ n hn, ← ih2]; show k0_pay4 (F := Ideal) _ _ (ix2 (0 : Fin 1) ch) = _
      rw [sq_row_at]

/-- The sum over a channel of a function of the input array's entries: all 64 * 56 * 56 of them. -/
def chanSum (X : S64x256x56x56.Idx → EReal) (ch : Fin 256) : EReal :=
  ∑ n : Fin 64, ∑ h : Fin 56, ∑ w : Fin 56, X (ix4 n ch h w)

/-- The 32 blocks' channel sums add up to the channel sum: 32 groups of two batch rows. -/
theorem blocks_total (c : Dev nD) (φ : EReal → EReal) (ch : Fin 256) :
    (∑ t : Fin cfg0.N, blockSum (fun i => φ (blkX V c t i)) ch) = chanSum (fun k => φ (argX V c k)) ch := by
  have hN : cfg0.N = 32 := N_0
  have h64 : 32 * 2 = 64 := by norm_num
  -- the channel sum over one batch row
  let G : Fin 64 → EReal := fun n => ∑ h : Fin 56, ∑ w : Fin 56, φ (argX V c (ix4 n ch h w))
  have hG : chanSum (fun k => φ (argX V c k)) ch = ∑ n : Fin 64, G n := rfl
  have hrow : ∀ (t : Fin cfg0.N) (j : Fin 2),
      (∑ h : Fin 56, ∑ w : Fin 56, φ (blkX V c t (ix4 j ch h w)))
        = G ⟨2 * t.val + j.val, by have := t.isLt; have := j.isLt; omega⟩ := fun t j =>
    Finset.sum_congr rfl fun h _ => Finset.sum_congr rfl fun w _ =>
      congrArg φ (block_at V c t (ix4 j ch h w) (ix4 ⟨2 * t.val + j.val, by have := t.isLt; have := j.isLt; omega⟩ ch h w) rfl rfl rfl rfl)
  rw [hG]
  unfold blockSum
  simp only [hrow]
  rw [← Equiv.sum_comp (finCongr h64) G, sum_groups 32 2 (fun n => G (finCongr h64 n))]
  exact Fintype.sum_equiv (finCongr hN) _ _ fun t => Finset.sum_congr rfl fun j _ => congrArg G (Fin.ext rfl)

/-- After all 32 points: the sum row is the channel sum, the sum-of-squares row the channel sum of squares. -/
theorem acc_total (c : Dev nD) (ch : Fin 256) :
    (acc V c 31 tLast.isLt).1 (ix2 (0 : Fin 1) ch) = chanSum (argX V c) ch
    ∧ (acc V c 31 tLast.isLt).2 (ix2 (0 : Fin 1) ch) = chanSum (fun k => argX V c k * argX V c k) ch := by
  have hN : cfg0.N = 32 := N_0
  obtain ⟨h1, h2⟩ := acc_at V c ch 31 tLast.isLt
  have hall : ∀ (g : Fin cfg0.N → EReal), (∑ t : Fin cfg0.N, if t.val ≤ 31 then g t else 0) = ∑ t : Fin cfg0.N, g t := fun g =>
    Finset.sum_congr rfl fun t _ => if_pos (by have := t.isLt; omega)
  refine ⟨?_, ?_⟩
  · rw [h1, hall]; exact blocks_total V c (fun x => x) ch
  · rw [h2, hall]; exact blocks_total V c (fun x => x * x) ch

end AtIdeal

end Cert.KernelIdeal.Fr

end
-- ==== Proof.RefStats.lean ====
/-
  The reference's batch statistics read at a channel, on the extended reals: the mean is the sum of the channel's
  64 * 56 * 56 entries over their number, and the variance the sum of their squared deviations from that mean over the
  same number — the two stages the sum over three axes keeps out of the generated reading.
-/
import proofs.«106418_j11261404250602_2_alg».proof.Proof.Gen.ReferenceIdeal.Read
import proofs.«106418_j11261404250602_2_alg».proof.Proof.LibIndexSums
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.ValueIdx Idealize.ShloMosaic.IndexSums

/-- The sum over a channel of an array's entries: all 64 * 56 * 56 of them. -/
def chan (X : FVec Ideal S64x256x56x56 .f32) (ch : Fin 256) : EReal :=
  ∑ n : Fin 64, ∑ h : Fin 56, ∑ w : Fin 56, X (ix4 n ch h w)

/-- The host's sum over batch, height and width, read at a channel: the initial value plus the channel's sum. -/
theorem sum_at (y : FVec Ideal S64x256x56x56 .f32) (init : FVec Ideal S_ .f32) (ch : Fin 256) :
    Host.reduceAdd y init reducesTo_S64x256x56x56_S256_d0_2_3 h_S_ (ix1 ch) = init (Shape.Idx.first h_S_) + chan y ch := by
  show Ideal.hostReduceAdd reducesTo_S64x256x56x56_S256_d0_2_3 y (init (Shape.Idx.first h_S_)) (ix1 ch) = _
  unfold Ideal.hostReduceAdd chan
  refine congrArg (init (Shape.Idx.first h_S_) + ·) ?_
  refine sum_second_eq y ch _ fun i => ⟨fun h => ?_, fun h => ?_⟩
  · have e := congrArg (fun t : S256.Idx => (t 0).val) h
    exact (Shape.ReducesTo.drop_apply_val_of_eq reducesTo_S64x256x56x56_S256_d0_2_3 i 0 1).symm.trans e
  · funext b
    refine Fin.ext ?_
    match b with
    | ⟨0, _⟩ => exact (Shape.ReducesTo.drop_apply_val_of_eq reducesTo_S64x256x56x56_S256_d0_2_3 i 0 1).trans h

/-- The mean at a channel. -/
theorem mean_at (x0 : FVec Ideal S64x256x56x56 .f32) (ch : Fin 256) :
    val_main_v2 (F := Ideal) x0 (ix1 ch) = Ideal.div (chan x0 ch) (Ideal.ofBits .f32 0x48440000#32) := by
  rw [val_main_v2_apply, val_main_v1_apply, val_main_cst_0_apply]
  unfold val_main_v0
  rw [sum_at, val_main_cst_apply]
  simp only [Ideal.hostDivf_def, Ideal.ofBits_def, Ideal.ofBits_zero_f32, zero_add]

/-- The mean, spread back over the array, is the channel's mean at every entry of the channel. -/
theorem centered_at (x0 : FVec Ideal S64x256x56x56 .f32) (n : Fin 64) (ch : Fin 256) (h w : Fin 56) :
    val_main_v6 (F := Ideal) x0 (ix4 n ch h w)
      = (x0 (ix4 n ch h w) - val_main_v2 (F := Ideal) x0 (ix1 ch)) * (x0 (ix4 n ch h w) - val_main_v2 (F := Ideal) x0 (ix1 ch)) := by
  have hidx : idx_main_v3 (idx_main_v4 (ix4 n ch h w)) = ix1 ch := by
    funext a; match a with | ⟨0, _⟩ => rfl
  rw [val_main_v6_apply, val_main_v5_apply, val_main_v4_apply, val_main_v3_apply, hidx]
  simp only [Ideal.mulf_def, Ideal.subf_def]

/-- The variance at a channel. -/
theorem var_at (x0 : FVec Ideal S64x256x56x56 .f32) (ch : Fin 256) :
    val_main_v9 (F := Ideal) x0 (ix1 ch)
      = Ideal.div (chan (fun k => (x0 k - val_main_v2 (F := Ideal) x0 (ix1 ch)) * (x0 k - val_main_v2 (F := Ideal) x0 (ix1 ch))) ch)
          (Ideal.ofBits .f32 0x48440000#32) := by
  rw [val_main_v9_apply, val_main_v8_apply, val_main_cst_2_apply]
  unfold val_main_v7
  rw [sum_at, val_main_cst_1_apply]
  simp only [Ideal.hostDivf_def, Ideal.ofBits_def, Ideal.ofBits_zero_f32, zero_add]
  refine congrArg (Ideal.div · _) ?_
  unfold chan
  exact Finset.sum_congr rfl fun n _ => Finset.sum_congr rfl fun h _ => Finset.sum_congr rfl fun w _ => centered_at x0 n ch h w

end Cert.ReferenceIdeal.RefValue

end
-- ==== Proof.LibMoments.lean ====
/-
  Moments of finitely many reals, and the two forms of an affine normalisation, on the extended reals.
  With every sample a real number, a mean is a real, the mean of the squared deviations from the mean is the mean of
  the squares less the square of the mean, and `(x - m) / s * w + b = x * (w / s) + (b - m * (w / s))` for a nonzero
  real `s`; the quotients are the extended reals' (a product with the reciprocal of a nonzero real divisor).
  None of these survives an infinite entry (each moves a factor across a sum), which is why they are stated over reals.
-/
import Idealize.ShloMosaic.PureOps.Ideal
import Mathlib.Algebra.BigOperators.Field
import Mathlib.Tactic.FieldSimp
import Mathlib.Tactic.Ring
import Mathlib.Tactic.NormNum

namespace Idealize.ShloMosaic.Moments

open Idealize.ShloMosaic

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Over the reals: the mean of the squared deviations from the mean is the mean of the squares less the square of the
    mean (`N` the number of samples). -/
theorem mean_sq_dev {ι : Type*} [Fintype ι] (x : ι → ℝ) (N : ℝ) (hN : N ≠ 0) (hcard : (Fintype.card ι : ℝ) = N) :
    (∑ i, (x i - (∑ j, x j) / N) * (x i - (∑ j, x j) / N)) / N
      = (∑ i, x i * x i) / N - ((∑ j, x j) / N) * ((∑ j, x j) / N) := by
  have hS : ∑ j, x j = N * ((∑ j, x j) / N) := by field_simp
  generalize (∑ j, x j) / N = μ at hS ⊢
  have hexp : ∀ i, (x i - μ) * (x i - μ) = x i * x i - 2 * μ * x i + μ * μ := fun i => by ring
  have h1 : ∑ i, (x i - μ) * (x i - μ) = (∑ i, x i * x i) - 2 * μ * (∑ i, x i) + N * (μ * μ) := by
    simp only [hexp, Finset.sum_add_distrib, Finset.sum_sub_distrib, ← Finset.mul_sum, Finset.sum_const,
      Finset.card_univ, nsmul_eq_mul, hcard]
    ring
  rw [h1, hS]
  field_simp
  ring

/-- A mean of reals on the extended reals is the real mean. -/
theorem div_sum_coe {ι : Type*} [Fintype ι] (r : ι → ℝ) (N : ℝ) (hN : N ≠ 0) :
    Ideal.div (∑ i, (r i : EReal)) (N : EReal) = (((∑ i, r i) / N : ℝ) : EReal) := by
  rw [← coe_sum, Ideal.div_coe hN, ← EReal.coe_mul]
  congr 1
  field_simp

/-- On the extended reals, every sample a real: the mean of the squared deviations from the mean is the mean of the
    squares less the square of the mean. -/
theorem var_centered_eq {ι : Type*} [Fintype ι] (r : ι → ℝ) (N : ℝ) (hN : N ≠ 0) (hcard : (Fintype.card ι : ℝ) = N) :
    Ideal.div (∑ i, ((r i : EReal) - Ideal.div (∑ j, (r j : EReal)) (N : EReal))
        * ((r i : EReal) - Ideal.div (∑ j, (r j : EReal)) (N : EReal))) (N : EReal)
      = Ideal.div (∑ i, (r i : EReal) * (r i : EReal)) (N : EReal)
        - Ideal.div (∑ j, (r j : EReal)) (N : EReal) * Ideal.div (∑ j, (r j : EReal)) (N : EReal) := by
  rw [div_sum_coe r N hN]
  have e1 : ∀ i, ((r i : EReal) - (((∑ j, r j) / N : ℝ) : EReal)) * ((r i : EReal) - (((∑ j, r j) / N : ℝ) : EReal))
      = (((r i - (∑ j, r j) / N) * (r i - (∑ j, r j) / N) : ℝ) : EReal) := fun i => by
    rw [← EReal.coe_sub, ← EReal.coe_mul]
  have e2 : ∀ i, (r i : EReal) * (r i : EReal) = ((r i * r i : ℝ) : EReal) := fun i => (EReal.coe_mul _ _).symm
  simp only [e1, e2]
  rw [div_sum_coe _ N hN, div_sum_coe _ N hN, ← EReal.coe_mul, ← EReal.coe_sub, mean_sq_dev r N hN hcard]

/-- The two forms of an affine normalisation agree for a nonzero real divisor. -/
theorem affine_forms (x m w b s : ℝ) (hs : s ≠ 0) :
    Ideal.div ((x : EReal) - (m : EReal)) (s : EReal) * (w : EReal) + (b : EReal)
      = (x : EReal) * Ideal.div (w : EReal) (s : EReal) + ((b : EReal) - (m : EReal) * Ideal.div (w : EReal) (s : EReal)) := by
  rw [Ideal.div_coe hs, Ideal.div_coe hs]
  rw [← EReal.coe_sub, ← EReal.coe_mul, ← EReal.coe_mul, ← EReal.coe_add, ← EReal.coe_mul, ← EReal.coe_mul, ← EReal.coe_mul,
    ← EReal.coe_sub, ← EReal.coe_add]
  congr 1
  field_simp
  ring

/-- The square root of a positive real, on the extended reals, is a nonzero real. -/
theorem sqrt_pos_coe {r : ℝ} (hr : 0 < r) : Ideal.sqrt (r : EReal) = ((Real.sqrt r : ℝ) : EReal) ∧ Real.sqrt r ≠ 0 := by
  refine ⟨?_, (Real.sqrt_pos.mpr hr).ne'⟩
  rw [Ideal.sqrt_coe, if_neg (not_lt.mpr hr.le)]

end Idealize.ShloMosaic.Moments
-- ==== Proof.LibReal.lean ====
/-
  Extended reals that are real numbers. An entry of a finite input is one (its absolute value lies below +infinity);
  sums, differences, products, finite sums and quotients by a nonzero real of such entries are again real, and so is the
  value of any f32 pattern whose exponent field is not all ones. What an algebraic law that needs finiteness is applied
  to is first shown to be of this kind.
-/
import Idealize.ShloMosaic.PureOps.Ideal
import Mathlib.Algebra.BigOperators.Group.Finset.Basic

namespace Idealize.ShloMosaic.RealEntries

open Idealize.ShloMosaic

/-- The extended real `a` is a real number. -/
def IsReal (a : EReal) : Prop := ∃ r : ℝ, a = (r : EReal)

theorem IsReal.coe (r : ℝ) : IsReal (r : EReal) := ⟨r, rfl⟩
theorem IsReal.zero : IsReal 0 := ⟨0, rfl⟩
theorem IsReal.one : IsReal 1 := ⟨1, rfl⟩

theorem IsReal.add {a b : EReal} (ha : IsReal a) (hb : IsReal b) : IsReal (a + b) := by
  obtain ⟨x, rfl⟩ := ha; obtain ⟨y, rfl⟩ := hb; exact ⟨x + y, (EReal.coe_add x y).symm⟩
theorem IsReal.sub {a b : EReal} (ha : IsReal a) (hb : IsReal b) : IsReal (a - b) := by
  obtain ⟨x, rfl⟩ := ha; obtain ⟨y, rfl⟩ := hb; exact ⟨x - y, (EReal.coe_sub x y).symm⟩
theorem IsReal.mul {a b : EReal} (ha : IsReal a) (hb : IsReal b) : IsReal (a * b) := by
  obtain ⟨x, rfl⟩ := ha; obtain ⟨y, rfl⟩ := hb; exact ⟨x * y, (EReal.coe_mul x y).symm⟩

theorem IsReal.sum {ι : Type*} (s : Finset ι) (f : ι → EReal) (h : ∀ i ∈ s, IsReal (f i)) : IsReal (∑ i ∈ s, f i) := by
  classical
  induction s using Finset.induction_on with
  | empty => rw [Finset.sum_empty]; exact IsReal.zero
  | insert a s ha ih =>
    rw [Finset.sum_insert ha]
    exact (h a (Finset.mem_insert_self a s)).add (ih fun i hi => h i (Finset.mem_insert_of_mem hi))

/-- A quotient by a nonzero real. -/
theorem IsReal.div_coe {a : EReal} (ha : IsReal a) {y : ℝ} (hy : y ≠ 0) : IsReal (Ideal.div a (y : EReal)) := by
  rw [Ideal.div_coe hy]; exact ha.mul (IsReal.coe _)

/-- An f32 pattern whose exponent field is not all ones denotes a real number. -/
theorem isReal_ofBits_f32 (b : BitVec 32) (h : (b.extractLsb' 23 8).toNat ≠ 2 ^ 8 - 1) : IsReal (Ideal.ofBits .f32 b) := by
  show IsReal (Ideal.ieee 8 23 b)
  unfold Ideal.ieee
  dsimp only
  rw [if_neg h]
  split_ifs <;> exact ⟨_, rfl⟩

/-- An extended real whose absolute value lies below +infinity is a real number. -/
theorem isReal_of_abs_lt_top {a : EReal} (h : max a (-a) < ⊤) : IsReal a := by
  induction a using EReal.rec with
  | bot => simp at h
  | coe r => exact ⟨r, rfl⟩
  | top => simp at h

end Idealize.ShloMosaic.RealEntries
-- ==== Proof.KI.StatsBridge.lean ====
/-
  The two passes' common ground. After the statistics pass the mean array holds, at channel `ch`, the channel's sum
  over the sample count, and the variance array the channel's sum of squares over that count less the square of the mean.
  Read as rows of 256 they are the reference's batch mean and batch variance: the mean on the nose (both are one sum, in
  two groupings), the variance by the identity "mean of squared deviations = mean of squares - square of the mean", which
  needs every entry of the input to be a real number.
-/
import proofs.«106418_j11261404250602_2_alg».proof.Proof.KI.Whole
import proofs.«106418_j11261404250602_2_alg».proof.Proof.KI.StatsTotal
import proofs.«106418_j11261404250602_2_alg».proof.Proof.RefStats
import proofs.«106418_j11261404250602_2_alg».proof.Proof.LibMoments
import proofs.«106418_j11261404250602_2_alg».proof.Proof.LibReal

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Idealize.ShloMosaic.IndexSums Idealize.ShloMosaic.Moments Idealize.ShloMosaic.RealEntries
open Cert.ReferenceIdeal.Read (val_main_v2 val_main_v9)

variable (m : (ℓ : Loc nD τ sig) → Buf (Elt Ideal) ℓ) (ρ : Dev nD → PrngReg)

/-- The input array as launched. -/
abbrev X0 (c : Dev nD) : S64x256x56x56.Idx → EReal := m ((c : Thread nD τ).loc main_arg0)

/-- The sample count per channel, 64 * 56 * 56, as the printed word and as a real. -/
abbrev countWord : EReal := Ideal.ofBits .f32 0x48440000#32
theorem count_real : countWord = ((200704 : ℝ) : EReal) := by
  show Ideal.ofBits .f32 0x48440000#32 = _
  simp [Ideal.ofBits, Ideal.ieee, -EReal.coe_mul]; norm_num

/-- The mean array after the statistics pass, at a channel. -/
theorem mean_arr_at (c : Dev nD) (ch : Fin 256) :
    (E1 m ρ c (Proc.devRef .tc main_v0_0) : S1x256.Idx → EReal) (ix2 (0 : Fin 1) ch) = Ideal.div (chanSum (X0 m c) ch) countWord := by
  have e1 : E1 m ρ c (Proc.devRef .tc main_v0_0) = (dat0 (V0 m ρ) c).arrAt 1 cfg0.N := E1_arr m ρ c 1
  rw [e1, mean_written (V0 m ρ) c _ (congrArg Prod.fst (outs_last (V0 m ρ) c))]
  show k0_pay5 (F := Ideal) _ (ix2 (0 : Fin 1) ch) = _
  rw [mean_row_at, (acc_total (V0 m ρ) c ch).1]

/-- The variance array after the statistics pass, at a channel. -/
theorem var_arr_at (c : Dev nD) (ch : Fin 256) :
    (E1 m ρ c (Proc.devRef .tc main_v0_1) : S1x256.Idx → EReal) (ix2 (0 : Fin 1) ch)
      = Ideal.div (chanSum (fun k => X0 m c k * X0 m c k) ch) countWord
        - Ideal.div (chanSum (X0 m c) ch) countWord * Ideal.div (chanSum (X0 m c) ch) countWord := by
  have e1 : E1 m ρ c (Proc.devRef .tc main_v0_1) = (dat0 (V0 m ρ) c).arrAt 2 cfg0.N := E1_arr m ρ c 2
  rw [e1, var_written (V0 m ρ) c _ (congrArg Prod.snd (outs_last (V0 m ρ) c))]
  show k0_pay6 (F := Ideal) _ _ (ix2 (0 : Fin 1) ch) = _
  rw [var_row_at, (acc_total (V0 m ρ) c ch).1, (acc_total (V0 m ρ) c ch).2]

/-- The kernel's batch mean, as the row the host operations read, is the reference's. -/
theorem mean_row_eq (c : Dev nD) :
    (fun i => shapeCast main_v1.ty.shape (E1 m ρ c (Proc.devRef .tc main_v0_0)) shapeCasts_S1x256_S256 i)
      = val_main_v2 (F := Ideal) (X0 m c) := by
  funext i
  obtain ⟨ch, rfl⟩ : ∃ ch : Fin 256, i = ix1 ch := ⟨i 0, eq_ix1 i⟩
  show shapeCast S256 (E1 m ρ c (Proc.devRef .tc main_v0_0) : S1x256.Idx → EReal) shapeCasts_S1x256_S256 (ix1 ch) = _
  rw [shapeCast_1a_a_apply, mean_arr_at, Cert.ReferenceIdeal.RefValue.mean_at]
  rfl

/-- A triple sum over batch, height and width as one sum over the triples. -/
theorem triple_sum (f : Fin 64 → Fin 56 → Fin 56 → EReal) :
    (∑ n : Fin 64, ∑ h : Fin 56, ∑ w : Fin 56, f n h w) = ∑ p : Fin 64 × Fin 56 × Fin 56, f p.1 p.2.1 p.2.2 := by
  simp only [Fintype.sum_prod_type]

/-- The kernel's batch variance, as the row the host operations read, is the reference's — every input entry a real. -/
theorem var_row_eq (c : Dev nD) (hreal : ∀ k, IsReal (X0 m c k)) :
    (fun i => shapeCast main_v2.ty.shape (E1 m ρ c (Proc.devRef .tc main_v0_1)) shapeCasts_S1x256_S256 i)
      = val_main_v9 (F := Ideal) (X0 m c) := by
  choose r hr using hreal
  funext i
  obtain ⟨ch, rfl⟩ : ∃ ch : Fin 256, i = ix1 ch := ⟨i 0, eq_ix1 i⟩
  show shapeCast S256 (E1 m ρ c (Proc.devRef .tc main_v0_1) : S1x256.Idx → EReal) shapeCasts_S1x256_S256 (ix1 ch) = _
  rw [shapeCast_1a_a_apply, var_arr_at, Cert.ReferenceIdeal.RefValue.var_at, Cert.ReferenceIdeal.RefValue.mean_at]
  unfold chanSum Cert.ReferenceIdeal.RefValue.chan
  have hN : (200704 : ℝ) ≠ 0 := by norm_num
  have hcard : (Fintype.card (Fin 64 × Fin 56 × Fin 56) : ℝ) = 200704 := by
    simp only [Fintype.card_prod, Fintype.card_fin]; norm_num
  have key := var_centered_eq (fun p : Fin 64 × Fin 56 × Fin 56 => r (ix4 p.1 ch p.2.1 p.2.2)) 200704 hN hcard
  simp only [triple_sum, hr, count_real]
  exact key.symm

end Cert.KernelIdeal.Fr

end
-- ==== Proof.KI.HostDiv.lean ====
/-
  The divergence. Between the two passes the host computes, from the batch mean and variance rows and the six per-channel inputs, the symmetric divergence of the two diagonal Gaussians — the program's scalar result. It applies to the kernel's rows exactly the operations the reference applies to its own batch mean and variance; so once those rows are the reference's, the scalar is the reference's scalar.
-/
import proofs.«106418_j11261404250602_2_alg».proof.Proof.KI.Whole
import proofs.«106418_j11261404250602_2_alg».proof.Proof.Gen.ReferenceIdeal.Read
import Idealize.ShloMosaic.Lib.StableHlo.Run

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.StableHlo
open Cert.ReferenceIdeal.Read (val_main_v2 val_main_v9 val_main_v58 val_main_v65 val_main_v78)

variable (m : (ℓ : Loc nD τ sig) → Buf (Elt F) ℓ) (ρ : Dev nD → PrngReg)

set_option maxHeartbeats 8000000 in
/-- The scalar result after the host stretch is the reference's, given that the two statistics rows are. -/
theorem div_read (c : Dev nD)
    (hbm : (fun i => shapeCast main_v1.ty.shape (E1 m ρ c (Proc.devRef .tc main_v0_0)) shapeCasts_S1x256_S256 i)
      = val_main_v2 (F := F) (m ((c : Thread nD τ).loc main_arg0)))
    (hbv : (fun i => shapeCast main_v2.ty.shape (E1 m ρ c (Proc.devRef .tc main_v0_1)) shapeCasts_S1x256_S256 i)
      = val_main_v9 (F := F) (m ((c : Thread nD τ).loc main_arg0))) :
    E3 m ρ c (Proc.devRef .tc main_v51) = val_main_v58 (F := F) (m ((c : Thread nD τ).loc main_arg0)) (m ((c : Thread nD τ).loc main_arg1)) (m ((c : Thread nD τ).loc main_arg2)) (m ((c : Thread nD τ).loc main_arg5)) (m ((c : Thread nD τ).loc main_arg6)) := by
  have a1 : E1 m ρ c (Proc.devRef .tc main_arg1) = (m ((c : Thread nD τ).loc main_arg1)) := (E1_of_ne m ρ c main_arg1 (by decide)).trans rfl
  have a2 : E1 m ρ c (Proc.devRef .tc main_arg2) = (m ((c : Thread nD τ).loc main_arg2)) := (E1_of_ne m ρ c main_arg2 (by decide)).trans rfl
  have a3 : E1 m ρ c (Proc.devRef .tc main_arg3) = (m ((c : Thread nD τ).loc main_arg3)) := (E1_of_ne m ρ c main_arg3 (by decide)).trans rfl
  have a4 : E1 m ρ c (Proc.devRef .tc main_arg4) = (m ((c : Thread nD τ).loc main_arg4)) := (E1_of_ne m ρ c main_arg4 (by decide)).trans rfl
  have a5 : E1 m ρ c (Proc.devRef .tc main_arg5) = (m ((c : Thread nD τ).loc main_arg5)) := (E1_of_ne m ρ c main_arg5 (by decide)).trans rfl
  have a6 : E1 m ρ c (Proc.devRef .tc main_arg6) = (m ((c : Thread nD τ).loc main_arg6)) := (E1_of_ne m ρ c main_arg6 (by decide)).trans rfl
  have a7 : E1 m ρ c (Proc.devRef .tc main_arg7) = (m ((c : Thread nD τ).loc main_arg7)) := (E1_of_ne m ρ c main_arg7 (by decide)).trans rfl
  show StableHlo.after main_part1_ops0 (StableHlo.after main_part0_ops0 (E1 m ρ c)) (Proc.devRef .tc main_v51) = _
  simp only [main_part1_ops0, main_part0_ops0]
  after_results_simp
  simp only [hbm, hbv, a1, a2, a3, a4, a5, a6, a7]
  rfl

end Cert.KernelIdeal.Fr

end
-- ==== Proof.KI.HostScale.lean ====
/-
  The scale row. The host blends the running moments with the prior and forms scale = weight / sqrt(running_var + eps) per channel; the running variance is the reference's own stage once the statistics rows are the reference's.
-/
import proofs.«106418_j11261404250602_2_alg».proof.Proof.KI.Whole
import proofs.«106418_j11261404250602_2_alg».proof.Proof.Gen.ReferenceIdeal.Read
import Idealize.ShloMosaic.Lib.StableHlo.Run

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.StableHlo
open Cert.ReferenceIdeal.Read (val_main_v2 val_main_v9 val_main_v58 val_main_v65 val_main_v78)

variable (m : (ℓ : Loc nD τ sig) → Buf (Elt F) ℓ) (ρ : Dev nD → PrngReg)

set_option maxHeartbeats 8000000 in
/-- The scale row after the host stretch: the weight over the square root of the reference's running variance plus eps. -/
theorem scale_read (c : Dev nD)
    (hbm : (fun i => shapeCast main_v1.ty.shape (E1 m ρ c (Proc.devRef .tc main_v0_0)) shapeCasts_S1x256_S256 i)
      = val_main_v2 (F := F) (m ((c : Thread nD τ).loc main_arg0)))
    (hbv : (fun i => shapeCast main_v2.ty.shape (E1 m ρ c (Proc.devRef .tc main_v0_1)) shapeCasts_S1x256_S256 i)
      = val_main_v9 (F := F) (m ((c : Thread nD τ).loc main_arg0))) :
    E3 m ρ c (Proc.devRef .tc main_v75) = (Host.divf (m ((c : Thread nD τ).loc main_arg3)) (Host.sqrt (addf (val_main_v78 (F := F) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7))) (broadcastInDim S256 ![] bcast_S_S256 (constant S_ .f32 0x3727C5AC#32))))) := by
  have a1 : E1 m ρ c (Proc.devRef .tc main_arg1) = (m ((c : Thread nD τ).loc main_arg1)) := (E1_of_ne m ρ c main_arg1 (by decide)).trans rfl
  have a2 : E1 m ρ c (Proc.devRef .tc main_arg2) = (m ((c : Thread nD τ).loc main_arg2)) := (E1_of_ne m ρ c main_arg2 (by decide)).trans rfl
  have a3 : E1 m ρ c (Proc.devRef .tc main_arg3) = (m ((c : Thread nD τ).loc main_arg3)) := (E1_of_ne m ρ c main_arg3 (by decide)).trans rfl
  have a4 : E1 m ρ c (Proc.devRef .tc main_arg4) = (m ((c : Thread nD τ).loc main_arg4)) := (E1_of_ne m ρ c main_arg4 (by decide)).trans rfl
  have a5 : E1 m ρ c (Proc.devRef .tc main_arg5) = (m ((c : Thread nD τ).loc main_arg5)) := (E1_of_ne m ρ c main_arg5 (by decide)).trans rfl
  have a6 : E1 m ρ c (Proc.devRef .tc main_arg6) = (m ((c : Thread nD τ).loc main_arg6)) := (E1_of_ne m ρ c main_arg6 (by decide)).trans rfl
  have a7 : E1 m ρ c (Proc.devRef .tc main_arg7) = (m ((c : Thread nD τ).loc main_arg7)) := (E1_of_ne m ρ c main_arg7 (by decide)).trans rfl
  show StableHlo.after main_part1_ops0 (StableHlo.after main_part0_ops0 (E1 m ρ c)) (Proc.devRef .tc main_v75) = _
  simp only [main_part1_ops0, main_part0_ops0]
  after_results_simp
  simp only [hbm, hbv, a1, a2, a3, a4, a5, a6, a7]
  rfl

end Cert.KernelIdeal.Fr

end
-- ==== Proof.KI.HostShift.lean ====
/-
  The shift row: shift = bias - running_mean * scale per channel, the running mean and variance the reference's own stages once the statistics rows are the reference's.
-/
import proofs.«106418_j11261404250602_2_alg».proof.Proof.KI.Whole
import proofs.«106418_j11261404250602_2_alg».proof.Proof.Gen.ReferenceIdeal.Read
import Idealize.ShloMosaic.Lib.StableHlo.Run

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.StableHlo
open Cert.ReferenceIdeal.Read (val_main_v2 val_main_v9 val_main_v58 val_main_v65 val_main_v78)

variable (m : (ℓ : Loc nD τ sig) → Buf (Elt F) ℓ) (ρ : Dev nD → PrngReg)

set_option maxHeartbeats 8000000 in
/-- The shift row after the host stretch: the bias less the reference's running mean times the scale row. -/
theorem shift_read (c : Dev nD)
    (hbm : (fun i => shapeCast main_v1.ty.shape (E1 m ρ c (Proc.devRef .tc main_v0_0)) shapeCasts_S1x256_S256 i)
      = val_main_v2 (F := F) (m ((c : Thread nD τ).loc main_arg0)))
    (hbv : (fun i => shapeCast main_v2.ty.shape (E1 m ρ c (Proc.devRef .tc main_v0_1)) shapeCasts_S1x256_S256 i)
      = val_main_v9 (F := F) (m ((c : Thread nD τ).loc main_arg0))) :
    E3 m ρ c (Proc.devRef .tc main_v77) = subf (m ((c : Thread nD τ).loc main_arg4)) (mulf (val_main_v65 (F := F) (m ((c : Thread nD τ).loc main_arg0)) (m ((c : Thread nD τ).loc main_arg1)) (m ((c : Thread nD τ).loc main_arg5)) (m ((c : Thread nD τ).loc main_arg7))) (Host.divf (m ((c : Thread nD τ).loc main_arg3)) (Host.sqrt (addf (val_main_v78 (F := F) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7))) (broadcastInDim S256 ![] bcast_S_S256 (constant S_ .f32 0x3727C5AC#32)))))) := by
  have a1 : E1 m ρ c (Proc.devRef .tc main_arg1) = (m ((c : Thread nD τ).loc main_arg1)) := (E1_of_ne m ρ c main_arg1 (by decide)).trans rfl
  have a2 : E1 m ρ c (Proc.devRef .tc main_arg2) = (m ((c : Thread nD τ).loc main_arg2)) := (E1_of_ne m ρ c main_arg2 (by decide)).trans rfl
  have a3 : E1 m ρ c (Proc.devRef .tc main_arg3) = (m ((c : Thread nD τ).loc main_arg3)) := (E1_of_ne m ρ c main_arg3 (by decide)).trans rfl
  have a4 : E1 m ρ c (Proc.devRef .tc main_arg4) = (m ((c : Thread nD τ).loc main_arg4)) := (E1_of_ne m ρ c main_arg4 (by decide)).trans rfl
  have a5 : E1 m ρ c (Proc.devRef .tc main_arg5) = (m ((c : Thread nD τ).loc main_arg5)) := (E1_of_ne m ρ c main_arg5 (by decide)).trans rfl
  have a6 : E1 m ρ c (Proc.devRef .tc main_arg6) = (m ((c : Thread nD τ).loc main_arg6)) := (E1_of_ne m ρ c main_arg6 (by decide)).trans rfl
  have a7 : E1 m ρ c (Proc.devRef .tc main_arg7) = (m ((c : Thread nD τ).loc main_arg7)) := (E1_of_ne m ρ c main_arg7 (by decide)).trans rfl
  show StableHlo.after main_part1_ops0 (StableHlo.after main_part0_ops0 (E1 m ρ c)) (Proc.devRef .tc main_v77) = _
  simp only [main_part1_ops0, main_part0_ops0]
  after_results_simp
  simp only [hbm, hbv, a1, a2, a3, a4, a5, a6, a7]
  rfl

end Cert.KernelIdeal.Fr

end
-- ==== Proof.RefOut.lean ====
/-
  The reference's normalised output read at an index, on the extended reals:
  at (n, ch, h, w) it is (x(n, ch, h, w) - running_mean(ch)) / sqrt(running_var(ch) + eps) * weight(ch) + bias(ch),
  every per-channel quantity spread over batch, height and width.
-/
import proofs.«106418_j11261404250602_2_alg».proof.Proof.Gen.ReferenceIdeal.Read
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.ValueIdx

theorem out_at (x0 : FVec Ideal S64x256x56x56 .f32) (x1 x2 x3 x4 x5 x6 : FVec Ideal S256 .f32) (x7 : FVec Ideal S1 .f32)
    (n : Fin 64) (ch : Fin 256) (h w : Fin 56) :
    val_main_v93 (F := Ideal) x0 x1 x2 x3 x4 x5 x6 x7 (ix4 n ch h w)
      = Ideal.div (x0 (ix4 n ch h w) - val_main_v65 (F := Ideal) x0 x1 x5 x7 (ix1 ch))
          (Ideal.sqrt (val_main_v78 (F := Ideal) x0 x1 x2 x5 x6 x7 (ix1 ch) + Ideal.ofBits .f32 0x3727C5AC#32)) * x3 (ix1 ch)
        + x4 (ix1 ch) := by
  have e1 : idx_main_v79 (idx_main_v80 (ix4 n ch h w)) = ix1 ch := by funext a; match a with | ⟨0, _⟩ => rfl
  have e2 : idx_main_v82 (idx_main_v86 (ix4 n ch h w)) = ix1 ch := by funext a; match a with | ⟨0, _⟩ => rfl
  have e3 : idx_main_v88 (idx_main_v89 (ix4 n ch h w)) = ix1 ch := by funext a; match a with | ⟨0, _⟩ => rfl
  have e4 : idx_main_v91 (idx_main_v92 (ix4 n ch h w)) = ix1 ch := by funext a; match a with | ⟨0, _⟩ => rfl
  rw [val_main_v93_apply, val_main_v90_apply, val_main_v87_apply, val_main_v81_apply, val_main_v80_apply, val_main_v79_apply, e1,
    val_main_v86_apply, val_main_v85_apply, val_main_v84_apply, val_main_v82_apply, e2, val_main_v83_apply, val_main_cst_27_apply,
    val_main_v89_apply, val_main_v88_apply, e3, val_main_v92_apply, val_main_v91_apply, e4]
  simp only [Ideal.addf_def, Ideal.mulf_def, Ideal.subf_def, Ideal.hostDivf_def, Ideal.hostUnary_sqrt_def, Ideal.ofBits_def]

end Cert.ReferenceIdeal.RefValue

end
-- ==== Proof.RefReal.lean ====
/-
  The reference's per-channel quantities are real numbers when the inputs are: the batch mean and variance (finite sums
  of reals over a nonzero real count), and the running mean and running variance blended from them, the running moments,
  the prior and finite literals by sums, differences and products. This is what lets the affine law — which moves a
  factor across a sum — be applied to them.
-/
import proofs.«106418_j11261404250602_2_alg».proof.Proof.RefStats
import proofs.«106418_j11261404250602_2_alg».proof.Proof.LibReal

noncomputable section

namespace Cert.ReferenceIdeal.RefValue

open Cert.ReferenceIdeal Cert.ReferenceIdeal.Gen Cert.ReferenceIdeal.Read
open Idealize.ShloMosaic Idealize.ShloMosaic.ValueIdx Idealize.ShloMosaic.RealEntries

/-- The sample count 64 * 56 * 56 as a real. -/
theorem count_word : Ideal.ofBits .f32 0x48440000#32 = ((200704 : ℝ) : EReal) := by
  simp [Ideal.ofBits, Ideal.ieee, -EReal.coe_mul]; norm_num

/-- A re-laid array has real entries when the array does. -/
theorem isReal_shapeCast {s t : Shape} (v : s.Idx → EReal) (h : s.ShapeCasts t) (j : t.Idx) (hv : ∀ k, IsReal (v k)) :
    IsReal (shapeCast t v h j) := by
  unfold shapeCast; exact hv _

/-- A channel's sum of real entries is real. -/
theorem chan_real (X : FVec Ideal S64x256x56x56 .f32) (hX : ∀ k, IsReal (X k)) (ch : Fin 256) : IsReal (chan X ch) := by
  unfold chan
  exact IsReal.sum _ _ fun n _ => IsReal.sum _ _ fun h _ => IsReal.sum _ _ fun w _ => hX _

theorem mean_real (x0 : FVec Ideal S64x256x56x56 .f32) (h0 : ∀ k, IsReal (x0 k)) (ch : Fin 256) :
    IsReal (val_main_v2 (F := Ideal) x0 (ix1 ch)) := by
  rw [mean_at, count_word]
  exact (chan_real x0 h0 ch).div_coe (by norm_num)

theorem var_real (x0 : FVec Ideal S64x256x56x56 .f32) (h0 : ∀ k, IsReal (x0 k)) (ch : Fin 256) :
    IsReal (val_main_v9 (F := Ideal) x0 (ix1 ch)) := by
  rw [var_at, count_word]
  refine (chan_real _ (fun k => ?_) ch).div_coe (by norm_num)
  exact ((h0 k).sub (mean_real x0 h0 ch)).mul ((h0 k).sub (mean_real x0 h0 ch))

/-- Splits a goal "this arithmetic expression is real" down to its leaves. -/
macro "real_arith" : tactic => `(tactic| repeat (first
  | exact IsReal.zero | exact IsReal.one | exact IsReal.coe _
  | apply IsReal.sub | apply IsReal.mul | apply IsReal.add
  | (apply isReal_ofBits_f32; decide)
  | (apply isReal_shapeCast; assumption)
  | assumption))

/-- The running mean on a channel is real. -/
theorem running_mean_real (x0 : FVec Ideal S64x256x56x56 .f32) (x1 x5 : FVec Ideal S256 .f32) (x7 : FVec Ideal S1 .f32)
    (h0 : ∀ k, IsReal (x0 k)) (h1 : ∀ k, IsReal (x1 k)) (h5 : ∀ k, IsReal (x5 k)) (h7 : ∀ k, IsReal (x7 k)) (ch : Fin 256) :
    IsReal (val_main_v65 (F := Ideal) x0 x1 x5 x7 (ix1 ch)) := by
  have hm := mean_real x0 h0 ch
  have a1 := h1 (ix1 ch)
  have a5 := h5 (ix1 ch)
  simp only [val_main_v65_apply, val_main_v61_apply, val_main_v60_apply, val_main_v64_apply, val_main_v63_apply, val_main_v62_apply,
    val_main_v16_apply, val_main_v13_apply, val_main_v12_apply, val_main_v15_apply, val_main_v14_apply,
    val_main_cst_4_apply, val_main_cst_5_apply, val_main_cst_24_apply,
    Ideal.addf_def, Ideal.mulf_def, Ideal.subf_def, Ideal.ofBits_def]
  unfold val_main_v59
  real_arith

/-- The running variance on a channel is real. -/
theorem running_var_real (x0 : FVec Ideal S64x256x56x56 .f32) (x1 x2 x5 x6 : FVec Ideal S256 .f32) (x7 : FVec Ideal S1 .f32)
    (h0 : ∀ k, IsReal (x0 k)) (h1 : ∀ k, IsReal (x1 k)) (h2 : ∀ k, IsReal (x2 k)) (h5 : ∀ k, IsReal (x5 k))
    (h6 : ∀ k, IsReal (x6 k)) (h7 : ∀ k, IsReal (x7 k)) (ch : Fin 256) :
    IsReal (val_main_v78 (F := Ideal) x0 x1 x2 x5 x6 x7 (ix1 ch)) := by
  have hm := mean_real x0 h0 ch
  have hv := var_real x0 h0 ch
  have a1 := h1 (ix1 ch)
  have a2 := h2 (ix1 ch)
  have a5 := h5 (ix1 ch)
  have a6 := h6 (ix1 ch)
  simp only [val_main_v78_apply, val_main_v71_apply, val_main_v67_apply, val_main_v66_apply, val_main_v70_apply, val_main_v69_apply,
    val_main_v68_apply, val_main_v21_apply, val_main_v18_apply, val_main_v17_apply, val_main_v20_apply, val_main_v19_apply,
    val_main_v11_apply, val_main_v10_apply, val_main_v77_apply, val_main_v76_apply, val_main_v73_apply, val_main_v72_apply,
    val_main_v75_apply, val_main_v74_apply, val_main_v16_apply, val_main_v13_apply, val_main_v12_apply, val_main_v15_apply, val_main_v14_apply,
    val_main_cst_3_apply, val_main_cst_4_apply, val_main_cst_5_apply, val_main_cst_6_apply, val_main_cst_7_apply,
    val_main_cst_25_apply, val_main_cst_26_apply,
    Ideal.addf_def, Ideal.mulf_def, Ideal.subf_def, Ideal.ofBits_def]
  unfold val_main_v59
  real_arith

end Cert.ReferenceIdeal.RefValue

end
-- ==== Proof.KI.OutBridge.lean ====
/-
  The two outputs agree. The affine pass leaves x * scale + shift with scale = weight / s and
  shift = bias - running_mean * (weight / s), s = sqrt(running_var + eps); the reference computes
  (x - running_mean) / s * weight + bias. The running moments are the same numbers on both sides (the host stretch
  applies the reference's own operations to the reference's own batch statistics), every quantity in sight is a real
  number, and s is a positive real because running_var + eps is — so the two forms are one value. The scalar result is
  the reference's scalar for the first of these reasons alone.
-/
import proofs.«106418_j11261404250602_2_alg».proof.Proof.KI.AffineValue
import proofs.«106418_j11261404250602_2_alg».proof.Proof.KI.StatsBridge
import proofs.«106418_j11261404250602_2_alg».proof.Proof.KI.HostDiv
import proofs.«106418_j11261404250602_2_alg».proof.Proof.KI.HostScale
import proofs.«106418_j11261404250602_2_alg».proof.Proof.KI.HostShift
import proofs.«106418_j11261404250602_2_alg».proof.Proof.RefOut
import proofs.«106418_j11261404250602_2_alg».proof.Proof.RefReal
import proofs.«106418_j11261404250602_2_alg».proof.Proof.LibMoments
import proofs.«106418_j11261404250602_2_alg».proof.Proof.LibReal

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Idealize.ShloMosaic.Moments Idealize.ShloMosaic.RealEntries
open Cert.ReferenceIdeal.Read (val_main_v2 val_main_v9 val_main_v58 val_main_v65 val_main_v78 val_main_v93)
open Cert.ReferenceIdeal.RefValue (running_mean_real running_var_real out_at)

variable (m : (ℓ : Loc nD τ sig) → Buf (Elt Ideal) ℓ) (ρ : Dev nD → PrngReg)

/-- The per-channel inputs as launched. -/
abbrev Y1 (c : Dev nD) : FVec Ideal S256 .f32 := m ((c : Thread nD τ).loc main_arg1)
abbrev Y2 (c : Dev nD) : FVec Ideal S256 .f32 := m ((c : Thread nD τ).loc main_arg2)
abbrev Y3 (c : Dev nD) : FVec Ideal S256 .f32 := m ((c : Thread nD τ).loc main_arg3)
abbrev Y4 (c : Dev nD) : FVec Ideal S256 .f32 := m ((c : Thread nD τ).loc main_arg4)
abbrev Y5 (c : Dev nD) : FVec Ideal S256 .f32 := m ((c : Thread nD τ).loc main_arg5)
abbrev Y6 (c : Dev nD) : FVec Ideal S256 .f32 := m ((c : Thread nD τ).loc main_arg6)
abbrev Y7 (c : Dev nD) : FVec Ideal S1 .f32 := m ((c : Thread nD τ).loc main_arg7)

/-- The input array is as launched when the affine pass is entered. -/
theorem E3_input (c : Dev nD) : E3 m ρ c (Proc.devRef .tc main_arg0) = m ((c : Thread nD τ).loc main_arg0) :=
  ((E4_arr m ρ c 0).trans (((dat1 (V3 m ρ) c).arrAt_in 0 rfl _).trans (arrays1 (V3 m ρ) c 0))).symm.trans (end_main_arg0 m ρ c)

/-- The scalar result is the reference's. -/
theorem div_eq (c : Dev nD) (h0 : ∀ k, IsReal (X0 m c k)) :
    E3 m ρ c (Proc.devRef .tc main_v51) = val_main_v58 (F := Ideal) (X0 m c) (Y1 m c) (Y2 m c) (Y5 m c) (Y6 m c) :=
  div_read m ρ c (mean_row_eq m ρ c) (var_row_eq m ρ c h0)

/-- The array the affine pass leaves is the reference's normalised output. -/
theorem out_eq (c : Dev nD) (h0 : ∀ k, IsReal (X0 m c k)) (h1 : ∀ k, IsReal (Y1 m c k)) (h2 : ∀ k, IsReal (Y2 m c k))
    (h3 : ∀ k, IsReal (Y3 m c k)) (h4 : ∀ k, IsReal (Y4 m c k)) (h5 : ∀ k, IsReal (Y5 m c k)) (h6 : ∀ k, IsReal (Y6 m c k))
    (h7 : ∀ k, IsReal (Y7 m c k))
    (hpos : ∀ ch : Fin 256, 0 < (val_main_v78 (F := Ideal) (X0 m c) (Y1 m c) (Y2 m c) (Y5 m c) (Y6 m c) (Y7 m c)) (ix1 ch) + Ideal.ofBits .f32 0x3727C5AC#32) :
    affineAll (V3 m ρ) c = val_main_v93 (F := Ideal) (X0 m c) (Y1 m c) (Y2 m c) (Y3 m c) (Y4 m c) (Y5 m c) (Y6 m c) (Y7 m c) := by
  have hbm := mean_row_eq m ρ c
  have hbv := var_row_eq m ρ c h0
  have hsc := scale_read m ρ c hbm hbv
  have hsh := shift_read m ρ c hbm hbv
  funext k
  obtain ⟨n, ch, h, w, rfl⟩ : ∃ (n : Fin 64) (ch : Fin 256) (h w : Fin 56), k = ix4 n ch h w := ⟨k 0, k 1, k 2, k 3, eq_ix4 k⟩
  rw [out_at]
  have e0 : inX (V3 m ρ) c (ix4 n ch h w) = X0 m c (ix4 n ch h w) := congrFun (E3_input m ρ c) _
  have es : scaleRow (V3 m ρ) c (ix1 ch)
      = Ideal.div (Y3 m c (ix1 ch)) (Ideal.sqrt ((val_main_v78 (F := Ideal) (X0 m c) (Y1 m c) (Y2 m c) (Y5 m c) (Y6 m c) (Y7 m c)) (ix1 ch) + Ideal.ofBits .f32 0x3727C5AC#32)) := by
    show (E3 m ρ c (Proc.devRef .tc main_v75) : S256.Idx → EReal) (ix1 ch) = _
    rw [hsc]; rfl
  have et : shiftRow (V3 m ρ) c (ix1 ch)
      = Y4 m c (ix1 ch) - (val_main_v65 (F := Ideal) (X0 m c) (Y1 m c) (Y5 m c) (Y7 m c)) (ix1 ch)
          * Ideal.div (Y3 m c (ix1 ch)) (Ideal.sqrt ((val_main_v78 (F := Ideal) (X0 m c) (Y1 m c) (Y2 m c) (Y5 m c) (Y6 m c) (Y7 m c)) (ix1 ch) + Ideal.ofBits .f32 0x3727C5AC#32)) := by
    show (E3 m ρ c (Proc.devRef .tc main_v77) : S256.Idx → EReal) (ix1 ch) = _
    rw [hsh]; rfl
  show inX (V3 m ρ) c (ix4 n ch h w) * scaleRow (V3 m ρ) c (ix1 ch) + shiftRow (V3 m ρ) c (ix1 ch) = _
  rw [e0, es, et]
  obtain ⟨xr, hx⟩ := h0 (ix4 n ch h w)
  obtain ⟨mr, hm⟩ := running_mean_real (X0 m c) (Y1 m c) (Y5 m c) (Y7 m c) h0 h1 h5 h7 ch
  obtain ⟨wr, hw⟩ := h3 (ix1 ch)
  obtain ⟨br, hb⟩ := h4 (ix1 ch)
  obtain ⟨vr, hv⟩ := running_var_real (X0 m c) (Y1 m c) (Y2 m c) (Y5 m c) (Y6 m c) (Y7 m c) h0 h1 h2 h5 h6 h7 ch
  obtain ⟨er, he⟩ := isReal_ofBits_f32 0x3727C5AC#32 (by decide)
  have hp := hpos ch
  rw [hv, he, ← EReal.coe_add] at hp
  have hr : 0 < vr + er := EReal.coe_pos.mp hp
  obtain ⟨hs, hne⟩ := sqrt_pos_coe hr
  rw [hx, hm, hw, hb, hv, he, ← EReal.coe_add, hs]
  exact (affine_forms xr mr wr br (Real.sqrt (vr + er)) hne).symm

end Cert.KernelIdeal.Fr

end
-- ==== Proof.PreDecode.lean ====
/-
  What the precondition says, at the extended reals: every entry of every input is a real number (its absolute value
  lies below +infinity), and on every channel the reference's running variance plus eps — the number the reference takes
  the square root of and divides by — is positive. The precondition computes that number by the reference's own
  operations, so it IS the reference's stage.
-/
import proofs.«106418_j11261404250602_2_alg».proof.Pre_finite_inputs
import proofs.«106418_j11261404250602_2_alg».proof.Proof.Gen.Pre_finite_inputs
import proofs.«106418_j11261404250602_2_alg».proof.Proof.Gen.ReferenceIdeal.Read
import proofs.«106418_j11261404250602_2_alg».proof.Proof.LibReal
import Idealize.ShloMosaic.Lib.ReduceAll
import Idealize.ShloMosaic.Lib.Affine
import Idealize.ShloMosaic.Lib.ValueIdx
import Idealize.ShloMosaic.PureOps.Ideal.Laws

noncomputable section

namespace Cert.Pre_finite_inputs.Decode

open Cert.Pre_finite_inputs Idealize.ShloMosaic Idealize.ShloMosaic.ValueIdx Idealize.ShloMosaic.RealEntries

variable [Cert.Pre_finite_inputs.Facts] [Cert.ReferenceIdeal.Facts]

instance : Subsingleton S_.Idx := ⟨fun a b => funext fun d => d.elim0⟩

/-- The pattern of +infinity denotes the top element. -/
theorem inf_word : Ideal.ofBits .f32 0x7F800000#32 = ⊤ := by simp [Ideal.ofBits, Ideal.ieee]

/-- A decided proposition whose truth bit is one holds. -/
theorem of_bit_one {p : Prop} [Decidable p] (h : BitVec.ofBool (decide p) = 1#1) : p := by
  by_contra hp
  rw [decide_eq_false hp] at h
  exact absurd h (by decide)

/-- An entry whose absolute value compares below +infinity is a real number. -/
theorem real_of_lt_inf {s : Shape} (x y : FVec Ideal s .f32) (i : s.Idx) (hy : y i = Ideal.ofBits .f32 0x7F800000#32)
    (h : cmpf .olt (Host.absf x) y i = 1#1) : IsReal (x i) := by
  have h' : Ideal.cmp .olt (max (x i) (-(x i))) (y i) = 1#1 := h
  rw [hy, inf_word] at h'
  exact isReal_of_abs_lt_top (of_bit_one (p := max (x i) (-(x i)) < ⊤) h')

/-- A comparison "greater than" that holds gives the strict inequality. -/
theorem lt_of_ogt {a b : EReal} (h : Ideal.cmp .ogt a b = 1#1) : b < a :=
  of_bit_one (p := b < a) h

theorem decode (x0 : FVec Ideal S64x256x56x56 .f32) (x1 x2 x3 x4 x5 x6 : FVec Ideal S256 .f32) (x7 : FVec Ideal S1 .f32)
    (h : Cert.Pre_finite_inputs.fn (F := Ideal) x0 x1 x2 x3 x4 x5 x6 x7 = fun _ => 1#1) :
    (∀ k, IsReal (x0 k)) ∧ (∀ k, IsReal (x1 k)) ∧ (∀ k, IsReal (x2 k)) ∧ (∀ k, IsReal (x3 k)) ∧ (∀ k, IsReal (x4 k))
      ∧ (∀ k, IsReal (x5 k)) ∧ (∀ k, IsReal (x6 k)) ∧ (∀ k, IsReal (x7 k))
      ∧ ∀ ch : Fin 256, 0 < Cert.ReferenceIdeal.Read.val_main_v78 (F := Ideal) x0 x1 x2 x5 x6 x7 (ix1 ch) + Ideal.ofBits .f32 0x3727C5AC#32 := by
  have e := congrFun h ix0
  dsimp only [fn, fn_part1, fn_part2, fn_part3, fn_part4] at e
  simp only [andi, IntOp.andi_eq_one] at e
  obtain ⟨⟨⟨⟨⟨⟨⟨⟨e0, e1⟩, e2⟩, e3⟩, e4⟩, e5⟩, e6⟩, e7⟩, e8⟩ := e
  refine ⟨fun k => ?_, fun k => ?_, fun k => ?_, fun k => ?_, fun k => ?_, fun k => ?_, fun k => ?_, fun k => ?_, fun ch => ?_⟩
  · exact real_of_lt_inf x0 _ k rfl (Host.reduce_andi_all _ _ _ _ _ e0 k)
  · exact real_of_lt_inf x1 _ k rfl (Host.reduce_andi_all _ _ _ _ _ e1 k)
  · exact real_of_lt_inf x2 _ k rfl (Host.reduce_andi_all _ _ _ _ _ e2 k)
  · exact real_of_lt_inf x3 _ k rfl (Host.reduce_andi_all _ _ _ _ _ e3 k)
  · exact real_of_lt_inf x4 _ k rfl (Host.reduce_andi_all _ _ _ _ _ e4 k)
  · exact real_of_lt_inf x5 _ k rfl (Host.reduce_andi_all _ _ _ _ _ e5 k)
  · exact real_of_lt_inf x6 _ k rfl (Host.reduce_andi_all _ _ _ _ _ e6 k)
  · exact real_of_lt_inf x7 _ k rfl (Host.reduce_andi_all _ _ _ _ _ e7 k)
  · have e := Host.reduce_andi_all _ _ _ _ _ e8 (ix1 ch)
    have e' : Ideal.cmp .ogt (Cert.ReferenceIdeal.Read.val_main_v78 (F := Ideal) x0 x1 x2 x5 x6 x7 (ix1 ch) + Ideal.ofBits .f32 0x3727C5AC#32)
        (Ideal.ofBits .f32 0x00000000#32) = 1#1 := e
    have := lt_of_ogt e'
    rwa [Ideal.ofBits_zero_f32] at this

end Cert.Pre_finite_inputs.Decode

end
-- ==== Proof.lean ====
/-
  Batch normalisation with blended running moments, computed in two passes against the plain formula.

  The kernel's first pass walks the batch two rows at a time and keeps, per channel, the running sum and sum of squares
  of the 64 * 56 * 56 entries; at the end it writes mean = sum / n and variance = sum of squares / n - mean^2. The
  reference takes mean = (sum) / n and variance = (sum of squared deviations from the mean) / n. On the extended reals
  the two means are one sum in two groupings; the two variances agree by the identity
  "mean of squared deviations = mean of squares - square of the mean", which holds because every input entry is a real
  number (the precondition's finiteness). Between the passes both programs apply the same host operations to those
  statistics: the blended running mean and variance, the symmetric divergence of the two diagonal Gaussians (the scalar
  result, equal as soon as the statistics are), and then the kernel forms scale = weight / s and
  shift = bias - running_mean * scale with s = sqrt(running_var + eps), and its second pass stores x * scale + shift,
  where the reference stores (x - running_mean) / s * weight + bias. These are one value when s is a positive real:
  the precondition says running_var + eps > 0 on every channel, and running_var is real because everything it is made of is.

  The three frames: both kernels' by running @main as its four segments (the statistics pass, two stretches of host
  operations, the affine pass), the statistics pass carrying its two accumulator rows from point to point; the reference's
  from its generated run.
-/
import proofs.«106418_j11261404250602_2_alg».proof.Defs
import proofs.«106418_j11261404250602_2_alg».proof.Proof.Gen.Kernel
import proofs.«106418_j11261404250602_2_alg».proof.Proof.Gen.KernelIdeal
import proofs.«106418_j11261404250602_2_alg».proof.Proof.Gen.ReferenceIdeal
import proofs.«106418_j11261404250602_2_alg».proof.Proof.Gen.Pre_finite_inputs
import proofs.«106418_j11261404250602_2_alg».proof.Proof.Gen.ReferenceIdeal.Run
import proofs.«106418_j11261404250602_2_alg».proof.Proof.Gen.ReferenceIdeal.Read
import proofs.«106418_j11261404250602_2_alg».proof.Proof.KB.Whole
import proofs.«106418_j11261404250602_2_alg».proof.Proof.KI.OutBridge
import proofs.«106418_j11261404250602_2_alg».proof.Proof.PreDecode
import Idealize.ShloMosaic.Adequacy
import Idealize.ShloMosaic.Init

noncomputable section

namespace Cert.Proof

open Idealize.ShloMosaic Idealize.ShloMosaic.TcCoe Idealize.SL.Sem

/-- The word-level kernel runs to the end, faults nowhere and leaves its arguments as launched. -/
theorem frame_kernel : Cert.frame_Kernel := fun m ρ _ => Cert.Kernel.Fr.frame (F := Bits) m ρ

/-- So does the idealized kernel. -/
theorem frame_kernel_ideal : Cert.frame_KernelIdeal := fun m ρ _ => Cert.KernelIdeal.Fr.frame (F := Ideal) m ρ

/-- So does the reference: its generated run with the results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The ideal pass rewrote nothing. -/
theorem preserves : Cert.preserves_Kernel_KernelIdeal := trivial

/-- Both programs end with the same normalised array and the same divergence. -/
theorem algebraic : Cert.algebraic_KernelIdeal_ReferenceIdeal := by
  intro m ρ m' ρ' hpre hagree
  refine ⟨fun c => Cert.ReferenceIdeal.Value.res_main_v93 m' c, fun c => Cert.ReferenceIdeal.Value.res_main_v58 m' c, ?_,
    Cert.ReferenceIdeal.Value.run (F := Ideal) m' ρ'⟩
  refine (θ_run Cert.KernelIdeal.defs _ _).mono (fun r h c => ?_) (Cert.KernelIdeal.Fr.run_all (F := Ideal) m ρ)
  obtain ⟨h0, h1, h2, h3, h4, h5, h6, h7, hpos⟩ :=
    Cert.Pre_finite_inputs.Decode.decode (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (hpre c)
  obtain ⟨g0, g1, g2, g3, g4, g5, g6, g7⟩ := hagree c
  have hout : r.2.mem ((c.tc : Thread Cert.KernelIdeal.nD Cert.KernelIdeal.τ).loc Cert.KernelIdeal.main_v78)
      = Cert.ReferenceIdeal.Value.res_main_v93 m' c := by
    rw [Cert.ReferenceIdeal.Read.val_main_v93_eq, g0, g1, g2, g3, g4, g5, g6, g7]
    exact (h c _ (Cert.KernelIdeal.Fr.mem_uc Cert.KernelIdeal.main_v78 (by decide))).trans
      ((Cert.KernelIdeal.Fr.E4_arr m ρ c 3).trans ((Cert.KernelIdeal.Fr.out_final (Cert.KernelIdeal.Fr.V3 m ρ) c).trans
        (Cert.KernelIdeal.Fr.out_eq m ρ c h0 h1 h2 h3 h4 h5 h6 h7 hpos)))
  have hdiv : r.2.mem ((c.tc : Thread Cert.KernelIdeal.nD Cert.KernelIdeal.τ).loc Cert.KernelIdeal.main_v51)
      = Cert.ReferenceIdeal.Value.res_main_v58 m' c := by
    rw [Cert.ReferenceIdeal.Read.val_main_v58_eq, g0, g1, g2, g5, g6]
    exact (h c _ (Cert.KernelIdeal.Fr.mem_uc Cert.KernelIdeal.main_v51 (by decide))).trans
      ((Cert.KernelIdeal.Fr.E4_of_ne m ρ c Cert.KernelIdeal.main_v51 (by decide)).trans (Cert.KernelIdeal.Fr.div_eq m ρ c h0))
  exact ⟨hout, hdiv,
    (h c _ (Cert.KernelIdeal.Fr.mem_uc Cert.KernelIdeal.main_arg0 (by decide))).trans (Cert.KernelIdeal.Fr.end_main_arg0 m ρ c),
    (h c _ (Cert.KernelIdeal.Fr.mem_uc Cert.KernelIdeal.main_arg1 (by decide))).trans (Cert.KernelIdeal.Fr.end_main_arg1 m ρ c),
    (h c _ (Cert.KernelIdeal.Fr.mem_uc Cert.KernelIdeal.main_arg2 (by decide))).trans (Cert.KernelIdeal.Fr.end_main_arg2 m ρ c),
    (h c _ (Cert.KernelIdeal.Fr.mem_uc Cert.KernelIdeal.main_arg3 (by decide))).trans (Cert.KernelIdeal.Fr.end_main_arg3 m ρ c),
    (h c _ (Cert.KernelIdeal.Fr.mem_uc Cert.KernelIdeal.main_arg4 (by decide))).trans (Cert.KernelIdeal.Fr.end_main_arg4 m ρ c),
    (h c _ (Cert.KernelIdeal.Fr.mem_uc Cert.KernelIdeal.main_arg5 (by decide))).trans (Cert.KernelIdeal.Fr.end_main_arg5 m ρ c),
    (h c _ (Cert.KernelIdeal.Fr.mem_uc Cert.KernelIdeal.main_arg6 (by decide))).trans (Cert.KernelIdeal.Fr.end_main_arg6 m ρ c),
    (h c _ (Cert.KernelIdeal.Fr.mem_uc Cert.KernelIdeal.main_arg7 (by decide))).trans (Cert.KernelIdeal.Fr.end_main_arg7 m ρ c)⟩

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
